-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x64 .f32) (main_arg6 : FVec F S64 .f32) (main_arg7 : FVec F S64x1 .f32) (main_arg8 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x16 .f32) (main_arg2 : FVec F S16 .f32) (main_arg3 : FVec F S16x32 .f32) (main_arg4 : FVec F S32 .f32) (main_arg5 : FVec F S32x64 .f32) (main_arg6 : FVec F S64 .f32) (main_arg7 : FVec F S64x1 .f32) (main_arg8 : FVec F S1 .f32) (main_arg9 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x16 : Shape := ⟨2, ![100000, 16]⟩
abbrev S10000x128 : Shape := ⟨2, ![10000, 128]⟩
abbrev S10000x1 : Shape := ⟨2, ![10000, 1]⟩
abbrev S10000x16 : Shape := ⟨2, ![10000, 16]⟩
abbrev S1700000x16 : Shape := ⟨2, ![1700000, 16]⟩
abbrev S1x16 : Shape := ⟨2, ![1, 16]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩

abbrev nBuf : Space → Nat
  | .hbm => 89
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S2x1600000, .i32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x16, .bf16⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x16, .bf16⟩
  | .hbm, ⟨42, _⟩ => ⟨S1700000x16, .f32⟩
  | .hbm, ⟨43, _⟩ => ⟨S_, .f32⟩
  | .hbm, ⟨44, _⟩ => ⟨S100000x16, .f32⟩
  | .hbm, ⟨45, _⟩ => ⟨S1700000x1, .i32⟩
  | .hbm, ⟨46, _⟩ => ⟨S100000x16, .f32⟩
  | .hbm, ⟨47, _⟩ => ⟨S100000x1, .f32⟩
  | .hbm, ⟨48, _⟩ => ⟨S1x16, .f32⟩
  | .hbm, ⟨49, _⟩ => ⟨S100000x16, .f32⟩
  | .hbm, ⟨50, _⟩ => ⟨S100000x1, .f32⟩
  | .hbm, ⟨51, _⟩ => ⟨S100000x32, .bf16⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x32, .bf16⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S100000x1, .f32⟩
  | .hbm, ⟨67, _⟩ => ⟨S1x32, .f32⟩
  | .hbm, ⟨68, _⟩ => ⟨S100000x32, .f32⟩
  | .hbm, ⟨69, _⟩ => ⟨S100000x1, .f32⟩
  | .hbm, ⟨70, _⟩ => ⟨S100000x64, .bf16⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .bf16⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S100000x1, .f32⟩
  | .hbm, ⟨86, _⟩ => ⟨S1x64, .f32⟩
  | .hbm, ⟨87, _⟩ => ⟨S1x1, .f32⟩
  | .hbm, ⟨88, _⟩ => ⟨S1x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x1, .f32⟩
  | .local _ .vmem, ⟨4, _⟩ => ⟨S10000x1, .f32⟩
  | .local _ .vmem, ⟨5, _⟩ => ⟨S10000x16, .bf16⟩
  | .local _ .vmem, ⟨6, _⟩ => ⟨S10000x16, .bf16⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x32, .f32⟩
  | .local _ .vmem, ⟨17, _⟩ => ⟨S10000x1, .f32⟩
  | .local _ .vmem, ⟨18, _⟩ => ⟨S10000x1, .f32⟩
  | .local _ .vmem, ⟨19, _⟩ => ⟨S10000x32, .bf16⟩
  | .local _ .vmem, ⟨20, _⟩ => ⟨S10000x32, .bf16⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S32x64, .f32⟩
  | .local _ .vmem, ⟨31, _⟩ => ⟨S10000x1, .f32⟩
  | .local _ .vmem, ⟨32, _⟩ => ⟨S10000x1, .f32⟩
  | .local _ .vmem, ⟨33, _⟩ => ⟨S10000x64, .bf16⟩
  | .local _ .vmem, ⟨34, _⟩ => ⟨S10000x64, .bf16⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S64x1, .f32⟩
  | .local _ .vmem, ⟨41, _⟩ => ⟨S1x1, .f32⟩
  | .local _ .vmem, ⟨42, _⟩ => ⟨S1x1, .f32⟩
  | .local _ .vmem, ⟨43, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_10 : BitVec 32 := 0#32
  let v23 : BitVec 1 := Scalar.cmpi .ne v22 c0_i32_10
  v23

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  packedbf16_S10000x16_S10000x16_0_0 : (Rect.unit (s := S10000x16) ![0, 0] S10000x16.size inb_S10000x16_S10000x16_0_0).PackedRows (EltTy.packing .bf16)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  shapeCasts_S64_S1x64 : S64.ShapeCasts S1x64
  shapeCasts_S1_S1x1 : S1.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S10000x64_S10000x64 : S10000x64.ShapeCasts S10000x64
  broadcasts_S1x64_S10000x64 : S1x64.Broadcasts S10000x64
  reduces_S10000x64_S64 : S10000x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  scatter_S100000_S1700000x1_S1700000_n_0_0_1_wf : ScatterDims.WF S100000 S1700000x1 S1700000 [] [0] [0] 1
  dot_S10000x128_S128x16_S10000x16_1_0_0_1_n_n_wf : DotDims.WF S10000x128 S128x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x32_S10000x32_1_0_0_1_n_n_wf : DotDims.WF S10000x16 S16x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .bf16 = 32 ∨ (Rect.block (s := S100000x16) S10000x16.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .bf16 = 32 ∨ (Rect.block (s := S100000x32) S10000x32.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .bf16 = 32 ∨ (Rect.block (s := S100000x64) S10000x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x1.size a ≤ S64x1.size a
  hwx5_3 : ∀ i : grid5.Coords, EltTy.bits .f32 = 32 ∨ (Rect.block (s := S64x1) S64x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v59) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S64x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v63) S1x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x16 : Shape := ⟨2, ![100000, 16]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x32 : Shape := ⟨2, ![100000, 32]⟩
abbrev S1700000x32 : Shape := ⟨2, ![1700000, 32]⟩
abbrev S1x32 : Shape := ⟨2, ![1, 32]⟩
abbrev S100000x64 : Shape := ⟨2, ![100000, 64]⟩
abbrev S1700000x64 : Shape := ⟨2, ![1700000, 64]⟩
abbrev S1x64 : Shape := ⟨2, ![1, 64]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S128x16, .f32⟩
  | 2 => ⟨S16, .f32⟩
  | 3 => ⟨S16x32, .f32⟩
  | 4 => ⟨S32, .f32⟩
  | 5 => ⟨S32x64, .f32⟩
  | 6 => ⟨S64, .f32⟩
  | 7 => ⟨S64x1, .f32⟩
  | 8 => ⟨S1, .f32⟩
  | 9 => ⟨S2x1600000, .i32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S100000x16, .f32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x16, .f32⟩
  | 60 => ⟨S1700000x1, .f32⟩
  | 61 => ⟨S1700000x16, .f32⟩
  | 62 => ⟨S1700000x16, .f32⟩
  | 63 => ⟨S_, .f32⟩
  | 64 => ⟨S100000x16, .f32⟩
  | 65 => ⟨S1700000x1, .i32⟩
  | 66 => ⟨S100000x16, .f32⟩
  | 67 => ⟨S1x16, .f32⟩
  | 68 => ⟨S100000x16, .f32⟩
  | 69 => ⟨S100000x16, .f32⟩
  | 70 => ⟨S100000x16, .f32⟩
  | 71 => ⟨S100000x32, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x32, .f32⟩
  | 114 => ⟨S1700000x1, .f32⟩
  | 115 => ⟨S1700000x32, .f32⟩
  | 116 => ⟨S1700000x32, .f32⟩
  | 117 => ⟨S_, .f32⟩
  | 118 => ⟨S100000x32, .f32⟩
  | 119 => ⟨S1700000x1, .i32⟩
  | 120 => ⟨S100000x32, .f32⟩
  | 121 => ⟨S1x32, .f32⟩
  | 122 => ⟨S100000x32, .f32⟩
  | 123 => ⟨S100000x32, .f32⟩
  | 124 => ⟨S100000x32, .f32⟩
  | 125 => ⟨S100000x64, .f32⟩
  | 126 => ⟨S_, .f32⟩
  | 127 => ⟨S1700000, .f32⟩
  | _ => ⟨S100000x128, .f32⟩

abbrev hbmTy0_1 (i : Nat) : BufTy := match i % 128 with
  | 0 => ⟨S_, .f32⟩
  | 1 => ⟨S100000, .f32⟩
  | 2 => ⟨S1700000x1, .i32⟩
  | 3 => ⟨S100000, .f32⟩
  | 4 => ⟨S_, .f32⟩
  | 5 => ⟨S100000, .f32⟩
  | 6 => ⟨S100000, .i1⟩
  | 7 => ⟨S100000, .f32⟩
  | 8 => ⟨S_, .f32⟩
  | 9 => ⟨S_, .f32⟩
  | 10 => ⟨S100000, .f32⟩
  | 11 => ⟨S100000, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000, .f32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000x64, .f32⟩
  | 40 => ⟨S1700000x1, .f32⟩
  | 41 => ⟨S1700000x64, .f32⟩
  | 42 => ⟨S1700000x64, .f32⟩
  | 43 => ⟨S_, .f32⟩
  | 44 => ⟨S100000x64, .f32⟩
  | 45 => ⟨S1700000x1, .i32⟩
  | 46 => ⟨S100000x64, .f32⟩
  | 47 => ⟨S1x64, .f32⟩
  | 48 => ⟨S100000x64, .f32⟩
  | 49 => ⟨S100000x64, .f32⟩
  | 50 => ⟨S100000x64, .f32⟩
  | 51 => ⟨S_, .f32⟩
  | 52 => ⟨S64, .f32⟩
  | 53 => ⟨S1x64, .f32⟩
  | 54 => ⟨S1x1, .f32⟩
  | 55 => ⟨S1x1, .f32⟩
  | 56 => ⟨S1x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_23 : Ref sig .tc := ⟨.hbm, 136, rfl⟩
abbrev main_call2_v0 : Ref sig .tc := ⟨.hbm, 137, rfl⟩
abbrev main_call2_v1 : Ref sig .tc := ⟨.hbm, 138, rfl⟩
abbrev main_v97 : Ref sig .tc := ⟨.hbm, 139, rfl⟩
abbrev main_c_24 : Ref sig .tc := ⟨.hbm, 140, rfl⟩
abbrev main_v98 : Ref sig .tc := ⟨.hbm, 141, rfl⟩
abbrev main_v99 : Ref sig .tc := ⟨.hbm, 142, rfl⟩
abbrev main_c_25 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_c_26 : Ref sig .tc := ⟨.hbm, 149, rfl⟩
abbrev main_v105 : Ref sig .tc := ⟨.hbm, 150, rfl⟩
abbrev main_v106 : Ref sig .tc := ⟨.hbm, 151, rfl⟩
abbrev main_c_27 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_28 : Ref sig .tc := ⟨.hbm, 159, rfl⟩
abbrev main_v113 : Ref sig .tc := ⟨.hbm, 160, rfl⟩
abbrev main_v114 : Ref sig .tc := ⟨.hbm, 161, rfl⟩
abbrev main_c_29 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_30 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_31 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S1_S1x1_1 : S1.BroadcastsInDim S1x1 (![1] : Fin 1 → Fin S1x1.rank)
  dot_S100000x128_S128x16_S100000x16_1_0_0_1_n_n_wf : DotDims.WF S100000x128 S128x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x32_S100000x32_1_0_0_1_n_n_wf : DotDims.WF S100000x16 S16x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x1_S1x1_1_0_0_1_n_n_wf : DotDims.WF S1x64 S64x1 S1x1 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.KReg0.lean ====
import proofs.«106155_j30657476559342_2_alg».proof.Proof.Gen.Kernel.Launch
import proofs.«106155_j30657476559342_2_alg».proof.Proof.Gen.Kernel.Skeleton
import proofs.«106155_j30657476559342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (unfetched, the block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (unfetched, the block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole staging buffer -/

abbrev r0_0 : Rect S10000x128 := Rect.unit (s := S10000x128) ![0, 0] S10000x128.size inb_S10000x128_S10000x128_0_0
abbrev r0_1 : Rect S128x16 := Rect.unit (s := S128x16) ![0, 0] S128x16.size inb_S128x16_S128x16_0_0
abbrev r0_2 : Rect S10000x1 := Rect.unit (s := S10000x1) ![0, 0] S10000x1.size inb_S10000x1_S10000x1_0_0
abbrev r0_3 : Rect S10000x16 := Rect.unit (s := S10000x16) ![0, 0] S10000x16.size inb_S10000x16_S10000x16_0_0

/-! ## What the body leaves in the output window's buffer -/

/-- Window 3's staging buffer after the body, from the input windows' blocks: its one store, of the payload of the
    three loads. -/
def out0_3 (x0 : Vec F S10000x128 .f32) (x1 : Vec F S128x16 .f32) (x2 : Vec F S10000x1 .f32) : Vec F S10000x16 .bf16 :=
  View.canon [⟨r0_3, k0_pay1 (View.ld x0 r0_0) (View.ld x1 r0_1) (View.ld x2 r0_2)⟩]

/-- The one store is the whole buffer, so it covers it. -/
theorem cover0_3 (p0 : Vec F S10000x16 .bf16) (y : S10000x16.Idx) :
    ∃ pc ∈ ([⟨r0_3, p0⟩] : List (View.Piece (Elt F) S10000x16 .bf16)), y ∈ pc.1.set :=
  View.cover_of_tiled [⟨r0_3, p0⟩] S10000x16.size (by rfl) y

/-! ## The body's triple -/

set_option maxHeartbeats 1000000 in
/-- The kernel body on whole staging memrefs, the inputs' at read contents `x0 x1 x2` and the output's at anything, runs
    to the continuation holding the inputs' as they were and the output's at `out0_3` of the inputs'. -/
theorem sound_kernel0 (c : Dev nD) (E : Set ℕ) (i : grid0.Coords) (arg1 : Memref sig .tc .vmem S10000x128 .f32) (harg1 : arg1.IsWhole) (arg2 : Memref sig .tc .vmem S128x16 .f32) (harg2 : arg2.IsWhole) (arg3 : Memref sig .tc .vmem S10000x1 .f32) (harg3 : arg3.IsWhole) (arg4 : Memref sig .tc .vmem S10000x16 .bf16) (harg4 : arg4.IsWhole)
    (x0 : Vec F S10000x128 .f32) (x1 : Vec F S128x16 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KReg1.lean ====
import proofs.«106155_j30657476559342_2_alg».proof.Proof.Gen.Kernel.Launch
import proofs.«106155_j30657476559342_2_alg».proof.Proof.Gen.Kernel.Skeleton
import proofs.«106155_j30657476559342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev r1_0 : Rect S10000x16 := Rect.unit (s := S10000x16) ![0, 0] S10000x16.size inb_S10000x16_S10000x16_0_0
abbrev r1_1 : Rect S10000x1 := Rect.unit (s := S10000x1) ![0, 0] S10000x1.size inb_S10000x1_S10000x1_0_0
abbrev r1_2 : Rect S1x16 := Rect.unit (s := S1x16) ![0, 0] S1x16.size inb_S1x16_S1x16_0_0
abbrev r1_3 : Rect S10000x16 := Rect.unit (s := S10000x16) ![0, 0] S10000x16.size inb_S10000x16_S10000x16_0_0

/-! ## What the body leaves in the output window's buffer -/

/-- Window 3's staging buffer after the body, from the input windows' blocks: its one store, of the payload of the
    three loads. -/
def out1_3 (x0 : Vec F S10000x16 .f32) (x1 : Vec F S10000x1 .f32) (x2 : Vec F S1x16 .f32) : Vec F S10000x16 .f32 :=
  View.canon [⟨r1_3, k1_pay1 (View.ld x1 r1_1) (View.ld x0 r1_0) (View.ld x2 r1_2)⟩]

/-- The one store is the whole buffer, so it covers it. -/
theorem cover1_3 (p0 : Vec F S10000x16 .f32) (y : S10000x16.Idx) :
    ∃ pc ∈ ([⟨r1_3, p0⟩] : List (View.Piece (Elt F) S10000x16 .f32)), y ∈ pc.1.set :=
  View.cover_of_tiled [⟨r1_3, p0⟩] S10000x16.size (by rfl) y

/-! ## The body's triple -/

set_option maxHeartbeats 1000000 in
/-- The kernel body on whole staging memrefs, the inputs' at read contents `x0 x1 x2` and the output's at anything, runs
    to the continuation holding the inputs' as they were and the output's at `out1_3` of the inputs'. -/
theorem sound_kernel1 (c : Dev nD) (E : Set ℕ) (i : grid1.Coords) (arg1 : Memref sig .tc .vmem S10000x16 .f32) (harg1 : arg1.IsWhole) (arg2 : Memref sig .tc .vmem S10000x1 .f32) (harg2 : arg2.IsWhole) (arg3 : Memref sig .tc .vmem S1x16 .f32) (harg3 : arg3.IsWhole) (arg4 : Memref sig .tc .vmem S10000x16 .f32) (harg4 : arg4.IsWhole)
    (x0 : Vec F S10000x16 .f32) (x1 : Vec F S10000x1 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_tanh_dinv_kernel i arg1 harg1 arg2 harg2 arg3 harg3 arg4 harg4) K := by
  simp only [cc1__bias_tanh_dinv_kernel_eq_skeleton]; unfold cc1__bias_tanh_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KReg2.lean ====
import proofs.«106155_j30657476559342_2_alg».proof.Proof.Gen.Kernel.Launch
import proofs.«106155_j30657476559342_2_alg».proof.Proof.Gen.Kernel.Skeleton
import proofs.«106155_j30657476559342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (unfetched, the block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (unfetched, the block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole staging buffer -/

abbrev r2_0 : Rect S10000x16 := Rect.unit (s := S10000x16) ![0, 0] S10000x16.size inb_S10000x16_S10000x16_0_0
abbrev r2_1 : Rect S16x32 := Rect.unit (s := S16x32) ![0, 0] S16x32.size inb_S16x32_S16x32_0_0
abbrev r2_2 : Rect S10000x1 := Rect.unit (s := S10000x1) ![0, 0] S10000x1.size inb_S10000x1_S10000x1_0_0
abbrev r2_3 : Rect S10000x32 := Rect.unit (s := S10000x32) ![0, 0] S10000x32.size inb_S10000x32_S10000x32_0_0

/-! ## What the body leaves in the output window's buffer -/

/-- Window 3's staging buffer after the body, from the input windows' blocks: its one store, of the payload of the
    three loads. -/
def out2_3 (x0 : Vec F S10000x16 .f32) (x1 : Vec F S16x32 .f32) (x2 : Vec F S10000x1 .f32) : Vec F S10000x32 .bf16 :=
  View.canon [⟨r2_3, k2_pay1 (View.ld x0 r2_0) (View.ld x1 r2_1) (View.ld x2 r2_2)⟩]

/-- The one store is the whole buffer, so it covers it. -/
theorem cover2_3 (p0 : Vec F S10000x32 .bf16) (y : S10000x32.Idx) :
    ∃ pc ∈ ([⟨r2_3, p0⟩] : List (View.Piece (Elt F) S10000x32 .bf16)), y ∈ pc.1.set :=
  View.cover_of_tiled [⟨r2_3, p0⟩] S10000x32.size (by rfl) y

/-! ## The body's triple -/

set_option maxHeartbeats 1000000 in
/-- The kernel body on whole staging memrefs, the inputs' at read contents `x0 x1 x2` and the output's at anything, runs
    to the continuation holding the inputs' as they were and the output's at `out2_3` of the inputs'. -/
theorem sound_kernel2 (c : Dev nD) (E : Set ℕ) (i : grid2.Coords) (arg1 : Memref sig .tc .vmem S10000x16 .f32) (harg1 : arg1.IsWhole) (arg2 : Memref sig .tc .vmem S16x32 .f32) (harg2 : arg2.IsWhole) (arg3 : Memref sig .tc .vmem S10000x1 .f32) (harg3 : arg3.IsWhole) (arg4 : Memref sig .tc .vmem S10000x32 .bf16) (harg4 : arg4.IsWhole)
    (x0 : Vec F S10000x16 .f32) (x1 : Vec F S16x32 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_dinv_kernel i arg1 harg1 arg2 harg2 arg3 harg3 arg4 harg4) K := by
  simp only [cc2__matmul_dinv_kernel_eq_skeleton]; unfold cc2__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KReg3.lean ====
import proofs.«106155_j30657476559342_2_alg».proof.Proof.Gen.Kernel.Launch
import proofs.«106155_j30657476559342_2_alg».proof.Proof.Gen.Kernel.Skeleton
import proofs.«106155_j30657476559342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the block
    index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (unfetched, the block
    index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (unfetched, the block
    index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole staging buffer -/

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S1x32 := Rect.unit (s := S1x32) ![0, 0] S1x32.size inb_S1x32_S1x32_0_0
abbrev r3_3 : Rect S10000x32 := Rect.unit (s := S10000x32) ![0, 0] S10000x32.size inb_S10000x32_S10000x32_0_0

/-! ## What the body leaves in the output window's buffer -/

/-- Window 3's staging buffer after the body, from the input windows' blocks: its one store, of the payload of the
    three loads. -/
def out3_3 (x0 : Vec F S10000x32 .f32) (x1 : Vec F S10000x1 .f32) (x2 : Vec F S1x32 .f32) : Vec F S10000x32 .f32 :=
  View.canon [⟨r3_3, k3_pay1 (View.ld x1 r3_1) (View.ld x0 r3_0) (View.ld x2 r3_2)⟩]

/-- The one store is the whole buffer, so it covers it. -/
theorem cover3_3 (p0 : Vec F S10000x32 .f32) (y : S10000x32.Idx) :
    ∃ pc ∈ ([⟨r3_3, p0⟩] : List (View.Piece (Elt F) S10000x32 .f32)), y ∈ pc.1.set :=
  View.cover_of_tiled [⟨r3_3, p0⟩] S10000x32.size (by rfl) y

/-! ## The body's triple -/

set_option maxHeartbeats 1000000 in
/-- The kernel body on whole staging memrefs, the inputs' at read contents `x0 x1 x2` and the output's at anything, runs
    to the continuation holding the inputs' as they were and the output's at `out3_3` of the inputs'. -/
theorem sound_kernel3 (c : Dev nD) (E : Set ℕ) (i : grid3.Coords) (arg1 : Memref sig .tc .vmem S10000x32 .f32) (harg1 : arg1.IsWhole) (arg2 : Memref sig .tc .vmem S10000x1 .f32) (harg2 : arg2.IsWhole) (arg3 : Memref sig .tc .vmem S1x32 .f32) (harg3 : arg3.IsWhole) (arg4 : Memref sig .tc .vmem S10000x32 .f32) (harg4 : arg4.IsWhole)
    (x0 : Vec F S10000x32 .f32) (x1 : Vec F S10000x1 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bias_tanh_dinv_kernel i arg1 harg1 arg2 harg2 arg3 harg3 arg4 harg4) K := by
  simp only [cc3__bias_tanh_dinv_kernel_eq_skeleton]; unfold cc3__bias_tanh_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.KReg4.lean ====
import proofs.«106155_j30657476559342_2_alg».proof.Proof.Gen.Kernel.Launch
import proofs.«106155_j30657476559342_2_alg».proof.Proof.Gen.Kernel.Skeleton
import proofs.«106155_j30657476559342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the block
    index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (unfetched, the block
    index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (unfetched, the block
    index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take the whole staging buffer -/

abbrev r4_0 : Rect S10000x32 := Rect.unit (s := S10000x32) ![0, 0] S10000x32.size inb_S10000x32_S10000x32_0_0
abbrev r4_1 : Rect S32x64 := Rect.unit (s := S32x64) ![0, 0] S32x64.size inb_S32x64_S32x64_0_0
abbrev r4_2 : Rect S10000x1 := Rect.unit (s := S10000x1) ![0, 0] S10000x1.size inb_S10000x1_S10000x1_0_0
abbrev r4_3 : Rect S10000x64 := Rect.unit (s := S10000x64) ![0, 0] S10000x64.size inb_S10000x64_S10000x64_0_0

/-! ## What the body leaves in the output window's buffer -/

/-- Window 3's staging buffer after the body, from the input windows' blocks: its one store, of the payload of the
    three loads. -/
def out4_3 (x0 : Vec F S10000x32 .f32) (x1 : Vec F S32x64 .f32) (x2 : Vec F S10000x1 .f32) : Vec F S10000x64 .bf16 :=
  View.canon [⟨r4_3, k4_pay1 (View.ld x0 r4_0) (View.ld x1 r4_1) (View.ld x2 r4_2)⟩]

/-- The one store is the whole buffer, so it covers it. -/
theorem cover4_3 (p0 : Vec F S10000x64 .bf16) (y : S10000x64.Idx) :
    ∃ pc ∈ ([⟨r4_3, p0⟩] : List (View.Piece (Elt F) S10000x64 .bf16)), y ∈ pc.1.set :=
  View.cover_of_tiled [⟨r4_3, p0⟩] S10000x64.size (by rfl) y

/-! ## The body's triple -/

set_option maxHeartbeats 1000000 in
/-- The kernel body on whole staging memrefs, the inputs' at read contents `x0 x1 x2` and the output's at anything, runs
    to the continuation holding the inputs' as they were and the output's at `out4_3` of the inputs'. -/
theorem sound_kernel4 (c : Dev nD) (E : Set ℕ) (i : grid4.Coords) (arg1 : Memref sig .tc .vmem S10000x32 .f32) (harg1 : arg1.IsWhole) (arg2 : Memref sig .tc .vmem S32x64 .f32) (harg2 : arg2.IsWhole) (arg3 : Memref sig .tc .vmem S10000x1 .f32) (harg3 : arg3.IsWhole) (arg4 : Memref sig .tc .vmem S10000x64 .bf16) (harg4 : arg4.IsWhole)
    (x0 : Vec F S10000x32 .f32) (x1 : Vec F S32x64 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_dinv_kernel i arg1 harg1 arg2 harg2 arg3 harg3 arg4 harg4) K := by
  simp only [cc4__matmul_dinv_kernel_eq_skeleton]; unfold cc4__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Hand

end
-- ==== Proof.KReg5Runs.lean ====
import proofs.«106155_j30657476559342_2_alg».proof.Proof.Gen.Kernel.Launch
import proofs.«106155_j30657476559342_2_alg».proof.Proof.Gen.Kernel.Skeleton
import proofs.«106155_j30657476559342_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Region5

/-! ## The body's two branch conditions, in closed form over the ten grid points -/

/-- The condition of the first conditional (the scratch is reset), from the grid coordinate. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 10 = 0 :=
  (by decide +kernel : ∀ t : Fin grid5.N, cond5_0 (grid5.coords t) ↔ t.val % 10 = 0)

/-- The condition of the second conditional (the output block is stored). -/
abbrev cond5_1 (i : grid5.Coords) : Prop := k5_cond2 i = 1#1
/-- It holds at the last point only. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
/-- At the first point the output window is idle (nothing is stored into it) and is not written back. -/
theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel
/-- The same at the middle points. -/
theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel
/-- At the last point the output window is live: the body stores into it. -/
theorem liveAt5_5_C : ∀ t : Fin cfg5.N, ¬cond5_0 (grid5.coords t) → cond5_1 (grid5.coords t) → cfg5.idle 5 (grid5.coords t) = false := by decide +kernel

/-! ## The memrefs the body is called with -/

/-- One staging buffer of the output window, through which its contents are stated. -/
abbrev VO5_5 : View sig .tc .vmem S1x1 .f32 := (Memref.whole cc5_stg5_0 : Memref sig .tc .vmem S1x1 .f32).view
abbrev ms5_0 (t : Fin cfg5.N) : Memref sig .tc .vmem S10000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x1 .f32 := win5_5.stage (cfg5.slots t 5)
abbrev hs5_5 (t : Fin cfg5.N) : (ms5_5 t).IsWhole := hstage5_5 ((cfg5.slots t 5).cast nbuf5_5)
/-- The scratch operand: a whole scoped buffer of the kernel's own, passed beside the windows. -/
abbrev scM5_0 : Memref sig .tc .vmem S1x64 .f32 := Memref.whole cc5_scratch0
/-- The scratch carried between points, as a view. -/
abbrev VS5_0 : View sig .tc .vmem S1x64 .f32 := scM5_0.view

/-- The region's invariant as the launch hands it over, with the scratch operand as a memref owned at some contents and
    the other scoped buffers unopened. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.KReg5RunA.lean ====
import proofs.«106155_j30657476559342_2_alg».proof.Proof.KReg5Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), AT THE FIRST POINT (the reset taken, the output store not taken), with
    the proof that on whole memrefs — the inputs' at their contents, the output's, which the body does not touch here, at contents `xi5` handed back untouched,
    the scratch at anything — the body runs to the continuation holding the inputs' as they were
    and the scratch with its pieces written. The pieces are the witness the run finds. -/
noncomputable def kernelRun5_A (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) :
    Σ' (L5 : List (View.Piece (Elt F) S1x1 .f32)), { LS0 : List (View.Piece (Elt F) S1x64 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__agg_bias_tanh_pool_kernel i arg1 harg1 arg2 harg2 arg3 harg3 arg4 harg4 arg5 harg5 arg6 harg6 arg7 harg7) K } := by
  refine ⟨[], ?_, fun xi5 E K => ?run⟩
  case run =>
    simp only [cc5__agg_bias_tanh_pool_kernel_eq_skeleton]; unfold cc5__agg_bias_tanh_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.KReg5RunB.lean ====
import proofs.«106155_j30657476559342_2_alg».proof.Proof.KReg5Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), AT A MIDDLE POINT (neither conditional taken), with
    the proof that on whole memrefs — the inputs' at their contents, the output's, which the body does not touch here, at contents `xi5` handed back untouched,
    the scratch at the contents `xs0` the point before left — the body runs to the continuation holding the inputs' as they were
    and the scratch with its pieces written. The pieces are the witness the run finds. -/
noncomputable def kernelRun5_B (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) :
    Σ' (L5 : List (View.Piece (Elt F) S1x1 .f32)), { LS0 : List (View.Piece (Elt F) S1x64 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__agg_bias_tanh_pool_kernel i arg1 harg1 arg2 harg2 arg3 harg3 arg4 harg4 arg5 harg5 arg6 harg6 arg7 harg7) K } := by
  refine ⟨[], ?_, fun xi5 E K => ?run⟩
  case run =>
    simp only [cc5__agg_bias_tanh_pool_kernel_eq_skeleton]; unfold cc5__agg_bias_tanh_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.KReg5RunC.lean ====
import proofs.«106155_j30657476559342_2_alg».proof.Proof.KReg5Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), AT THE LAST POINT (the reset not taken, the output store taken), with
    the proof that on whole memrefs — the inputs' at their contents, the output's at anything,
    the scratch at the contents `xs0` the point before left — the body runs to the continuation holding the inputs' as they were, the output's with its pieces written
    and the scratch with its pieces written. The pieces are the witness the run finds. -/
noncomputable def kernelRun5_C (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) :
    Σ' (L5 : List (View.Piece (Elt F) S1x1 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc5__agg_bias_tanh_pool_kernel i arg1 harg1 arg2 harg2 arg3 harg3 arg4 harg4 arg5 harg5 arg6 harg6 arg7 harg7) K } := by
  refine ⟨?_, ?_, fun E K => ?run⟩
  case run =>
    simp only [cc5__agg_bias_tanh_pool_kernel_eq_skeleton]; unfold cc5__agg_bias_tanh_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.KReg5.lean ====
import proofs.«106155_j30657476559342_2_alg».proof.Proof.KReg5RunA
import proofs.«106155_j30657476559342_2_alg».proof.Proof.KReg5RunB
import proofs.«106155_j30657476559342_2_alg».proof.Proof.KReg5RunC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point stores nothing into the output's staging buffer (the window is idle there and not written back):
    a placeholder that nothing consults. -/
def out5_A_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) : Vec F S1x1 .f32 :=
  VO5_5.read (Elt F) (VO5_5.writes (Elt F) VO5_5.junk (kernelRun5_A c i arg1 harg1 arg2 harg2 arg3 harg3 arg4 harg4 arg5 harg5 arg6 harg6 arg7 harg7 hc0 hc1 x0 x1 x2 x3 x4).1)

/-- The pieces stored into the scratch at the first point tile it, so they cover it. -/
theorem scover5_A_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) (y : S1x64.Idx) :
    ∃ pc ∈ (kernelRun5_A c i arg1 harg1 arg2 harg2 arg3 harg3 arg4 harg4 arg5 harg5 arg6 harg6 arg7 harg7 hc0 hc1 x0 x1 x2 x3 x4).2.1, y ∈ pc.1.set :=
  View.cover_of_tiledL (kernelRun5_A c i arg1 harg1 arg2 harg2 arg3 harg3 arg4 harg4 arg5 harg5 arg6 harg6 arg7 harg7 hc0 hc1 x0 x1 x2 x3 x4).2.1 S1x64.size (by sl_kernel_rfl) y

/-- What that point leaves in the scratch: its pieces read back. -/
def sout5_A_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) : Vec F S1x64 .f32 :=
  VS5_0.read (Elt F) (VS5_0.writes (Elt F) VS5_0.junk (kernelRun5_A c i arg1 harg1 arg2 harg2 arg3 harg3 arg4 harg4 arg5 harg5 arg6 harg6 arg7 harg7 hc0 hc1 x0 x1 x2 x3 x4).2.1)

/-- A middle point stores nothing into the output's staging buffer (the window is idle there and not written back):
    a placeholder that nothing consults. -/
def out5_B_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x1 .f32 :=
  VO5_5.read (Elt F) (VO5_5.writes (Elt F) VO5_5.junk (kernelRun5_B c i arg1 harg1 arg2 harg2 arg3 harg3 arg4 harg4 arg5 harg5 arg6 harg6 arg7 harg7 hc0 hc1 x0 x1 x2 x3 x4 xs0).1)

/-- The pieces stored into the scratch at a middle point tile it, so they cover it. -/
theorem scover5_B_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) (y : S1x64.Idx) :
    ∃ pc ∈ (kernelRun5_B c i arg1 harg1 arg2 harg2 arg3 harg3 arg4 harg4 arg5 harg5 arg6 harg6 arg7 harg7 hc0 hc1 x0 x1 x2 x3 x4 xs0).2.1, y ∈ pc.1.set :=
  View.cover_of_tiledL (kernelRun5_B c i arg1 harg1 arg2 harg2 arg3 harg3 arg4 harg4 arg5 harg5 arg6 harg6 arg7 harg7 hc0 hc1 x0 x1 x2 x3 x4 xs0).2.1 S1x64.size (by sl_kernel_rfl) y

/-- What that point leaves in the scratch: its pieces read back. -/
def sout5_B_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x64 .f32 :=
  VS5_0.read (Elt F) (VS5_0.writes (Elt F) VS5_0.junk (kernelRun5_B c i arg1 harg1 arg2 harg2 arg3 harg3 arg4 harg4 arg5 harg5 arg6 harg6 arg7 harg7 hc0 hc1 x0 x1 x2 x3 x4 xs0).2.1)

/-- At the last point the pieces stored into the output's staging buffer tile it, so they cover it. -/
theorem cover5_C_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) (y : S1x1.Idx) :
    ∃ pc ∈ (kernelRun5_C c i arg1 harg1 arg2 harg2 arg3 harg3 arg4 harg4 arg5 harg5 arg6 harg6 arg7 harg7 hc0 hc1 x0 x1 x2 x3 x4 xs0).1, y ∈ pc.1.set :=
  View.cover_of_tiledL (kernelRun5_C c i arg1 harg1 arg2 harg2 arg3 harg3 arg4 harg4 arg5 harg5 arg6 harg6 arg7 harg7 hc0 hc1 x0 x1 x2 x3 x4 xs0).1 S1x1.size (by sl_kernel_rfl) y

/-- What the last point leaves in the output's staging buffer: its pieces read back. -/
def out5_C_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x1 .f32 :=
  VO5_5.read (Elt F) (VO5_5.writes (Elt F) VO5_5.junk (kernelRun5_C c i arg1 harg1 arg2 harg2 arg3 harg3 arg4 harg4 arg5 harg5 arg6 harg6 arg7 harg7 hc0 hc1 x0 x1 x2 x3 x4 xs0).1)

/-- The pieces stored into the scratch at the last point tile it, so they cover it. -/
theorem scover5_C_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) (y : S1x64.Idx) :
    ∃ pc ∈ (kernelRun5_C c i arg1 harg1 arg2 harg2 arg3 harg3 arg4 harg4 arg5 harg5 arg6 harg6 arg7 harg7 hc0 hc1 x0 x1 x2 x3 x4 xs0).2.1, y ∈ pc.1.set :=
  View.cover_of_tiledL (kernelRun5_C c i arg1 harg1 arg2 harg2 arg3 harg3 arg4 harg4 arg5 harg5 arg6 harg6 arg7 harg7 hc0 hc1 x0 x1 x2 x3 x4 xs0).2.1 S1x64.size (by sl_kernel_rfl) y

/-- What that point leaves in the scratch: its pieces read back. -/
def sout5_C_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x64 .f32 :=
  VS5_0.read (Elt F) (VS5_0.writes (Elt F) VS5_0.junk (kernelRun5_C c i arg1 harg1 arg2 harg2 arg3 harg3 arg4 harg4 arg5 harg5 arg6 harg6 arg7 harg7 hc0 hc1 x0 x1 x2 x3 x4 xs0).2.1)

section Region5
-- the TensorCore's buffer contents when the region is entered: a parameter
variable (V : (c : Dev nD) → (b : Ref sig .tc) → Buf (Elt F) ((c : Thread nD τ).loc b))

/-! ## What the output block and the scratch hold after each point -/

/-- THE ACCUMULATION: what the output's staging buffer and the scratch carried between points hold after the body at
    position `n`: at the first point the reset then one maximum; at every later point the maximum over what the point
    before left; at the last point also the output block, computed from the scratch. -/
def outsAt5 (c : Dev nD) : (n : ℕ) → n < cfg5.N → Vec F S1x1 .f32 × Vec F S1x64 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h1 : (n + 1) % 10 = 9 then
      (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
    else
      (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

/-- `outsAt5` at the first point. -/
theorem outsAt5_A (c : Dev nD) (t : Fin cfg5.N) (h0 : t.val % 10 = 0) (h1 : ¬t.val % 10 = 9) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (by exfalso; have hN : n + 1 < 10 := lt_of_lt_of_eq hn (show cfg5.N = 10 from N_5); (try dsimp only at h0); omega)

/-- `outsAt5` at a middle point: over what the point before left. -/
theorem outsAt5_B (c : Dev nD) (t : Fin cfg5.N) (h0 : ¬t.val % 10 = 0) (h1 : ¬t.val % 10 = 9) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt5` at the last point: over what the point before left. -/
theorem outsAt5_C (c : Dev nD) (t : Fin cfg5.N) (h0 : ¬t.val % 10 = 0) (h1 : t.val % 10 = 9) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point what the launch hands over (the scratch at
    anything); afterwards the scratch at what the point before left in it, the other scoped buffers unopened, and the
    generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the output's at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the closed forms say which of the three cases the point
    is in; the invariant hands the body the scratch at what the point before left (at anything at the first point) and
    takes it back at this point's contents; the other scoped buffers, the generator register and the core's debts pass
    through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  by_cases h0 : t.val % 10 = 0
  · have h1 : ¬t.val % 10 = 9 := by omega
    have hz : t.val = 0 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
    rw [outsAt5_A V c t h0 h1]
    unfold sout5_A_0; (try dsimp only)
    rw [PhiS5_castSucc V c t, PhiS5_zero V c _ _ hz, PhiA5_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover5_A_0 c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 10 = 9
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [outsAt5_C V c t h0 h1]
      unfold out5_C_5 sout5_C_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C_5 c _ _ _ _ _ _ _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 10 := N_5; omega)

end Region5

end Cert.Kernel.Hand

end
-- ==== Proof.KRun.lean ====
import proofs.«106155_j30657476559342_2_alg».proof.Proof.KReg0
import proofs.«106155_j30657476559342_2_alg».proof.Proof.KReg1
import proofs.«106155_j30657476559342_2_alg».proof.Proof.KReg2
import proofs.«106155_j30657476559342_2_alg».proof.Proof.KReg3
import proofs.«106155_j30657476559342_2_alg».proof.Proof.KReg4
import proofs.«106155_j30657476559342_2_alg».proof.Proof.KReg5
import proofs.«106155_j30657476559342_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# The run of the whole program, region by region

Between two items of the program (a stretch of host operations, or a kernel region) every buffer that outlives
a region holds a definite array: the launch contents, then each stretch's operations applied in order, then, at
a region's exit, the region's output array at what its write-backs leave and every other buffer as entered.
Each region is entered from that state and left at the next one; the run ends with every such buffer at the
last state, from which the argument arrays are read back unchanged and the result array is named.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the stretch `hostOps0`. -/
abbrev W1 : Dev nD → Valuation τ sig (Elt F) := fun c => StableHlo.after hostOps0 (W0 m c)
/-- After the stretch `hostOps0_1`. -/
abbrev W2 : Dev nD → Valuation τ sig (Elt F) := fun c => StableHlo.after hostOps0_1 (W1 m c)
/-- After the stretch `hostOps0_2`. -/
abbrev W3 : Dev nD → Valuation τ sig (Elt F) := fun c => StableHlo.after hostOps0_2 (W2 m c)
/-- The contents region 0 is entered from, read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- Region 0 changes its output array only: an input window's array is never written back. -/
theorem W4_keep (c : Dev nD) (b : Ref sig .tc) (hb : b ≠ main_v16) :
    W4 m c (Proc.devRef .tc b) = W3 m c (Proc.devRef .tc b) := by
  by_cases h : ∃ w, Pipeline.arrRef spec0 w = b
  · obtain ⟨w, rfl⟩ := h
    rw [W4_arr]
    have hin : (cfg0.win w).isOut = false := by
      rcases w with ⟨_ | _ | _ | _ | n, hw⟩
      · rfl
      · rfl
      · rfl
      · exact absurd rfl hb
      · exact absurd hw (Nat.not_lt.2 (Nat.le_add_left _ _))
    exact ((dat0 (V3 m) c).arrAt_in w hin _).trans (A_eq0 (V3 m) c w)
  · exact W4_of_ne m c b (fun w e => h ⟨w, e⟩)
/-- After the stretch `hostOps1`. -/
abbrev W5 : Dev nD → Valuation τ sig (Elt F) := fun c => StableHlo.after hostOps1 (W4 m c)
/-- The contents region 1 is entered from, read at the TensorCore's references. -/
abbrev V5 : (c : Dev nD) → (b : Ref sig .tc) → Buf (Elt F) ((c : Thread nD τ).loc b) := fun c b => W5 m c b
/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- Region 1 changes its output array only: an input window's array is never written back. -/
theorem W6_keep (c : Dev nD) (b : Ref sig .tc) (hb : b ≠ main_v30) :
    W6 m c (Proc.devRef .tc b) = W5 m c (Proc.devRef .tc b) := by
  by_cases h : ∃ w, Pipeline.arrRef spec1 w = b
  · obtain ⟨w, rfl⟩ := h
    rw [W6_arr]
    have hin : (cfg1.win w).isOut = false := by
      rcases w with ⟨_ | _ | _ | _ | n, hw⟩
      · rfl
      · rfl
      · rfl
      · exact absurd rfl hb
      · exact absurd hw (Nat.not_lt.2 (Nat.le_add_left _ _))
    exact ((dat1 (V5 m) c).arrAt_in w hin _).trans (A_eq1 (V5 m) c w)
  · exact W6_of_ne m c b (fun w e => h ⟨w, e⟩)
/-- After the stretch `hostOps2`. -/
abbrev W7 : Dev nD → Valuation τ sig (Elt F) := fun c => StableHlo.after hostOps2 (W6 m c)
/-- The contents region 2 is entered from, read at the TensorCore's references. -/
abbrev V7 : (c : Dev nD) → (b : Ref sig .tc) → Buf (Elt F) ((c : Thread nD τ).loc b) := fun c b => W7 m c b
/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- Region 2 changes its output array only: an input window's array is never written back. -/
theorem W8_keep (c : Dev nD) (b : Ref sig .tc) (hb : b ≠ main_v32) :
    W8 m c (Proc.devRef .tc b) = W7 m c (Proc.devRef .tc b) := by
  by_cases h : ∃ w, Pipeline.arrRef spec2 w = b
  · obtain ⟨w, rfl⟩ := h
    rw [W8_arr]
    have hin : (cfg2.win w).isOut = false := by
      rcases w with ⟨_ | _ | _ | _ | n, hw⟩
      · rfl
      · rfl
      · rfl
      · exact absurd rfl hb
      · exact absurd hw (Nat.not_lt.2 (Nat.le_add_left _ _))
    exact ((dat2 (V7 m) c).arrAt_in w hin _).trans (A_eq2 (V7 m) c w)
  · exact W8_of_ne m c b (fun w e => h ⟨w, e⟩)
/-- After the stretch `hostOps3`. -/
abbrev W9 : Dev nD → Valuation τ sig (Elt F) := fun c => StableHlo.after hostOps3 (W8 m c)
/-- The contents region 3 is entered from, read at the TensorCore's references. -/
abbrev V9 : (c : Dev nD) → (b : Ref sig .tc) → Buf (Elt F) ((c : Thread nD τ).loc b) := fun c b => W9 m c b
/-- At region 3's exit: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)
/-- Region 3 changes its output array only: an input window's array is never written back. -/
theorem W10_keep (c : Dev nD) (b : Ref sig .tc) (hb : b ≠ main_v46) :
    W10 m c (Proc.devRef .tc b) = W9 m c (Proc.devRef .tc b) := by
  by_cases h : ∃ w, Pipeline.arrRef spec3 w = b
  · obtain ⟨w, rfl⟩ := h
    rw [W10_arr]
    have hin : (cfg3.win w).isOut = false := by
      rcases w with ⟨_ | _ | _ | _ | n, hw⟩
      · rfl
      · rfl
      · rfl
      · exact absurd rfl hb
      · exact absurd hw (Nat.not_lt.2 (Nat.le_add_left _ _))
    exact ((dat3 (V9 m) c).arrAt_in w hin _).trans (A_eq3 (V9 m) c w)
  · exact W10_of_ne m c b (fun w e => h ⟨w, e⟩)
/-- After the stretch `hostOps4`. -/
abbrev W11 : Dev nD → Valuation τ sig (Elt F) := fun c => StableHlo.after hostOps4 (W10 m c)
/-- The contents region 4 is entered from, read at the TensorCore's references. -/
abbrev V11 : (c : Dev nD) → (b : Ref sig .tc) → Buf (Elt F) ((c : Thread nD τ).loc b) := fun c b => W11 m c b
/-- At region 4's exit: its arrays at what the pipeline leaves, every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)
/-- Region 4 changes its output array only: an input window's array is never written back. -/
theorem W12_keep (c : Dev nD) (b : Ref sig .tc) (hb : b ≠ main_v48) :
    W12 m c (Proc.devRef .tc b) = W11 m c (Proc.devRef .tc b) := by
  by_cases h : ∃ w, Pipeline.arrRef spec4 w = b
  · obtain ⟨w, rfl⟩ := h
    rw [W12_arr]
    have hin : (cfg4.win w).isOut = false := by
      rcases w with ⟨_ | _ | _ | _ | n, hw⟩
      · rfl
      · rfl
      · rfl
      · exact absurd rfl hb
      · exact absurd hw (Nat.not_lt.2 (Nat.le_add_left _ _))
    exact ((dat4 (V11 m) c).arrAt_in w hin _).trans (A_eq4 (V11 m) c w)
  · exact W12_of_ne m c b (fun w e => h ⟨w, e⟩)
/-- After the stretch `hostOps5`. -/
abbrev W13 : Dev nD → Valuation τ sig (Elt F) := fun c => StableHlo.after hostOps5 (W12 m c)
/-- The contents region 5 is entered from, read at the TensorCore's references. -/
abbrev V13 : (c : Dev nD) → (b : Ref sig .tc) → Buf (Elt F) ((c : Thread nD τ).loc b) := fun c b => W13 m c b
/-- At region 5's exit: its arrays at what the pipeline leaves, every other buffer as entered. -/
def W14 (c : Dev nD) : Valuation τ sig (Elt F) :=
  Pipeline.withArrays spec5 c (W13 m c) fun w => (dat5 (V13 m) c).arrAt w cfg5.N
theorem W14_arr (c : Dev nD) (w : Fin cfg5.W) :
    W14 m c (Proc.devRef .tc (Pipeline.arrRef spec5 w)) = (dat5 (V13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
abbrev V14 : (c : Dev nD) → (b : Ref sig .tc) → Buf (Elt F) ((c : Thread nD τ).loc b) := fun c b => W14 m c b
theorem hF5 (c : Dev nD) (w : Fin cfg5.W) : (dat5 (V13 m) c).arrAt w cfg5.N = V14 m c (Pipeline.arrRef spec5 w) :=
  (W14_arr m c w).symm
theorem hrest5 (c : Dev nD) : ∀ b, b ∉ Finset.univ.image (Pipeline.arrRef spec5) → V14 m c b = V13 m c b :=
  fun b hb => W14_of_ne m c b fun w e => hb (Finset.mem_image.mpr ⟨w, Finset.mem_univ _, e⟩)
/-- Region 5 changes its output array only: an input window's array is never written back. -/
theorem W14_keep (c : Dev nD) (b : Ref sig .tc) (hb : b ≠ main_v63) :
    W14 m c (Proc.devRef .tc b) = W13 m c (Proc.devRef .tc b) := by
  by_cases h : ∃ w, Pipeline.arrRef spec5 w = b
  · obtain ⟨w, rfl⟩ := h
    rw [W14_arr]
    have hin : (cfg5.win w).isOut = false := by
      rcases w with ⟨_ | _ | _ | _ | _ | _ | n, hw⟩
      · rfl
      · rfl
      · rfl
      · rfl
      · rfl
      · exact absurd rfl hb
      · exact absurd hw (Nat.not_lt.2 (Nat.le_add_left _ _))
    exact ((dat5 (V13 m) c).arrAt_in w hin _).trans (A_eq5 (V13 m) c w)
  · exact W14_of_ne m c b (fun w e => h ⟨w, e⟩)

/-! ## A buffer no item writes ends as launched -/

/-- The references some item of the program may write. -/
abbrev written : List (Ref sig .tc) :=
  hostOps0_W ++ hostOps0_1_W ++ hostOps0_2_W ++ hostOps1_W ++ hostOps2_W ++ hostOps3_W ++ hostOps4_W ++ hostOps5_W
    ++ [main_v16, main_v30, main_v32, main_v46, main_v48, main_v63]

theorem W14_unwritten (c : Dev nD) (b : Ref sig .tc) (hb : b ∉ (written : List (Ref sig .tc))) :
    W14 m c (Proc.devRef .tc b) = m ((c : Thread nD τ).loc b) := by
  simp only [written, List.mem_append, not_or] at hb
  obtain ⟨⟨⟨⟨⟨⟨⟨⟨h0, h01⟩, h02⟩, h1⟩, h2⟩, h3⟩, h4⟩, h5⟩, hr⟩ := hb
  have hne : ∀ r ∈ ([main_v16, main_v30, main_v32, main_v46, main_v48, main_v63] : List (Ref sig .tc)), b ≠ r :=
    fun r hrm e => hr (e ▸ hrm)
  calc W14 m c (Proc.devRef .tc b)
    _ = W13 m c (Proc.devRef .tc b) := W14_keep m c b (hne _ (by simp))
    _ = W12 m c (Proc.devRef .tc b) := StableHlo.after_of_writes_sub hostOps5 _ hostOps5_writes h5
    _ = W11 m c (Proc.devRef .tc b) := W12_keep m c b (hne _ (by simp))
    _ = W10 m c (Proc.devRef .tc b) := StableHlo.after_of_writes_sub hostOps4 _ hostOps4_writes h4
    _ = W9 m c (Proc.devRef .tc b) := W10_keep m c b (hne _ (by simp))
    _ = W8 m c (Proc.devRef .tc b) := StableHlo.after_of_writes_sub hostOps3 _ hostOps3_writes h3
    _ = W7 m c (Proc.devRef .tc b) := W8_keep m c b (hne _ (by simp))
    _ = W6 m c (Proc.devRef .tc b) := StableHlo.after_of_writes_sub hostOps2 _ hostOps2_writes h2
    _ = W5 m c (Proc.devRef .tc b) := W6_keep m c b (hne _ (by simp))
    _ = W4 m c (Proc.devRef .tc b) := StableHlo.after_of_writes_sub hostOps1 _ hostOps1_writes h1
    _ = W3 m c (Proc.devRef .tc b) := W4_keep m c b (hne _ (by simp))
    _ = W2 m c (Proc.devRef .tc b) := StableHlo.after_of_writes_sub hostOps0_2 _ hostOps0_2_writes h02
    _ = W1 m c (Proc.devRef .tc b) := StableHlo.after_of_writes_sub hostOps0_1 _ hostOps0_1_writes h01
    _ = W0 m c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c
  | ⟨5, _⟩ => fun c => dat5 (V13 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the register at some state. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0: entered from every unscoped buffer at `W3`, left at `W4`. Its arrays are split out of the
    unscoped buffers and put back at the exit contents; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`. Its arrays are split out of the
    unscoped buffers and put back at the exit contents; the generator register goes into the region's invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W7`, left at `W8`. Its arrays are split out of the
    unscoped buffers and put back at the exit contents; the generator register goes into the region's invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W9`, left at `W10`. Its arrays are split out of the
    unscoped buffers and put back at the exit contents; the generator register goes into the region's invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W11`, left at `W12`. Its arrays are split out of the
    unscoped buffers and put back at the exit contents; the generator register goes into the region's invariant and
    comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W13`, left at `W14`. Its arrays are split out of the
    unscoped buffers and put back at the exit contents; the generator register goes into the region's invariant and
    comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m) c).loose
  hwaits := Pipeline.hwaits_of_owed_zero _ _ _ _ L lv 5 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V13 m) c).Φ 0 from rfl]
    iintro ⟨Hp, -, Hr⟩
    iapply (hin5 (V13 m) c)
    unfold Pipeline.ΦA
    isplitl [Hr]; · iexact Hr
    iexact Hp
  hout c := by
    rw [Pipeline.ownSems0_none]
    have hA : (Pipeline.ΦA spec5 c : sProp 𝕄) ⊢ iprop((∃ r, prngReg c r) ∗ BI.emp ∗ Pipeline.scopedRest spec5 c) := by
      unfold Pipeline.ΦA
      iintro ⟨Hr, Hp⟩
      isplitl [Hp]; · iexact Hp
      isplitr; · iempintro
      iexact Hr
    exact (hout5 (V13 m) c).trans hA
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V13 m c) (V14 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 14 items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every buffer that outlives a region at the last contents `W14`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W14_unwritten m c main_arg0 (by decide)),
    (h c _ (mem_uc main_arg1 (by decide))).trans (W14_unwritten m c main_arg1 (by decide)),
    (h c _ (mem_uc main_arg2 (by decide))).trans (W14_unwritten m c main_arg2 (by decide)),
    (h c _ (mem_uc main_arg3 (by decide))).trans (W14_unwritten m c main_arg3 (by decide)),
    (h c _ (mem_uc main_arg4 (by decide))).trans (W14_unwritten m c main_arg4 (by decide)),
    (h c _ (mem_uc main_arg5 (by decide))).trans (W14_unwritten m c main_arg5 (by decide)),
    (h c _ (mem_uc main_arg6 (by decide))).trans (W14_unwritten m c main_arg6 (by decide)),
    (h c _ (mem_uc main_arg7 (by decide))).trans (W14_unwritten m c main_arg7 (by decide)),
    (h c _ (mem_uc main_arg8 (by decide))).trans (W14_unwritten m c main_arg8 (by decide)),
    (h c _ (mem_uc main_arg9 (by decide))).trans (W14_unwritten m c main_arg9 (by decide))⟩)
    (run_all m ρ)

end Cert.Kernel.Hand

end
-- ==== Proof.KIReg0.lean ====
import proofs.«106155_j30657476559342_2_alg».proof.Proof.Gen.KernelIdeal.Launch
import proofs.«106155_j30657476559342_2_alg».proof.Proof.Gen.KernelIdeal.Skeleton
import proofs.«106155_j30657476559342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (unfetched, the block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (unfetched, the block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole staging buffer -/

abbrev r0_0 : Rect S10000x128 := Rect.unit (s := S10000x128) ![0, 0] S10000x128.size inb_S10000x128_S10000x128_0_0
abbrev r0_1 : Rect S128x16 := Rect.unit (s := S128x16) ![0, 0] S128x16.size inb_S128x16_S128x16_0_0
abbrev r0_2 : Rect S10000x1 := Rect.unit (s := S10000x1) ![0, 0] S10000x1.size inb_S10000x1_S10000x1_0_0
abbrev r0_3 : Rect S10000x16 := Rect.unit (s := S10000x16) ![0, 0] S10000x16.size inb_S10000x16_S10000x16_0_0

/-! ## What the body leaves in the output window's buffer -/

/-- Window 3's staging buffer after the body, from the input windows' blocks: its one store, of the payload of the
    three loads. -/
def out0_3 (x0 : Vec F S10000x128 .f32) (x1 : Vec F S128x16 .f32) (x2 : Vec F S10000x1 .f32) : Vec F S10000x16 .bf16 :=
  View.canon [⟨r0_3, k0_pay1 (View.ld x0 r0_0) (View.ld x1 r0_1) (View.ld x2 r0_2)⟩]

/-- The one store is the whole buffer, so it covers it. -/
theorem cover0_3 (p0 : Vec F S10000x16 .bf16) (y : S10000x16.Idx) :
    ∃ pc ∈ ([⟨r0_3, p0⟩] : List (View.Piece (Elt F) S10000x16 .bf16)), y ∈ pc.1.set :=
  View.cover_of_tiled [⟨r0_3, p0⟩] S10000x16.size (by rfl) y

/-! ## The body's triple -/

set_option maxHeartbeats 1000000 in
/-- The kernel body on whole staging memrefs, the inputs' at read contents `x0 x1 x2` and the output's at anything, runs
    to the continuation holding the inputs' as they were and the output's at `out0_3` of the inputs'. -/
theorem sound_kernel0 (c : Dev nD) (E : Set ℕ) (i : grid0.Coords) (arg1 : Memref sig .tc .vmem S10000x128 .f32) (harg1 : arg1.IsWhole) (arg2 : Memref sig .tc .vmem S128x16 .f32) (harg2 : arg2.IsWhole) (arg3 : Memref sig .tc .vmem S10000x1 .f32) (harg3 : arg3.IsWhole) (arg4 : Memref sig .tc .vmem S10000x16 .bf16) (harg4 : arg4.IsWhole)
    (x0 : Vec F S10000x128 .f32) (x1 : Vec F S128x16 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIReg1.lean ====
import proofs.«106155_j30657476559342_2_alg».proof.Proof.Gen.KernelIdeal.Launch
import proofs.«106155_j30657476559342_2_alg».proof.Proof.Gen.KernelIdeal.Skeleton
import proofs.«106155_j30657476559342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev r1_0 : Rect S10000x16 := Rect.unit (s := S10000x16) ![0, 0] S10000x16.size inb_S10000x16_S10000x16_0_0
abbrev r1_1 : Rect S10000x1 := Rect.unit (s := S10000x1) ![0, 0] S10000x1.size inb_S10000x1_S10000x1_0_0
abbrev r1_2 : Rect S1x16 := Rect.unit (s := S1x16) ![0, 0] S1x16.size inb_S1x16_S1x16_0_0
abbrev r1_3 : Rect S10000x16 := Rect.unit (s := S10000x16) ![0, 0] S10000x16.size inb_S10000x16_S10000x16_0_0

/-! ## What the body leaves in the output window's buffer -/

/-- Window 3's staging buffer after the body, from the input windows' blocks: its one store, of the payload of the
    three loads. -/
def out1_3 (x0 : Vec F S10000x16 .f32) (x1 : Vec F S10000x1 .f32) (x2 : Vec F S1x16 .f32) : Vec F S10000x16 .f32 :=
  View.canon [⟨r1_3, k1_pay1 (View.ld x1 r1_1) (View.ld x0 r1_0) (View.ld x2 r1_2)⟩]

/-- The one store is the whole buffer, so it covers it. -/
theorem cover1_3 (p0 : Vec F S10000x16 .f32) (y : S10000x16.Idx) :
    ∃ pc ∈ ([⟨r1_3, p0⟩] : List (View.Piece (Elt F) S10000x16 .f32)), y ∈ pc.1.set :=
  View.cover_of_tiled [⟨r1_3, p0⟩] S10000x16.size (by rfl) y

/-! ## The body's triple -/

set_option maxHeartbeats 1000000 in
/-- The kernel body on whole staging memrefs, the inputs' at read contents `x0 x1 x2` and the output's at anything, runs
    to the continuation holding the inputs' as they were and the output's at `out1_3` of the inputs'. -/
theorem sound_kernel1 (c : Dev nD) (E : Set ℕ) (i : grid1.Coords) (arg1 : Memref sig .tc .vmem S10000x16 .f32) (harg1 : arg1.IsWhole) (arg2 : Memref sig .tc .vmem S10000x1 .f32) (harg2 : arg2.IsWhole) (arg3 : Memref sig .tc .vmem S1x16 .f32) (harg3 : arg3.IsWhole) (arg4 : Memref sig .tc .vmem S10000x16 .f32) (harg4 : arg4.IsWhole)
    (x0 : Vec F S10000x16 .f32) (x1 : Vec F S10000x1 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_tanh_dinv_kernel i arg1 harg1 arg2 harg2 arg3 harg3 arg4 harg4) K := by
  simp only [cc1__bias_tanh_dinv_kernel_eq_skeleton]; unfold cc1__bias_tanh_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIReg2.lean ====
import proofs.«106155_j30657476559342_2_alg».proof.Proof.Gen.KernelIdeal.Launch
import proofs.«106155_j30657476559342_2_alg».proof.Proof.Gen.KernelIdeal.Skeleton
import proofs.«106155_j30657476559342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (unfetched, the block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (unfetched, the block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole staging buffer -/

abbrev r2_0 : Rect S10000x16 := Rect.unit (s := S10000x16) ![0, 0] S10000x16.size inb_S10000x16_S10000x16_0_0
abbrev r2_1 : Rect S16x32 := Rect.unit (s := S16x32) ![0, 0] S16x32.size inb_S16x32_S16x32_0_0
abbrev r2_2 : Rect S10000x1 := Rect.unit (s := S10000x1) ![0, 0] S10000x1.size inb_S10000x1_S10000x1_0_0
abbrev r2_3 : Rect S10000x32 := Rect.unit (s := S10000x32) ![0, 0] S10000x32.size inb_S10000x32_S10000x32_0_0

/-! ## What the body leaves in the output window's buffer -/

/-- Window 3's staging buffer after the body, from the input windows' blocks: its one store, of the payload of the
    three loads. -/
def out2_3 (x0 : Vec F S10000x16 .f32) (x1 : Vec F S16x32 .f32) (x2 : Vec F S10000x1 .f32) : Vec F S10000x32 .bf16 :=
  View.canon [⟨r2_3, k2_pay1 (View.ld x0 r2_0) (View.ld x1 r2_1) (View.ld x2 r2_2)⟩]

/-- The one store is the whole buffer, so it covers it. -/
theorem cover2_3 (p0 : Vec F S10000x32 .bf16) (y : S10000x32.Idx) :
    ∃ pc ∈ ([⟨r2_3, p0⟩] : List (View.Piece (Elt F) S10000x32 .bf16)), y ∈ pc.1.set :=
  View.cover_of_tiled [⟨r2_3, p0⟩] S10000x32.size (by rfl) y

/-! ## The body's triple -/

set_option maxHeartbeats 1000000 in
/-- The kernel body on whole staging memrefs, the inputs' at read contents `x0 x1 x2` and the output's at anything, runs
    to the continuation holding the inputs' as they were and the output's at `out2_3` of the inputs'. -/
theorem sound_kernel2 (c : Dev nD) (E : Set ℕ) (i : grid2.Coords) (arg1 : Memref sig .tc .vmem S10000x16 .f32) (harg1 : arg1.IsWhole) (arg2 : Memref sig .tc .vmem S16x32 .f32) (harg2 : arg2.IsWhole) (arg3 : Memref sig .tc .vmem S10000x1 .f32) (harg3 : arg3.IsWhole) (arg4 : Memref sig .tc .vmem S10000x32 .bf16) (harg4 : arg4.IsWhole)
    (x0 : Vec F S10000x16 .f32) (x1 : Vec F S16x32 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_dinv_kernel i arg1 harg1 arg2 harg2 arg3 harg3 arg4 harg4) K := by
  simp only [cc2__matmul_dinv_kernel_eq_skeleton]; unfold cc2__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KIReg3.lean ====
import proofs.«106155_j30657476559342_2_alg».proof.Proof.Gen.KernelIdeal.Launch
import proofs.«106155_j30657476559342_2_alg».proof.Proof.Gen.KernelIdeal.Skeleton
import proofs.«106155_j30657476559342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the block
    index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (unfetched, the block
    index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (unfetched, the block
    index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole staging buffer -/

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S1x32 := Rect.unit (s := S1x32) ![0, 0] S1x32.size inb_S1x32_S1x32_0_0
abbrev r3_3 : Rect S10000x32 := Rect.unit (s := S10000x32) ![0, 0] S10000x32.size inb_S10000x32_S10000x32_0_0

/-! ## What the body leaves in the output window's buffer -/

/-- Window 3's staging buffer after the body, from the input windows' blocks: its one store, of the payload of the
    three loads. -/
def out3_3 (x0 : Vec F S10000x32 .f32) (x1 : Vec F S10000x1 .f32) (x2 : Vec F S1x32 .f32) : Vec F S10000x32 .f32 :=
  View.canon [⟨r3_3, k3_pay1 (View.ld x1 r3_1) (View.ld x0 r3_0) (View.ld x2 r3_2)⟩]

/-- The one store is the whole buffer, so it covers it. -/
theorem cover3_3 (p0 : Vec F S10000x32 .f32) (y : S10000x32.Idx) :
    ∃ pc ∈ ([⟨r3_3, p0⟩] : List (View.Piece (Elt F) S10000x32 .f32)), y ∈ pc.1.set :=
  View.cover_of_tiled [⟨r3_3, p0⟩] S10000x32.size (by rfl) y

/-! ## The body's triple -/

set_option maxHeartbeats 1000000 in
/-- The kernel body on whole staging memrefs, the inputs' at read contents `x0 x1 x2` and the output's at anything, runs
    to the continuation holding the inputs' as they were and the output's at `out3_3` of the inputs'. -/
theorem sound_kernel3 (c : Dev nD) (E : Set ℕ) (i : grid3.Coords) (arg1 : Memref sig .tc .vmem S10000x32 .f32) (harg1 : arg1.IsWhole) (arg2 : Memref sig .tc .vmem S10000x1 .f32) (harg2 : arg2.IsWhole) (arg3 : Memref sig .tc .vmem S1x32 .f32) (harg3 : arg3.IsWhole) (arg4 : Memref sig .tc .vmem S10000x32 .f32) (harg4 : arg4.IsWhole)
    (x0 : Vec F S10000x32 .f32) (x1 : Vec F S10000x1 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bias_tanh_dinv_kernel i arg1 harg1 arg2 harg2 arg3 harg3 arg4 harg4) K := by
  simp only [cc3__bias_tanh_dinv_kernel_eq_skeleton]; unfold cc3__bias_tanh_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KIReg4.lean ====
import proofs.«106155_j30657476559342_2_alg».proof.Proof.Gen.KernelIdeal.Launch
import proofs.«106155_j30657476559342_2_alg».proof.Proof.Gen.KernelIdeal.Skeleton
import proofs.«106155_j30657476559342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of @main, the kernel-body half, at a parameter `V` (the TensorCore's buffer contents when the region is
    entered): each window's block at a grid point, what the body leaves in the output window's staging buffer (the one
    whole-block store of the payload of the three whole-block loads), the body's triple, the pipeline's proof data and
    the body obligation at every grid point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the block
    index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (unfetched, the block
    index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (unfetched, the block
    index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take the whole staging buffer -/

abbrev r4_0 : Rect S10000x32 := Rect.unit (s := S10000x32) ![0, 0] S10000x32.size inb_S10000x32_S10000x32_0_0
abbrev r4_1 : Rect S32x64 := Rect.unit (s := S32x64) ![0, 0] S32x64.size inb_S32x64_S32x64_0_0
abbrev r4_2 : Rect S10000x1 := Rect.unit (s := S10000x1) ![0, 0] S10000x1.size inb_S10000x1_S10000x1_0_0
abbrev r4_3 : Rect S10000x64 := Rect.unit (s := S10000x64) ![0, 0] S10000x64.size inb_S10000x64_S10000x64_0_0

/-! ## What the body leaves in the output window's buffer -/

/-- Window 3's staging buffer after the body, from the input windows' blocks: its one store, of the payload of the
    three loads. -/
def out4_3 (x0 : Vec F S10000x32 .f32) (x1 : Vec F S32x64 .f32) (x2 : Vec F S10000x1 .f32) : Vec F S10000x64 .bf16 :=
  View.canon [⟨r4_3, k4_pay1 (View.ld x0 r4_0) (View.ld x1 r4_1) (View.ld x2 r4_2)⟩]

/-- The one store is the whole buffer, so it covers it. -/
theorem cover4_3 (p0 : Vec F S10000x64 .bf16) (y : S10000x64.Idx) :
    ∃ pc ∈ ([⟨r4_3, p0⟩] : List (View.Piece (Elt F) S10000x64 .bf16)), y ∈ pc.1.set :=
  View.cover_of_tiled [⟨r4_3, p0⟩] S10000x64.size (by rfl) y

/-! ## The body's triple -/

set_option maxHeartbeats 1000000 in
/-- The kernel body on whole staging memrefs, the inputs' at read contents `x0 x1 x2` and the output's at anything, runs
    to the continuation holding the inputs' as they were and the output's at `out4_3` of the inputs'. -/
theorem sound_kernel4 (c : Dev nD) (E : Set ℕ) (i : grid4.Coords) (arg1 : Memref sig .tc .vmem S10000x32 .f32) (harg1 : arg1.IsWhole) (arg2 : Memref sig .tc .vmem S32x64 .f32) (harg2 : arg2.IsWhole) (arg3 : Memref sig .tc .vmem S10000x1 .f32) (harg3 : arg3.IsWhole) (arg4 : Memref sig .tc .vmem S10000x64 .bf16) (harg4 : arg4.IsWhole)
    (x0 : Vec F S10000x32 .f32) (x1 : Vec F S32x64 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_dinv_kernel i arg1 harg1 arg2 harg2 arg3 harg3 arg4 harg4) K := by
  simp only [cc4__matmul_dinv_kernel_eq_skeleton]; unfold cc4__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Hand

end
-- ==== Proof.KIReg5Runs.lean ====
import proofs.«106155_j30657476559342_2_alg».proof.Proof.Gen.KernelIdeal.Launch
import proofs.«106155_j30657476559342_2_alg».proof.Proof.Gen.KernelIdeal.Skeleton
import proofs.«106155_j30657476559342_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Region5

/-! ## The body's two branch conditions, in closed form over the ten grid points -/

/-- The condition of the first conditional (the scratch is reset), from the grid coordinate. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 10 = 0 :=
  (by decide +kernel : ∀ t : Fin grid5.N, cond5_0 (grid5.coords t) ↔ t.val % 10 = 0)

/-- The condition of the second conditional (the output block is stored). -/
abbrev cond5_1 (i : grid5.Coords) : Prop := k5_cond2 i = 1#1
/-- It holds at the last point only. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
/-- At the first point the output window is idle (nothing is stored into it) and is not written back. -/
theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel
/-- The same at the middle points. -/
theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel
/-- At the last point the output window is live: the body stores into it. -/
theorem liveAt5_5_C : ∀ t : Fin cfg5.N, ¬cond5_0 (grid5.coords t) → cond5_1 (grid5.coords t) → cfg5.idle 5 (grid5.coords t) = false := by decide +kernel

/-! ## The memrefs the body is called with -/

/-- One staging buffer of the output window, through which its contents are stated. -/
abbrev VO5_5 : View sig .tc .vmem S1x1 .f32 := (Memref.whole cc5_stg5_0 : Memref sig .tc .vmem S1x1 .f32).view
abbrev ms5_0 (t : Fin cfg5.N) : Memref sig .tc .vmem S10000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x1 .f32 := win5_5.stage (cfg5.slots t 5)
abbrev hs5_5 (t : Fin cfg5.N) : (ms5_5 t).IsWhole := hstage5_5 ((cfg5.slots t 5).cast nbuf5_5)
/-- The scratch operand: a whole scoped buffer of the kernel's own, passed beside the windows. -/
abbrev scM5_0 : Memref sig .tc .vmem S1x64 .f32 := Memref.whole cc5_scratch0
/-- The scratch carried between points, as a view. -/
abbrev VS5_0 : View sig .tc .vmem S1x64 .f32 := scM5_0.view

/-- The region's invariant as the launch hands it over, with the scratch operand as a memref owned at some contents and
    the other scoped buffers unopened. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KIReg5RunA.lean ====
import proofs.«106155_j30657476559342_2_alg».proof.Proof.KIReg5Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), AT THE FIRST POINT (the reset taken, the output store not taken), with
    the proof that on whole memrefs — the inputs' at their contents, the output's, which the body does not touch here, at contents `xi5` handed back untouched,
    the scratch at anything — the body runs to the continuation holding the inputs' as they were
    and the scratch with its pieces written. The pieces are the witness the run finds. -/
noncomputable def kernelRun5_A (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) :
    Σ' (L5 : List (View.Piece (Elt F) S1x1 .f32)), { LS0 : List (View.Piece (Elt F) S1x64 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__agg_bias_tanh_pool_kernel i arg1 harg1 arg2 harg2 arg3 harg3 arg4 harg4 arg5 harg5 arg6 harg6 arg7 harg7) K } := by
  refine ⟨[], ?_, fun xi5 E K => ?run⟩
  case run =>
    simp only [cc5__agg_bias_tanh_pool_kernel_eq_skeleton]; unfold cc5__agg_bias_tanh_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.KIReg5RunB.lean ====
import proofs.«106155_j30657476559342_2_alg».proof.Proof.KIReg5Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), AT A MIDDLE POINT (neither conditional taken), with
    the proof that on whole memrefs — the inputs' at their contents, the output's, which the body does not touch here, at contents `xi5` handed back untouched,
    the scratch at the contents `xs0` the point before left — the body runs to the continuation holding the inputs' as they were
    and the scratch with its pieces written. The pieces are the witness the run finds. -/
noncomputable def kernelRun5_B (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) :
    Σ' (L5 : List (View.Piece (Elt F) S1x1 .f32)), { LS0 : List (View.Piece (Elt F) S1x64 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc5__agg_bias_tanh_pool_kernel i arg1 harg1 arg2 harg2 arg3 harg3 arg4 harg4 arg5 harg5 arg6 harg6 arg7 harg7) K } := by
  refine ⟨[], ?_, fun xi5 E K => ?run⟩
  case run =>
    simp only [cc5__agg_bias_tanh_pool_kernel_eq_skeleton]; unfold cc5__agg_bias_tanh_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.KIReg5RunC.lean ====
import proofs.«106155_j30657476559342_2_alg».proof.Proof.KIReg5Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), AT THE LAST POINT (the reset not taken, the output store taken), with
    the proof that on whole memrefs — the inputs' at their contents, the output's at anything,
    the scratch at the contents `xs0` the point before left — the body runs to the continuation holding the inputs' as they were, the output's with its pieces written
    and the scratch with its pieces written. The pieces are the witness the run finds. -/
noncomputable def kernelRun5_C (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) :
    Σ' (L5 : List (View.Piece (Elt F) S1x1 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc5__agg_bias_tanh_pool_kernel i arg1 harg1 arg2 harg2 arg3 harg3 arg4 harg4 arg5 harg5 arg6 harg6 arg7 harg7) K } := by
  refine ⟨?_, ?_, fun E K => ?run⟩
  case run =>
    simp only [cc5__agg_bias_tanh_pool_kernel_eq_skeleton]; unfold cc5__agg_bias_tanh_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KIReg5.lean ====
import proofs.«106155_j30657476559342_2_alg».proof.Proof.KIReg5RunA
import proofs.«106155_j30657476559342_2_alg».proof.Proof.KIReg5RunB
import proofs.«106155_j30657476559342_2_alg».proof.Proof.KIReg5RunC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point stores nothing into the output's staging buffer (the window is idle there and not written back):
    a placeholder that nothing consults. -/
def out5_A_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) : Vec F S1x1 .f32 :=
  VO5_5.read (Elt F) (VO5_5.writes (Elt F) VO5_5.junk (kernelRun5_A c i arg1 harg1 arg2 harg2 arg3 harg3 arg4 harg4 arg5 harg5 arg6 harg6 arg7 harg7 hc0 hc1 x0 x1 x2 x3 x4).1)

/-- The pieces stored into the scratch at the first point tile it, so they cover it. -/
theorem scover5_A_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) (y : S1x64.Idx) :
    ∃ pc ∈ (kernelRun5_A c i arg1 harg1 arg2 harg2 arg3 harg3 arg4 harg4 arg5 harg5 arg6 harg6 arg7 harg7 hc0 hc1 x0 x1 x2 x3 x4).2.1, y ∈ pc.1.set :=
  View.cover_of_tiledL (kernelRun5_A c i arg1 harg1 arg2 harg2 arg3 harg3 arg4 harg4 arg5 harg5 arg6 harg6 arg7 harg7 hc0 hc1 x0 x1 x2 x3 x4).2.1 S1x64.size (by sl_kernel_rfl) y

/-- What that point leaves in the scratch: its pieces read back. -/
def sout5_A_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) : Vec F S1x64 .f32 :=
  VS5_0.read (Elt F) (VS5_0.writes (Elt F) VS5_0.junk (kernelRun5_A c i arg1 harg1 arg2 harg2 arg3 harg3 arg4 harg4 arg5 harg5 arg6 harg6 arg7 harg7 hc0 hc1 x0 x1 x2 x3 x4).2.1)

/-- A middle point stores nothing into the output's staging buffer (the window is idle there and not written back):
    a placeholder that nothing consults. -/
def out5_B_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x1 .f32 :=
  VO5_5.read (Elt F) (VO5_5.writes (Elt F) VO5_5.junk (kernelRun5_B c i arg1 harg1 arg2 harg2 arg3 harg3 arg4 harg4 arg5 harg5 arg6 harg6 arg7 harg7 hc0 hc1 x0 x1 x2 x3 x4 xs0).1)

/-- The pieces stored into the scratch at a middle point tile it, so they cover it. -/
theorem scover5_B_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) (y : S1x64.Idx) :
    ∃ pc ∈ (kernelRun5_B c i arg1 harg1 arg2 harg2 arg3 harg3 arg4 harg4 arg5 harg5 arg6 harg6 arg7 harg7 hc0 hc1 x0 x1 x2 x3 x4 xs0).2.1, y ∈ pc.1.set :=
  View.cover_of_tiledL (kernelRun5_B c i arg1 harg1 arg2 harg2 arg3 harg3 arg4 harg4 arg5 harg5 arg6 harg6 arg7 harg7 hc0 hc1 x0 x1 x2 x3 x4 xs0).2.1 S1x64.size (by sl_kernel_rfl) y

/-- What that point leaves in the scratch: its pieces read back. -/
def sout5_B_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x64 .f32 :=
  VS5_0.read (Elt F) (VS5_0.writes (Elt F) VS5_0.junk (kernelRun5_B c i arg1 harg1 arg2 harg2 arg3 harg3 arg4 harg4 arg5 harg5 arg6 harg6 arg7 harg7 hc0 hc1 x0 x1 x2 x3 x4 xs0).2.1)

/-- At the last point the pieces stored into the output's staging buffer tile it, so they cover it. -/
theorem cover5_C_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) (y : S1x1.Idx) :
    ∃ pc ∈ (kernelRun5_C c i arg1 harg1 arg2 harg2 arg3 harg3 arg4 harg4 arg5 harg5 arg6 harg6 arg7 harg7 hc0 hc1 x0 x1 x2 x3 x4 xs0).1, y ∈ pc.1.set :=
  View.cover_of_tiledL (kernelRun5_C c i arg1 harg1 arg2 harg2 arg3 harg3 arg4 harg4 arg5 harg5 arg6 harg6 arg7 harg7 hc0 hc1 x0 x1 x2 x3 x4 xs0).1 S1x1.size (by sl_kernel_rfl) y

/-- What the last point leaves in the output's staging buffer: its pieces read back. -/
def out5_C_5 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x1 .f32 :=
  VO5_5.read (Elt F) (VO5_5.writes (Elt F) VO5_5.junk (kernelRun5_C c i arg1 harg1 arg2 harg2 arg3 harg3 arg4 harg4 arg5 harg5 arg6 harg6 arg7 harg7 hc0 hc1 x0 x1 x2 x3 x4 xs0).1)

/-- The pieces stored into the scratch at the last point tile it, so they cover it. -/
theorem scover5_C_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) (y : S1x64.Idx) :
    ∃ pc ∈ (kernelRun5_C c i arg1 harg1 arg2 harg2 arg3 harg3 arg4 harg4 arg5 harg5 arg6 harg6 arg7 harg7 hc0 hc1 x0 x1 x2 x3 x4 xs0).2.1, y ∈ pc.1.set :=
  View.cover_of_tiledL (kernelRun5_C c i arg1 harg1 arg2 harg2 arg3 harg3 arg4 harg4 arg5 harg5 arg6 harg6 arg7 harg7 hc0 hc1 x0 x1 x2 x3 x4 xs0).2.1 S1x64.size (by sl_kernel_rfl) y

/-- What that point leaves in the scratch: its pieces read back. -/
def sout5_C_0 (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) : Vec F S1x64 .f32 :=
  VS5_0.read (Elt F) (VS5_0.writes (Elt F) VS5_0.junk (kernelRun5_C c i arg1 harg1 arg2 harg2 arg3 harg3 arg4 harg4 arg5 harg5 arg6 harg6 arg7 harg7 hc0 hc1 x0 x1 x2 x3 x4 xs0).2.1)

section Region5
-- the TensorCore's buffer contents when the region is entered: a parameter
variable (V : (c : Dev nD) → (b : Ref sig .tc) → Buf (Elt F) ((c : Thread nD τ).loc b))

/-! ## What the output block and the scratch hold after each point -/

/-- THE ACCUMULATION: what the output's staging buffer and the scratch carried between points hold after the body at
    position `n`: at the first point the reset then one maximum; at every later point the maximum over what the point
    before left; at the last point also the output block, computed from the scratch. -/
def outsAt5 (c : Dev nD) : (n : ℕ) → n < cfg5.N → Vec F S1x1 .f32 × Vec F S1x64 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h1 : (n + 1) % 10 = 9 then
      (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
    else
      (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => absurd ((hcond5_0 ⟨n + 1, hn⟩).mp h) (by have hN : n + 1 < 10 := lt_of_lt_of_eq hn (show cfg5.N = 10 from N_5); (try dsimp only); omega)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

/-- `outsAt5` at the first point. -/
theorem outsAt5_A (c : Dev nD) (t : Fin cfg5.N) (h0 : t.val % 10 = 0) (h1 : ¬t.val % 10 = 9) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (by exfalso; have hN : n + 1 < 10 := lt_of_lt_of_eq hn (show cfg5.N = 10 from N_5); (try dsimp only at h0); omega)

/-- `outsAt5` at a middle point: over what the point before left. -/
theorem outsAt5_B (c : Dev nD) (t : Fin cfg5.N) (h0 : ¬t.val % 10 = 0) (h1 : ¬t.val % 10 = 9) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt5` at the last point: over what the point before left. -/
theorem outsAt5_C (c : Dev nD) (t : Fin cfg5.N) (h0 : ¬t.val % 10 = 0) (h1 : t.val % 10 = 9) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point what the launch hands over (the scratch at
    anything); afterwards the scratch at what the point before left in it, the other scoped buffers unopened, and the
    generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the output's at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the closed forms say which of the three cases the point
    is in; the invariant hands the body the scratch at what the point before left (at anything at the first point) and
    takes it back at this point's contents; the other scoped buffers, the generator register and the core's debts pass
    through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  by_cases h0 : t.val % 10 = 0
  · have h1 : ¬t.val % 10 = 9 := by omega
    have hz : t.val = 0 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
    rw [outsAt5_A V c t h0 h1]
    unfold sout5_A_0; (try dsimp only)
    rw [PhiS5_castSucc V c t, PhiS5_zero V c _ _ hz, PhiA5_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover5_A_0 c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 10 = 9
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [outsAt5_C V c t h0 h1]
      unfold out5_C_5 sout5_C_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C_5 c _ _ _ _ _ _ _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 10 := N_5; omega)

end Region5

end Cert.KernelIdeal.Hand

end
-- ==== Proof.KIRun.lean ====
import proofs.«106155_j30657476559342_2_alg».proof.Proof.KIReg0
import proofs.«106155_j30657476559342_2_alg».proof.Proof.KIReg1
import proofs.«106155_j30657476559342_2_alg».proof.Proof.KIReg2
import proofs.«106155_j30657476559342_2_alg».proof.Proof.KIReg3
import proofs.«106155_j30657476559342_2_alg».proof.Proof.KIReg4
import proofs.«106155_j30657476559342_2_alg».proof.Proof.KIReg5
import proofs.«106155_j30657476559342_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# The run of the whole program, region by region

Between two items of the program (a stretch of host operations, or a kernel region) every buffer that outlives
a region holds a definite array: the launch contents, then each stretch's operations applied in order, then, at
a region's exit, the region's output array at what its write-backs leave and every other buffer as entered.
Each region is entered from that state and left at the next one; the run ends with every such buffer at the
last state, from which the argument arrays are read back unchanged and the result array is named.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the stretch `hostOps0`. -/
abbrev W1 : Dev nD → Valuation τ sig (Elt F) := fun c => StableHlo.after hostOps0 (W0 m c)
/-- After the stretch `hostOps0_1`. -/
abbrev W2 : Dev nD → Valuation τ sig (Elt F) := fun c => StableHlo.after hostOps0_1 (W1 m c)
/-- After the stretch `hostOps0_2`. -/
abbrev W3 : Dev nD → Valuation τ sig (Elt F) := fun c => StableHlo.after hostOps0_2 (W2 m c)
/-- The contents region 0 is entered from, read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- Region 0 changes its output array only: an input window's array is never written back. -/
theorem W4_keep (c : Dev nD) (b : Ref sig .tc) (hb : b ≠ main_v16) :
    W4 m c (Proc.devRef .tc b) = W3 m c (Proc.devRef .tc b) := by
  by_cases h : ∃ w, Pipeline.arrRef spec0 w = b
  · obtain ⟨w, rfl⟩ := h
    rw [W4_arr]
    have hin : (cfg0.win w).isOut = false := by
      rcases w with ⟨_ | _ | _ | _ | n, hw⟩
      · rfl
      · rfl
      · rfl
      · exact absurd rfl hb
      · exact absurd hw (Nat.not_lt.2 (Nat.le_add_left _ _))
    exact ((dat0 (V3 m) c).arrAt_in w hin _).trans (A_eq0 (V3 m) c w)
  · exact W4_of_ne m c b (fun w e => h ⟨w, e⟩)
/-- After the stretch `hostOps1`. -/
abbrev W5 : Dev nD → Valuation τ sig (Elt F) := fun c => StableHlo.after hostOps1 (W4 m c)
/-- The contents region 1 is entered from, read at the TensorCore's references. -/
abbrev V5 : (c : Dev nD) → (b : Ref sig .tc) → Buf (Elt F) ((c : Thread nD τ).loc b) := fun c b => W5 m c b
/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- Region 1 changes its output array only: an input window's array is never written back. -/
theorem W6_keep (c : Dev nD) (b : Ref sig .tc) (hb : b ≠ main_v30) :
    W6 m c (Proc.devRef .tc b) = W5 m c (Proc.devRef .tc b) := by
  by_cases h : ∃ w, Pipeline.arrRef spec1 w = b
  · obtain ⟨w, rfl⟩ := h
    rw [W6_arr]
    have hin : (cfg1.win w).isOut = false := by
      rcases w with ⟨_ | _ | _ | _ | n, hw⟩
      · rfl
      · rfl
      · rfl
      · exact absurd rfl hb
      · exact absurd hw (Nat.not_lt.2 (Nat.le_add_left _ _))
    exact ((dat1 (V5 m) c).arrAt_in w hin _).trans (A_eq1 (V5 m) c w)
  · exact W6_of_ne m c b (fun w e => h ⟨w, e⟩)
/-- After the stretch `hostOps2`. -/
abbrev W7 : Dev nD → Valuation τ sig (Elt F) := fun c => StableHlo.after hostOps2 (W6 m c)
/-- The contents region 2 is entered from, read at the TensorCore's references. -/
abbrev V7 : (c : Dev nD) → (b : Ref sig .tc) → Buf (Elt F) ((c : Thread nD τ).loc b) := fun c b => W7 m c b
/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- Region 2 changes its output array only: an input window's array is never written back. -/
theorem W8_keep (c : Dev nD) (b : Ref sig .tc) (hb : b ≠ main_v32) :
    W8 m c (Proc.devRef .tc b) = W7 m c (Proc.devRef .tc b) := by
  by_cases h : ∃ w, Pipeline.arrRef spec2 w = b
  · obtain ⟨w, rfl⟩ := h
    rw [W8_arr]
    have hin : (cfg2.win w).isOut = false := by
      rcases w with ⟨_ | _ | _ | _ | n, hw⟩
      · rfl
      · rfl
      · rfl
      · exact absurd rfl hb
      · exact absurd hw (Nat.not_lt.2 (Nat.le_add_left _ _))
    exact ((dat2 (V7 m) c).arrAt_in w hin _).trans (A_eq2 (V7 m) c w)
  · exact W8_of_ne m c b (fun w e => h ⟨w, e⟩)
/-- After the stretch `hostOps3`. -/
abbrev W9 : Dev nD → Valuation τ sig (Elt F) := fun c => StableHlo.after hostOps3 (W8 m c)
/-- The contents region 3 is entered from, read at the TensorCore's references. -/
abbrev V9 : (c : Dev nD) → (b : Ref sig .tc) → Buf (Elt F) ((c : Thread nD τ).loc b) := fun c b => W9 m c b
/-- At region 3's exit: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)
/-- Region 3 changes its output array only: an input window's array is never written back. -/
theorem W10_keep (c : Dev nD) (b : Ref sig .tc) (hb : b ≠ main_v46) :
    W10 m c (Proc.devRef .tc b) = W9 m c (Proc.devRef .tc b) := by
  by_cases h : ∃ w, Pipeline.arrRef spec3 w = b
  · obtain ⟨w, rfl⟩ := h
    rw [W10_arr]
    have hin : (cfg3.win w).isOut = false := by
      rcases w with ⟨_ | _ | _ | _ | n, hw⟩
      · rfl
      · rfl
      · rfl
      · exact absurd rfl hb
      · exact absurd hw (Nat.not_lt.2 (Nat.le_add_left _ _))
    exact ((dat3 (V9 m) c).arrAt_in w hin _).trans (A_eq3 (V9 m) c w)
  · exact W10_of_ne m c b (fun w e => h ⟨w, e⟩)
/-- After the stretch `hostOps4`. -/
abbrev W11 : Dev nD → Valuation τ sig (Elt F) := fun c => StableHlo.after hostOps4 (W10 m c)
/-- The contents region 4 is entered from, read at the TensorCore's references. -/
abbrev V11 : (c : Dev nD) → (b : Ref sig .tc) → Buf (Elt F) ((c : Thread nD τ).loc b) := fun c b => W11 m c b
/-- At region 4's exit: its arrays at what the pipeline leaves, every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)
/-- Region 4 changes its output array only: an input window's array is never written back. -/
theorem W12_keep (c : Dev nD) (b : Ref sig .tc) (hb : b ≠ main_v48) :
    W12 m c (Proc.devRef .tc b) = W11 m c (Proc.devRef .tc b) := by
  by_cases h : ∃ w, Pipeline.arrRef spec4 w = b
  · obtain ⟨w, rfl⟩ := h
    rw [W12_arr]
    have hin : (cfg4.win w).isOut = false := by
      rcases w with ⟨_ | _ | _ | _ | n, hw⟩
      · rfl
      · rfl
      · rfl
      · exact absurd rfl hb
      · exact absurd hw (Nat.not_lt.2 (Nat.le_add_left _ _))
    exact ((dat4 (V11 m) c).arrAt_in w hin _).trans (A_eq4 (V11 m) c w)
  · exact W12_of_ne m c b (fun w e => h ⟨w, e⟩)
/-- After the stretch `hostOps5`. -/
abbrev W13 : Dev nD → Valuation τ sig (Elt F) := fun c => StableHlo.after hostOps5 (W12 m c)
/-- The contents region 5 is entered from, read at the TensorCore's references. -/
abbrev V13 : (c : Dev nD) → (b : Ref sig .tc) → Buf (Elt F) ((c : Thread nD τ).loc b) := fun c b => W13 m c b
/-- At region 5's exit: its arrays at what the pipeline leaves, every other buffer as entered. -/
def W14 (c : Dev nD) : Valuation τ sig (Elt F) :=
  Pipeline.withArrays spec5 c (W13 m c) fun w => (dat5 (V13 m) c).arrAt w cfg5.N
theorem W14_arr (c : Dev nD) (w : Fin cfg5.W) :
    W14 m c (Proc.devRef .tc (Pipeline.arrRef spec5 w)) = (dat5 (V13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
abbrev V14 : (c : Dev nD) → (b : Ref sig .tc) → Buf (Elt F) ((c : Thread nD τ).loc b) := fun c b => W14 m c b
theorem hF5 (c : Dev nD) (w : Fin cfg5.W) : (dat5 (V13 m) c).arrAt w cfg5.N = V14 m c (Pipeline.arrRef spec5 w) :=
  (W14_arr m c w).symm
theorem hrest5 (c : Dev nD) : ∀ b, b ∉ Finset.univ.image (Pipeline.arrRef spec5) → V14 m c b = V13 m c b :=
  fun b hb => W14_of_ne m c b fun w e => hb (Finset.mem_image.mpr ⟨w, Finset.mem_univ _, e⟩)
/-- Region 5 changes its output array only: an input window's array is never written back. -/
theorem W14_keep (c : Dev nD) (b : Ref sig .tc) (hb : b ≠ main_v63) :
    W14 m c (Proc.devRef .tc b) = W13 m c (Proc.devRef .tc b) := by
  by_cases h : ∃ w, Pipeline.arrRef spec5 w = b
  · obtain ⟨w, rfl⟩ := h
    rw [W14_arr]
    have hin : (cfg5.win w).isOut = false := by
      rcases w with ⟨_ | _ | _ | _ | _ | _ | n, hw⟩
      · rfl
      · rfl
      · rfl
      · rfl
      · rfl
      · exact absurd rfl hb
      · exact absurd hw (Nat.not_lt.2 (Nat.le_add_left _ _))
    exact ((dat5 (V13 m) c).arrAt_in w hin _).trans (A_eq5 (V13 m) c w)
  · exact W14_of_ne m c b (fun w e => h ⟨w, e⟩)

/-! ## A buffer no item writes ends as launched -/

/-- The references some item of the program may write. -/
abbrev written : List (Ref sig .tc) :=
  hostOps0_W ++ hostOps0_1_W ++ hostOps0_2_W ++ hostOps1_W ++ hostOps2_W ++ hostOps3_W ++ hostOps4_W ++ hostOps5_W
    ++ [main_v16, main_v30, main_v32, main_v46, main_v48, main_v63]

theorem W14_unwritten (c : Dev nD) (b : Ref sig .tc) (hb : b ∉ (written : List (Ref sig .tc))) :
    W14 m c (Proc.devRef .tc b) = m ((c : Thread nD τ).loc b) := by
  simp only [written, List.mem_append, not_or] at hb
  obtain ⟨⟨⟨⟨⟨⟨⟨⟨h0, h01⟩, h02⟩, h1⟩, h2⟩, h3⟩, h4⟩, h5⟩, hr⟩ := hb
  have hne : ∀ r ∈ ([main_v16, main_v30, main_v32, main_v46, main_v48, main_v63] : List (Ref sig .tc)), b ≠ r :=
    fun r hrm e => hr (e ▸ hrm)
  calc W14 m c (Proc.devRef .tc b)
    _ = W13 m c (Proc.devRef .tc b) := W14_keep m c b (hne _ (by simp))
    _ = W12 m c (Proc.devRef .tc b) := StableHlo.after_of_writes_sub hostOps5 _ hostOps5_writes h5
    _ = W11 m c (Proc.devRef .tc b) := W12_keep m c b (hne _ (by simp))
    _ = W10 m c (Proc.devRef .tc b) := StableHlo.after_of_writes_sub hostOps4 _ hostOps4_writes h4
    _ = W9 m c (Proc.devRef .tc b) := W10_keep m c b (hne _ (by simp))
    _ = W8 m c (Proc.devRef .tc b) := StableHlo.after_of_writes_sub hostOps3 _ hostOps3_writes h3
    _ = W7 m c (Proc.devRef .tc b) := W8_keep m c b (hne _ (by simp))
    _ = W6 m c (Proc.devRef .tc b) := StableHlo.after_of_writes_sub hostOps2 _ hostOps2_writes h2
    _ = W5 m c (Proc.devRef .tc b) := W6_keep m c b (hne _ (by simp))
    _ = W4 m c (Proc.devRef .tc b) := StableHlo.after_of_writes_sub hostOps1 _ hostOps1_writes h1
    _ = W3 m c (Proc.devRef .tc b) := W4_keep m c b (hne _ (by simp))
    _ = W2 m c (Proc.devRef .tc b) := StableHlo.after_of_writes_sub hostOps0_2 _ hostOps0_2_writes h02
    _ = W1 m c (Proc.devRef .tc b) := StableHlo.after_of_writes_sub hostOps0_1 _ hostOps0_1_writes h01
    _ = W0 m c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c
  | ⟨5, _⟩ => fun c => dat5 (V13 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the register at some state. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0: entered from every unscoped buffer at `W3`, left at `W4`. Its arrays are split out of the
    unscoped buffers and put back at the exit contents; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`. Its arrays are split out of the
    unscoped buffers and put back at the exit contents; the generator register goes into the region's invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W7`, left at `W8`. Its arrays are split out of the
    unscoped buffers and put back at the exit contents; the generator register goes into the region's invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W9`, left at `W10`. Its arrays are split out of the
    unscoped buffers and put back at the exit contents; the generator register goes into the region's invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W11`, left at `W12`. Its arrays are split out of the
    unscoped buffers and put back at the exit contents; the generator register goes into the region's invariant and
    comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W13`, left at `W14`. Its arrays are split out of the
    unscoped buffers and put back at the exit contents; the generator register goes into the region's invariant and
    comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m) c).loose
  hwaits := Pipeline.hwaits_of_owed_zero _ _ _ _ L lv 5 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V13 m) c).Φ 0 from rfl]
    iintro ⟨Hp, -, Hr⟩
    iapply (hin5 (V13 m) c)
    unfold Pipeline.ΦA
    isplitl [Hr]; · iexact Hr
    iexact Hp
  hout c := by
    rw [Pipeline.ownSems0_none]
    have hA : (Pipeline.ΦA spec5 c : sProp 𝕄) ⊢ iprop((∃ r, prngReg c r) ∗ BI.emp ∗ Pipeline.scopedRest spec5 c) := by
      unfold Pipeline.ΦA
      iintro ⟨Hr, Hp⟩
      isplitl [Hp]; · iexact Hp
      isplitr; · iempintro
      iexact Hr
    exact (hout5 (V13 m) c).trans hA
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V13 m c) (V14 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 14 items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every buffer that outlives a region at the last contents `W14`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W14_unwritten m c main_arg0 (by decide)),
    (h c _ (mem_uc main_arg1 (by decide))).trans (W14_unwritten m c main_arg1 (by decide)),
    (h c _ (mem_uc main_arg2 (by decide))).trans (W14_unwritten m c main_arg2 (by decide)),
    (h c _ (mem_uc main_arg3 (by decide))).trans (W14_unwritten m c main_arg3 (by decide)),
    (h c _ (mem_uc main_arg4 (by decide))).trans (W14_unwritten m c main_arg4 (by decide)),
    (h c _ (mem_uc main_arg5 (by decide))).trans (W14_unwritten m c main_arg5 (by decide)),
    (h c _ (mem_uc main_arg6 (by decide))).trans (W14_unwritten m c main_arg6 (by decide)),
    (h c _ (mem_uc main_arg7 (by decide))).trans (W14_unwritten m c main_arg7 (by decide)),
    (h c _ (mem_uc main_arg8 (by decide))).trans (W14_unwritten m c main_arg8 (by decide)),
    (h c _ (mem_uc main_arg9 (by decide))).trans (W14_unwritten m c main_arg9 (by decide))⟩)
    (run_all m ρ)

end Cert.KernelIdeal.Hand

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.Spec.lean ====
import Idealize.ShloMosaic.PureOps.Ideal
import Idealize.ShloMosaic.Lib.ValueIdx
import proofs.«106155_j30657476559342_2_alg».proof.Proof.LibRowIndex

/-!
# What both programs compute, index by index, on the extended reals

A graph on 100000 nodes has 1600000 listed edges and one loop per node: edge `e` goes from `src e` to `dst e`.
The degree of a node counts the edges whose target, read signed, is that node; `dinv` is its inverse square
root where the degree is positive and 0 elsewhere. A source index is wrapped once if negative and then clamped
into the node range; an edge whose target is out of range lands nowhere.

One layer sends node features `H` to `tanh (dinv p · Σ_{e → p} (H W)(src e) · dinv (src e) + b)`. Three layers,
the column-wise maximum over the nodes (never below the sentinel, since `tanh ≥ -1`), and a last linear map give
the one number both programs return.
-/

noncomputable section

namespace Cert.Spec

open Idealize.ShloMosaic Idealize.ShloMosaic.ValueIdx Cert.RowIndex
open scoped BigOperators

/-- The edge list row `r` (0: sources, 1: targets) followed by the loop ends 0, 1, …, 99999. -/
def ends (ei : (⟨2, ![2, 1600000]⟩ : Shape).Idx → BitVec 32) (r : Fin 2) (e : Fin 1700000) : BitVec 32 :=
  if h : e.val < 1600000 then ei (ix2 r (⟨e.val, h⟩ : Fin 1600000)) else BitVec.ofNat 32 (e.val - 1600000)

/-- A negative index wrapped once by the node count. -/
def wrap (b : BitVec 32) : BitVec 32 := if b.toInt < 0 then b + 100000#32 else b

/-- The node a source index names: wrapped, then clamped into the node range. -/
def srcNode (ei : (⟨2, ![2, 1600000]⟩ : Shape).Idx → BitVec 32) (e : Fin 1700000) : Fin 100000 :=
  clampRow 100000 (by decide) (wrap (ends ei 0 e))

/-- The edges landing on node `p`: those whose target index, read signed, is `p`. -/
def into (ei : (⟨2, ![2, 1600000]⟩ : Shape).Idx → BitVec 32) (p : Fin 100000) : Finset (Fin 1700000) :=
  Finset.univ.filter fun e => (ends ei 1 e).toInt = (p.val : ℤ)

/-- The degree of node `p`: one per edge landing on it. -/
def deg (ei : (⟨2, ![2, 1600000]⟩ : Shape).Idx → BitVec 32) (p : Fin 100000) : EReal :=
  0 + ∑ _e ∈ into ei p, (1 : EReal)

/-- `deg^(-1/2)` where the degree is positive, 0 elsewhere. -/
def dinv (ei : (⟨2, ![2, 1600000]⟩ : Shape).Idx → BitVec 32) (p : Fin 100000) : EReal :=
  if 0 < deg ei p then Ideal.rsqrt (deg ei p) else 0

/-- One layer on node features `H` (`A` columns in, `B` out). -/
def layer {A B : Nat} (ei : (⟨2, ![2, 1600000]⟩ : Shape).Idx → BitVec 32)
    (H : Fin 100000 → Fin A → EReal) (W : Fin A → Fin B → EReal) (b : Fin B → EReal) (p : Fin 100000) (q : Fin B) : EReal :=
  Ideal.tanh (dinv ei p * (0 + ∑ e ∈ into ei p, (∑ k : Fin A, H (srcNode ei e) k * W k q) * dinv ei (srcNode ei e)) + b q)

/-- The three layers. -/
def h3 (ei : (⟨2, ![2, 1600000]⟩ : Shape).Idx → BitVec 32) (x : Fin 100000 → Fin 128 → EReal)
    (W1 : Fin 128 → Fin 16 → EReal) (b1 : Fin 16 → EReal) (W2 : Fin 16 → Fin 32 → EReal) (b2 : Fin 32 → EReal)
    (W3 : Fin 32 → Fin 64 → EReal) (b3 : Fin 64 → EReal) : Fin 100000 → Fin 64 → EReal :=
  layer ei (layer ei (layer ei x W1 b1) W2 b2) W3 b3

/-- The column-wise maximum of the last features over all nodes. -/
def pooled (ei : (⟨2, ![2, 1600000]⟩ : Shape).Idx → BitVec 32) (x : Fin 100000 → Fin 128 → EReal)
    (W1 : Fin 128 → Fin 16 → EReal) (b1 : Fin 16 → EReal) (W2 : Fin 16 → Fin 32 → EReal) (b2 : Fin 32 → EReal)
    (W3 : Fin 32 → Fin 64 → EReal) (b3 : Fin 64 → EReal) (k : Fin 64) : EReal :=
  Finset.univ.sup fun p : Fin 100000 => h3 ei x W1 b1 W2 b2 W3 b3 p k

/-- The number both programs return. -/
def out (ei : (⟨2, ![2, 1600000]⟩ : Shape).Idx → BitVec 32) (x : Fin 100000 → Fin 128 → EReal)
    (W1 : Fin 128 → Fin 16 → EReal) (b1 : Fin 16 → EReal) (W2 : Fin 16 → Fin 32 → EReal) (b2 : Fin 32 → EReal)
    (W3 : Fin 32 → Fin 64 → EReal) (b3 : Fin 64 → EReal) (Wl : Fin 64 → EReal) (bl : EReal) : EReal :=
  (∑ k : Fin 64, pooled ei x W1 b1 W2 b2 W3 b3 k * Wl k) + bl

end Cert.Spec

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.LibEdgeSum.lean ====
import proofs.«106155_j30657476559342_2_alg».proof.Proof.LibReal
import proofs.«106155_j30657476559342_2_alg».proof.Proof.LibRowIndex

/-!
# A scatter-add of rows as a sum over edges, and projecting before or after aggregating

A scatter-add of E update rows into an [N, C] array, the e-th row landing on the row its scatter index names,
leaves at entry (p, q) the operand's entry plus the sum, over the edges e whose index is p, of update (e, q).

If every update row is a weight a_e times a feature row x_e, then multiplying the aggregated row by a matrix
column w is aggregating the projected rows: Σ_k (Σ_e a_e x_{e,k}) w_k = Σ_e a_e (Σ_k x_{e,k} w_k) — on the
extended reals this needs every number to be real, since products do not distribute over sums that meet
both infinities.
-/

noncomputable section

namespace Cert.EdgeSum

open Idealize.ShloMosaic Idealize.ShloMosaic.ValueIdx Cert.GinMath Cert.RowIndex
open scoped BigOperators

/-- A scatter-add of rows at entry (p, q): the operand there plus the updates (e, q) of the edges e whose
    scatter index, read signed, is p. -/
theorem rowScatterAdd_apply {N E C w : Nat}
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w)
    (u : (⟨2, ![E, C]⟩ : Shape).Idx → EReal) (p : Fin N) (q : Fin C) :
    Host.scatterAdd (F := Ideal) (φ := .f32) (rowScatterDims N E C wf) z idx u (ix2 p q)
      = z (ix2 p q)
        + ∑ e ∈ Finset.univ.filter (fun e : Fin E => (idx (ix2 e (0 : Fin 1))).toInt = (p.val : ℤ)), u (ix2 e q) := by
  show Ideal.hostScatterAdd (rowScatterDims N E C wf) z idx u (ix2 p q) = _
  unfold Ideal.hostScatterAdd
  congr 1
  refine Finset.sum_nbij' (fun j => j 0) (fun e => ix2 e q) ?_ ?_ ?_ ?_ ?_
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    exact Finset.mem_filter.mpr ⟨Finset.mem_univ _, h.1⟩
  · intro e he
    exact Finset.mem_filter.mpr ⟨Finset.mem_univ _,
      (rowScatter_resultIdx wf idx e q p q).mpr ⟨(Finset.mem_filter.mp he).2, rfl⟩⟩
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show ix2 e q = ix2 e c
    rw [h.2]
  · intro e _
    rfl
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show u (ix2 e c) = u (ix2 e q)
    rw [h.2]

/-- Projecting the aggregated row is aggregating the projected rows, all numbers being real. -/
theorem project_aggregate {ι κ : Type*} [Fintype κ] (S : Finset ι) (a : ι → EReal) (x : ι → κ → EReal) (w : κ → EReal)
    (ha : ∀ e, IsReal (a e)) (hx : ∀ e k, IsReal (x e k)) (hw : ∀ k, IsReal (w k)) :
    ∑ k : κ, (0 + ∑ e ∈ S, a e * x e k) * w k = 0 + ∑ e ∈ S, a e * ∑ k : κ, x e k * w k := by
  classical
  obtain ⟨a', ha'⟩ := exists_real_fun ha
  obtain ⟨w', hw'⟩ := exists_real_fun hw
  obtain ⟨x', hx'⟩ := exists_real_fun (f := fun q : ι × κ => x q.1 q.2) (fun q => hx q.1 q.2)
  have hxe : ∀ e k, x e k = ((x' (e, k) : ℝ) : EReal) := fun e k => hx' (e, k)
  simp only [ha', hw', hxe, zero_add, ← EReal.coe_mul, ← coe_sum]
  congr 1
  simp only [Finset.sum_mul, Finset.mul_sum]
  rw [Finset.sum_comm]
  refine Finset.sum_congr rfl fun e _ => Finset.sum_congr rfl fun k _ => ?_
  ring

end Cert.EdgeSum

end
-- ==== Proof.LibScaleSum.lean ====
import proofs.«106155_j30657476559342_2_alg».proof.Proof.LibReal
import proofs.«106155_j30657476559342_2_alg».proof.Proof.LibRowIndex

/-!
# A row scale passes through a scatter-add of rows

Let every row p of an [N, C] array collect the updates e whose scatter index is p. If each update is a product
h_e · s_e with a further factor depending only on the target row, that factor can be taken out of the sum —
provided every number in sight is real, since on the extended reals a product does not distribute over a sum
that meets both infinities.
-/

noncomputable section

namespace Cert.ScaleSum

open Idealize.ShloMosaic Idealize.ShloMosaic.ValueIdx Cert.GinMath Cert.RowIndex
open scoped BigOperators

/-- A real factor goes inside a finite sum of real extended reals. -/
private theorem mul_sum_of_isReal {ι : Type*} (s : Finset ι) (a : EReal) (ha : IsReal a) (f : ι → EReal)
    (hf : ∀ i ∈ s, IsReal (f i)) : a * ∑ i ∈ s, f i = ∑ i ∈ s, a * f i := by
  classical
  obtain ⟨r, rfl⟩ := ha
  induction s using Finset.induction_on with
  | empty => simp
  | insert b s hb ih =>
    rw [Finset.sum_insert hb, Finset.sum_insert hb, ← ih (fun i hi => hf i (Finset.mem_insert_of_mem hi))]
    obtain ⟨x, hx⟩ := hf b (Finset.mem_insert_self b s)
    obtain ⟨y, hy⟩ := IsReal.sum (fun i hi => hf i (Finset.mem_insert_of_mem hi))
    rw [hx, hy, ← EReal.coe_add, ← EReal.coe_mul, ← EReal.coe_mul, ← EReal.coe_mul, ← EReal.coe_add, mul_add]

/-- A scatter-add of real updates into a real array is real. -/
theorem isReal_scatterAdd {s si su : Shape} {w : Nat} (ds : ScatterDims s si su)
    (z : s.Idx → EReal) (hz : ∀ i, IsReal (z i)) (idx : IVec si w) (u : su.Idx → EReal) (hu : ∀ j, IsReal (u j)) (i : s.Idx) :
    IsReal (Host.scatterAdd (F := Ideal) (φ := .f32) ds z idx u i) := by
  show IsReal (Ideal.hostScatterAdd ds z idx u i)
  unfold Ideal.hostScatterAdd
  exact (hz i).add (IsReal.sum fun j _ => hu j)

/-- The p-th scale times what a scatter-add of rows collects on (p, q), the updates being h · s with s the
    scale at the update's source row, is what the scatter-add collects when every update carries the product
    of both scales: the source row's and the (wrapped, clamped) target row's. Updates land on row p only if
    their scatter index is p, where wrapping a nonnegative index and clamping an index below N change nothing. -/
theorem scale_through_scatterAdd {N E C : Nat} (hN : 0 < N)
    (wfs : ScatterDims.WF ⟨2, ![N, C]⟩ ⟨2, ![E, 1]⟩ ⟨2, ![E, C]⟩ [1] [0] [0] 1)
    (H : (⟨2, ![N, C]⟩ : Shape).Idx → EReal) (hH : ∀ i, IsReal (H i))
    (d : (⟨1, ![N]⟩ : Shape).Idx → EReal) (hd : ∀ n, IsReal (d n))
    (z : (⟨2, ![N, C]⟩ : Shape).Idx → EReal) (hz : ∀ i, z i = 0)
    (src dst dstW : IVec ⟨2, ![E, 1]⟩ 32)
    (hW : ∀ e : Fin E, 0 ≤ (dst (ix2 e (0 : Fin 1))).toInt → dstW (ix2 e (0 : Fin 1)) = dst (ix2 e (0 : Fin 1)))
    (updK updR : (⟨2, ![E, C]⟩ : Shape).Idx → EReal)
    (hK : ∀ (e : Fin E) (c : Fin C), updK (ix2 e c)
        = H (ix2 (clampRow N hN (src (ix2 e (0 : Fin 1)))) c) * d (ix1 (clampRow N hN (src (ix2 e (0 : Fin 1))))))
    (hR : ∀ (e : Fin E) (c : Fin C), updR (ix2 e c)
        = H (ix2 (clampRow N hN (src (ix2 e (0 : Fin 1)))) c)
            * (d (ix1 (clampRow N hN (src (ix2 e (0 : Fin 1))))) * d (ix1 (clampRow N hN (dstW (ix2 e (0 : Fin 1)))))))
    (p : Fin N) (q : Fin C) :
    d (ix1 p) * Host.scatterAdd (F := Ideal) (φ := .f32) (rowScatterDims N E C wfs) z dst updK (ix2 p q)
      = Host.scatterAdd (F := Ideal) (φ := .f32) (rowScatterDims N E C wfs) z dst updR (ix2 p q) := by
  show d (ix1 p) * Ideal.hostScatterAdd (rowScatterDims N E C wfs) z dst updK (ix2 p q)
    = Ideal.hostScatterAdd (rowScatterDims N E C wfs) z dst updR (ix2 p q)
  unfold Ideal.hostScatterAdd
  rw [hz, zero_add, zero_add]
  have hKreal : ∀ j, IsReal (updK j) := by
    intro j
    obtain ⟨e, c, rfl⟩ : ∃ (e : Fin E) (c : Fin C), j = ix2 e c := ⟨j 0, j 1, eq_ix2 j⟩
    rw [hK]; exact (hH _).mul (hd _)
  rw [mul_sum_of_isReal _ _ (hd (ix1 p)) _ (fun j _ => hKreal j)]
  refine Finset.sum_congr rfl ?_
  intro j hj
  obtain ⟨e, c, rfl⟩ : ∃ (e : Fin E) (c : Fin C), j = ix2 e c := ⟨j 0, j 1, eq_ix2 j⟩
  obtain ⟨hp, -⟩ := (rowScatter_resultIdx wfs dst e c p q).mp (Finset.mem_filter.mp hj).2
  have hnn : 0 ≤ (dst (ix2 e (0 : Fin 1))).toInt := by rw [hp]; exact Int.natCast_nonneg _
  have hcl : clampRow N hN (dst (ix2 e (0 : Fin 1))) = p := by
    apply Fin.ext
    show min (dst (ix2 e (0 : Fin 1))).toInt.toNat (N - 1) = p.val
    rw [hp, Int.toNat_natCast]
    have := p.isLt
    omega
  rw [hK, hR, hW e hnn, hcl, mul_comm (d (ix1 p)), mul_assoc]

end Cert.ScaleSum

end
-- ==== Proof.LibRealOps.lean ====
import proofs.«106155_j30657476559342_2_alg».proof.Proof.LibReal
import Idealize.ShloMosaic.Lib.ValueIdx

/-!
# Real entries through a few host operations

Every entry of a concatenation is an entry of one of its pieces, and every entry of a gather is an entry of
its operand; so a property of all entries passes through both. The inverse square root of a positive real is
real, hence so is "1/√d where d > 0, else a real".
-/

noncomputable section

namespace Cert.RealOps

open Idealize.ShloMosaic Cert.GinMath

/-- A property of every entry of every piece holds of every entry of their concatenation. -/
theorem forall_concatenate {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- A property of every entry of the operand holds of every entry of a gather. -/
theorem forall_gather {α : Type} (P : α → Prop) {s si so : Shape} {w : Nat} (ds : GatherDims s si so)
    (x : s.Idx → α) (idx : IVec si w) (hP : ∀ i, P (x i)) (j : so.Idx) : P (Host.gather ds x idx j) := by
  unfold Host.gather
  exact hP _

/-- The inverse square root of a positive real is real. -/
theorem isReal_rsqrt_of_pos {r : ℝ} (hr : 0 < r) : IsReal (Ideal.rsqrt (r : EReal)) := by
  rw [Ideal.rsqrt_coe, if_neg (not_lt.mpr hr.le), if_neg hr.ne']
  exact IsReal.coe _

/-- "1/√d where d > z, else z'" is real when d and z' are and z is zero. -/
theorem isReal_select_rsqrt (d z z' : EReal) (hd : IsReal d) (hz : z = 0) (hz' : IsReal z') :
    IsReal (Scalar.select (Ideal.cmp .ogt d z) (Ideal.rsqrt d) z') := by
  obtain ⟨r, rfl⟩ := hd
  subst hz
  by_cases hpos : (0 : ℝ) < r
  · have hc : Ideal.cmp .ogt (r : EReal) 0 = 1#1 := by
      unfold Ideal.cmp
      have : (0 : EReal) < (r : EReal) := by exact_mod_cast hpos
      simp [this]
    rw [hc, ValueIdx.select_one]
    exact isReal_rsqrt_of_pos hpos
  · have hc : Ideal.cmp .ogt (r : EReal) 0 = 0#1 := by
      unfold Ideal.cmp
      have : ¬ (0 : EReal) < (r : EReal) := by
        intro h; exact hpos (by exact_mod_cast h)
      simp [this]
    rw [hc, ValueIdx.select_zero]
    exact hz'

end Cert.RealOps

end
-- ==== Proof.RefCore.lean ====
import proofs.«106155_j30657476559342_2_alg».proof.Proof.Spec
import proofs.«106155_j30657476559342_2_alg».proof.Proof.LibReal
import proofs.«106155_j30657476559342_2_alg».proof.Proof.LibEdgeSum
import proofs.«106155_j30657476559342_2_alg».proof.Proof.LibScaleSum
import proofs.«106155_j30657476559342_2_alg».proof.Proof.LibRealOps

/-!
# One graph-convolution layer, its degree and its scale, read off abstract arrays

The facts below are stated over arrays that are only known entry by entry: an index column that reads the
targets; a scale vector that reads `dinv`; an update array whose row e is the projected feature row of e's
source node times the source's scale and the wrapped, clamped target's scale. A
scatter-add of such updates is, entry by entry, the layer of the specification before the bias and `tanh`:
the target's scale leaves the sum because every number in it is real.
-/

noncomputable section

namespace Cert.ReferenceIdeal.RefValue

open Idealize.ShloMosaic Idealize.ShloMosaic.ValueIdx Cert.GinMath Cert.RowIndex
open scoped BigOperators

/-- "index + N where index < 0, else index" is the wrapped index. -/
theorem select_wrap (b : BitVec 32) :
    Scalar.select (IntOp.cmpi .slt b 0#32) (IntOp.addi b 100000#32) b = Cert.Spec.wrap b := by
  unfold Cert.Spec.wrap Scalar.select IntOp.cmpi IntOp.addi
  by_cases h : b.toInt < 0
  · have hs : b.slt 0#32 = true := by rw [BitVec.slt_iff_toInt_lt]; simpa using h
    simp [hs, h]
  · have hs : b.slt 0#32 = false := by
      rw [Bool.eq_false_iff, Ne, BitVec.slt_iff_toInt_lt]; simpa using h
    simp [hs, h]

/-- The hyperbolic tangent of any extended real is real: it lies in [-1, 1]. -/
theorem isReal_tanh (x : EReal) : IsReal (Ideal.tanh x) := by
  induction x using EReal.rec with
  | bot => exact ⟨-1, by simp⟩
  | coe r => exact ⟨Real.tanh r, rfl⟩
  | top => exact ⟨1, by simp⟩

/-- A degree is a finite count, hence real. -/
theorem isReal_deg (ei : (⟨2, ![2, 1600000]⟩ : Shape).Idx → BitVec 32) (p : Fin 100000) :
    IsReal (Cert.Spec.deg ei p) :=
  isReal_zero.add (IsReal.sum fun _ _ => isReal_one)

/-- The scale `deg^(-1/2)` (or 0) is real. -/
theorem isReal_dinv (ei : (⟨2, ![2, 1600000]⟩ : Shape).Idx → BitVec 32) (p : Fin 100000) :
    IsReal (Cert.Spec.dinv ei p) := by
  unfold Cert.Spec.dinv
  obtain ⟨r, hr⟩ := isReal_deg ei p
  split
  · rename_i h
    rw [hr] at h ⊢
    exact Cert.RealOps.isReal_rsqrt_of_pos (by exact_mod_cast h)
  · exact isReal_zero

/-- Every output of a layer is real, being a hyperbolic tangent. -/
theorem isReal_layer {A B : Nat} (ei : (⟨2, ![2, 1600000]⟩ : Shape).Idx → BitVec 32)
    (H : Fin 100000 → Fin A → EReal) (W : Fin A → Fin B → EReal) (b : Fin B → EReal) (p : Fin 100000) (q : Fin B) :
    IsReal (Cert.Spec.layer ei H W b p q) := isReal_tanh _

/-- "1/√d where d > 0, else 0", the two zeros given as equations. -/
theorem select_rsqrt (dg z z' : EReal) (hz : z = 0) (hz' : z' = 0) :
    Scalar.select (Ideal.cmp .ogt dg z) (Ideal.rsqrt dg) z' = if 0 < dg then Ideal.rsqrt dg else 0 := by
  subst hz hz'
  by_cases h : (0 : EReal) < dg
  · have hc : Ideal.cmp .ogt dg 0 = 1#1 := by unfold Ideal.cmp; simp [h]
    rw [hc, ValueIdx.select_one, if_pos h]
  · have hc : Ideal.cmp .ogt dg 0 = 0#1 := by unfold Ideal.cmp; simp [h]
    rw [hc, ValueIdx.select_zero, if_neg h]

/-- The scatter-add of the updates "projected source row times source scale times wrapped-target scale" along
    the targets, at (p, q): the target's scale times the sum over the edges into p of the projected source
    row's entry times the source's scale. -/
theorem layer_core {C : Nat}
    (wfs : ScatterDims.WF ⟨2, ![100000, C]⟩ ⟨2, ![1700000, 1]⟩ ⟨2, ![1700000, C]⟩ [1] [0] [0] 1)
    (ei : (⟨2, ![2, 1600000]⟩ : Shape).Idx → BitVec 32)
    (HW : (⟨2, ![100000, C]⟩ : Shape).Idx → EReal) (hHW : ∀ i, IsReal (HW i))
    (d : (⟨1, ![100000]⟩ : Shape).Idx → EReal) (hd : ∀ n : Fin 100000, d (ix1 n) = Cert.Spec.dinv ei n)
    (z : (⟨2, ![100000, C]⟩ : Shape).Idx → EReal) (hz : ∀ i, z i = 0)
    (dst : IVec ⟨2, ![1700000, 1]⟩ 32)
    (hdst : ∀ e : Fin 1700000, dst (ix2 e (0 : Fin 1)) = Cert.Spec.ends ei 1 e)
    (upd : (⟨2, ![1700000, C]⟩ : Shape).Idx → EReal)
    (hupd : ∀ (e : Fin 1700000) (c : Fin C), upd (ix2 e c)
        = HW (ix2 (Cert.Spec.srcNode ei e) c)
            * (d (ix1 (Cert.Spec.srcNode ei e))
                * d (ix1 (clampRow 100000 (by decide) (Cert.Spec.wrap (Cert.Spec.ends ei 1 e))))))
    (p : Fin 100000) (q : Fin C) :
    Host.scatterAdd (F := Ideal) (φ := .f32) (rowScatterDims 100000 1700000 C wfs) z dst upd (ix2 p q)
      = Cert.Spec.dinv ei p * (0 + ∑ e ∈ Cert.Spec.into ei p,
          HW (ix2 (Cert.Spec.srcNode ei e) q) * Cert.Spec.dinv ei (Cert.Spec.srcNode ei e)) := by
  have hdr : ∀ n, IsReal (d n) := fun n => by
    obtain ⟨n', rfl⟩ : ∃ n' : Fin 100000, n = ix1 n' := ⟨n 0, eq_ix1 n⟩
    rw [hd]; exact isReal_dinv ei _
  have hW : ∀ e : Fin 1700000, 0 ≤ (dst (ix2 e (0 : Fin 1))).toInt →
      (fun j : (⟨2, ![1700000, 1]⟩ : Shape).Idx => Cert.Spec.wrap (Cert.Spec.ends ei 1 (j 0))) (ix2 e (0 : Fin 1))
        = dst (ix2 e (0 : Fin 1)) := by
    intro e he
    rw [hdst] at he ⊢
    show Cert.Spec.wrap (Cert.Spec.ends ei 1 e) = Cert.Spec.ends ei 1 e
    unfold Cert.Spec.wrap
    rw [if_neg (not_lt.mpr he)]
  have key := Cert.ScaleSum.scale_through_scatterAdd (N := 100000) (E := 1700000) (C := C) (by decide) wfs
    HW hHW d hdr z hz
    (fun j => Cert.Spec.wrap (Cert.Spec.ends ei 0 (j 0))) dst
    (fun j => Cert.Spec.wrap (Cert.Spec.ends ei 1 (j 0))) hW
    (fun j => HW (ix2 (Cert.Spec.srcNode ei (j 0)) (j 1)) * d (ix1 (Cert.Spec.srcNode ei (j 0))))
    upd (fun e c => rfl) hupd p q
  rw [← key, Cert.EdgeSum.rowScatterAdd_apply, hz, hd]
  have hset : (Finset.univ.filter fun e : Fin 1700000 => (dst (ix2 e (0 : Fin 1))).toInt = (p.val : ℤ))
      = Cert.Spec.into ei p := by
    unfold Cert.Spec.into
    exact Finset.filter_congr fun e _ => by rw [hdst]
  rw [hset]
  refine congrArg (fun s => Cert.Spec.dinv ei p * (0 + s)) (Finset.sum_congr rfl fun e _ => ?_)
  show HW (ix2 (Cert.Spec.srcNode ei e) q) * d (ix1 (Cert.Spec.srcNode ei e)) = _
  rw [hd]

/-- One layer: the scatter-add above of the projected rows `H W`, plus the bias, under `tanh`. -/
theorem layer_of {A C : Nat}
    (wfs : ScatterDims.WF ⟨2, ![100000, C]⟩ ⟨2, ![1700000, 1]⟩ ⟨2, ![1700000, C]⟩ [1] [0] [0] 1)
    (ei : (⟨2, ![2, 1600000]⟩ : Shape).Idx → BitVec 32)
    (Hin : Fin 100000 → Fin A → EReal) (W : Fin A → Fin C → EReal) (b : Fin C → EReal)
    (hH : ∀ n k, IsReal (Hin n k)) (hWr : ∀ k q, IsReal (W k q))
    (HW : (⟨2, ![100000, C]⟩ : Shape).Idx → EReal)
    (hHWv : ∀ (n : Fin 100000) (q : Fin C), HW (ix2 n q) = ∑ k : Fin A, Hin n k * W k q)
    (d : (⟨1, ![100000]⟩ : Shape).Idx → EReal) (hd : ∀ n : Fin 100000, d (ix1 n) = Cert.Spec.dinv ei n)
    (z : (⟨2, ![100000, C]⟩ : Shape).Idx → EReal) (hz : ∀ i, z i = 0)
    (dst : IVec ⟨2, ![1700000, 1]⟩ 32)
    (hdst : ∀ e : Fin 1700000, dst (ix2 e (0 : Fin 1)) = Cert.Spec.ends ei 1 e)
    (upd : (⟨2, ![1700000, C]⟩ : Shape).Idx → EReal)
    (hupd : ∀ (e : Fin 1700000) (c : Fin C), upd (ix2 e c)
        = HW (ix2 (Cert.Spec.srcNode ei e) c)
            * (d (ix1 (Cert.Spec.srcNode ei e))
                * d (ix1 (clampRow 100000 (by decide) (Cert.Spec.wrap (Cert.Spec.ends ei 1 e))))))
    (p : Fin 100000) (q : Fin C) (bb : EReal) (hbb : bb = b q) :
    Ideal.tanh (Host.scatterAdd (F := Ideal) (φ := .f32) (rowScatterDims 100000 1700000 C wfs) z dst upd (ix2 p q) + bb)
      = Cert.Spec.layer ei Hin W b p q := by
  have hHW : ∀ i, IsReal (HW i) := fun i => by
    obtain ⟨n, c, rfl⟩ : ∃ (n : Fin 100000) (c : Fin C), i = ix2 n c := ⟨i 0, i 1, eq_ix2 i⟩
    rw [hHWv]; exact IsReal.sum fun k _ => (hH _ _).mul (hWr _ _)
  rw [layer_core wfs ei HW hHW d hd z hz dst hdst upd hupd p q, hbb]
  unfold Cert.Spec.layer
  refine congrArg (fun s => Ideal.tanh (Cert.Spec.dinv ei p * (0 + s) + b q)) (Finset.sum_congr rfl fun e _ => ?_)
  rw [hHWv]

/-- A fold by `max` from `⊥` is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

end Cert.ReferenceIdeal.RefValue

end
-- ==== Proof.RefIdx.lean ====
import proofs.«106155_j30657476559342_2_alg».proof.Proof.RefReadP
import proofs.«106155_j30657476559342_2_alg».proof.Proof.Spec
import proofs.«106155_j30657476559342_2_alg».proof.Proof.RefCore

/-!
# The index columns of the reference, read at an edge

The reference joins each row of the edge list with the loop ends 0, 1, …, 99999. Every gather index is such a
list wrapped once where negative ("index + N where index < 0"); every scatter index is the target list as it is.
Each of these columns, laid out as [E, 1], reads at edge e the wrapped source, the wrapped target or the target
of the specification.
-/

noncomputable section

namespace Cert.ReferenceIdeal.RefValue

open Cert.ReferenceIdeal Cert.ReferenceIdeal.Gen Cert.ReferenceIdeal.ReadP Idealize.ShloMosaic Idealize.ShloMosaic.ValueIdx

/-- The source list: the edge list's row 0, then the loop ends 0, 1, …. -/
theorem v3_apply (ei : (⟨S2x1600000, .i32⟩ : BufTy).Contents (Elt Ideal)) (e : Fin 1700000) :
    val_main_v3 (F := Ideal) ei (ix1 e) = Cert.Spec.ends ei 0 e := by
  unfold val_main_v3 Cert.Spec.ends
  by_cases h : e.val < 1600000
  · rw [dif_pos h]
    refine (concatenate_pair_apply_left (0 : Fin S1700000.rank) (val_main_v2 (F := Ideal) ei) (val_main_v0 (F := Ideal))
      concatenates_S1600000_S100000_S1700000_d0 (ix1 e) rfl (ix1 (⟨e.val, h⟩ : Fin 1600000)) (fun b => ?_)).trans ?_
    · match b with
      | ⟨0, _⟩ => rfl
    · rw [val_main_v2_apply, val_main_v1_apply]
      refine congrArg ei (funext fun a => Fin.ext ?_)
      match a with
      | ⟨0, _⟩ => rfl
      | ⟨1, _⟩ => exact Nat.mod_eq_of_lt h
  · rw [dif_neg h]
    have h2 : e.val - 1600000 < 100000 := by have := e.isLt; omega
    refine (concatenate_pair_apply_right (0 : Fin S1700000.rank) (val_main_v2 (F := Ideal) ei) (val_main_v0 (F := Ideal))
      concatenates_S1600000_S100000_S1700000_d0 (ix1 e) rfl rfl (ix1 (⟨e.val - 1600000, h2⟩ : Fin 100000)) (fun b hb => ?_) ?_).trans ?_
    · exact absurd (Subsingleton.elim _ _) hb
    · show (e.val - 1600000) + 1600000 = e.val
      omega
    · rw [val_main_v0_apply]

/-- The target list: the edge list's row 1, then the loop ends 0, 1, …. -/
theorem v6_apply (ei : (⟨S2x1600000, .i32⟩ : BufTy).Contents (Elt Ideal)) (e : Fin 1700000) :
    val_main_v6 (F := Ideal) ei (ix1 e) = Cert.Spec.ends ei 1 e := by
  unfold val_main_v6 Cert.Spec.ends
  by_cases h : e.val < 1600000
  · rw [dif_pos h]
    refine (concatenate_pair_apply_left (0 : Fin S1700000.rank) (val_main_v5 (F := Ideal) ei) (val_main_v0 (F := Ideal))
      concatenates_S1600000_S100000_S1700000_d0 (ix1 e) rfl (ix1 (⟨e.val, h⟩ : Fin 1600000)) (fun b => ?_)).trans ?_
    · match b with
      | ⟨0, _⟩ => rfl
    · rw [val_main_v5_apply, val_main_v4_apply]
      refine congrArg ei (funext fun a => Fin.ext ?_)
      match a with
      | ⟨0, _⟩ => rfl
      | ⟨1, _⟩ => exact Nat.mod_eq_of_lt h
  · rw [dif_neg h]
    have h2 : e.val - 1600000 < 100000 := by have := e.isLt; omega
    refine (concatenate_pair_apply_right (0 : Fin S1700000.rank) (val_main_v5 (F := Ideal) ei) (val_main_v0 (F := Ideal))
      concatenates_S1600000_S100000_S1700000_d0 (ix1 e) rfl rfl (ix1 (⟨e.val - 1600000, h2⟩ : Fin 100000)) (fun b hb => ?_) ?_).trans ?_
    · exact absurd (Subsingleton.elim _ _) hb
    · show (e.val - 1600000) + 1600000 = e.val
      omega
    · rw [val_main_v0_apply]

/-! ### The wrapped source columns (six copies) -/

theorem v20_apply (ei : (⟨S2x1600000, .i32⟩ : BufTy).Contents (Elt Ideal)) (e : Fin 1700000) :
    val_main_v20 (F := Ideal) ei (ix1 e) = Cert.Spec.wrap (Cert.Spec.ends ei 0 e) := by
  rw [val_main_v20_apply, val_main_v17_apply, val_main_v19_apply, val_main_v16_apply, val_main_v18_apply,
    val_main_c_apply, val_main_c_3_apply, v3_apply]
  exact select_wrap _

theorem v21_col (ei : (⟨S2x1600000, .i32⟩ : BufTy).Contents (Elt Ideal)) (e : Fin 1700000) :
    val_main_v21 (F := Ideal) ei (ix2 e (0 : Fin 1)) = Cert.Spec.wrap (Cert.Spec.ends ei 0 e) := by
  rw [val_main_v21_apply]
  exact (congrArg (val_main_v20 (F := Ideal) ei) (funext fun a => by match a with | ⟨0, _⟩ => rfl)).trans (v20_apply ei e)

theorem v35_apply (ei : (⟨S2x1600000, .i32⟩ : BufTy).Contents (Elt Ideal)) (e : Fin 1700000) :
    val_main_v35 (F := Ideal) ei (ix1 e) = Cert.Spec.wrap (Cert.Spec.ends ei 0 e) := by
  rw [val_main_v35_apply, val_main_v32_apply, val_main_v34_apply, val_main_v31_apply, val_main_v33_apply,
    val_main_c_6_apply, val_main_c_7_apply, v3_apply]
  exact select_wrap _

theorem v36_col (ei : (⟨S2x1600000, .i32⟩ : BufTy).Contents (Elt Ideal)) (e : Fin 1700000) :
    val_main_v36 (F := Ideal) ei (ix2 e (0 : Fin 1)) = Cert.Spec.wrap (Cert.Spec.ends ei 0 e) := by
  rw [val_main_v36_apply]
  exact (congrArg (val_main_v35 (F := Ideal) ei) (funext fun a => by match a with | ⟨0, _⟩ => rfl)).trans (v35_apply ei e)

theorem v61_apply (ei : (⟨S2x1600000, .i32⟩ : BufTy).Contents (Elt Ideal)) (e : Fin 1700000) :
    val_main_v61 (F := Ideal) ei (ix1 e) = Cert.Spec.wrap (Cert.Spec.ends ei 0 e) := by
  rw [val_main_v61_apply, val_main_v58_apply, val_main_v60_apply, val_main_v57_apply, val_main_v59_apply,
    val_main_c_13_apply, val_main_c_14_apply, v3_apply]
  exact select_wrap _

theorem v62_col (ei : (⟨S2x1600000, .i32⟩ : BufTy).Contents (Elt Ideal)) (e : Fin 1700000) :
    val_main_v62 (F := Ideal) ei (ix2 e (0 : Fin 1)) = Cert.Spec.wrap (Cert.Spec.ends ei 0 e) := by
  rw [val_main_v62_apply]
  exact (congrArg (val_main_v61 (F := Ideal) ei) (funext fun a => by match a with | ⟨0, _⟩ => rfl)).trans (v61_apply ei e)

theorem v76_apply (ei : (⟨S2x1600000, .i32⟩ : BufTy).Contents (Elt Ideal)) (e : Fin 1700000) :
    val_main_v76 (F := Ideal) ei (ix1 e) = Cert.Spec.wrap (Cert.Spec.ends ei 0 e) := by
  rw [val_main_v76_apply, val_main_v73_apply, val_main_v75_apply, val_main_v72_apply, val_main_v74_apply,
    val_main_c_17_apply, val_main_c_18_apply, v3_apply]
  exact select_wrap _

theorem v77_col (ei : (⟨S2x1600000, .i32⟩ : BufTy).Contents (Elt Ideal)) (e : Fin 1700000) :
    val_main_v77 (F := Ideal) ei (ix2 e (0 : Fin 1)) = Cert.Spec.wrap (Cert.Spec.ends ei 0 e) := by
  rw [val_main_v77_apply]
  exact (congrArg (val_main_v76 (F := Ideal) ei) (funext fun a => by match a with | ⟨0, _⟩ => rfl)).trans (v76_apply ei e)

theorem v102_apply (ei : (⟨S2x1600000, .i32⟩ : BufTy).Contents (Elt Ideal)) (e : Fin 1700000) :
    val_main_v102 (F := Ideal) ei (ix1 e) = Cert.Spec.wrap (Cert.Spec.ends ei 0 e) := by
  rw [val_main_v102_apply, val_main_v99_apply, val_main_v101_apply, val_main_v98_apply, val_main_v100_apply,
    val_main_c_24_apply, val_main_c_25_apply, v3_apply]
  exact select_wrap _

theorem v103_col (ei : (⟨S2x1600000, .i32⟩ : BufTy).Contents (Elt Ideal)) (e : Fin 1700000) :
    val_main_v103 (F := Ideal) ei (ix2 e (0 : Fin 1)) = Cert.Spec.wrap (Cert.Spec.ends ei 0 e) := by
  rw [val_main_v103_apply]
  exact (congrArg (val_main_v102 (F := Ideal) ei) (funext fun a => by match a with | ⟨0, _⟩ => rfl)).trans (v102_apply ei e)

theorem v117_apply (ei : (⟨S2x1600000, .i32⟩ : BufTy).Contents (Elt Ideal)) (e : Fin 1700000) :
    val_main_v117 (F := Ideal) ei (ix1 e) = Cert.Spec.wrap (Cert.Spec.ends ei 0 e) := by
  rw [val_main_v117_apply, val_main_v114_apply, val_main_v116_apply, val_main_v113_apply, val_main_v115_apply,
    val_main_c_28_apply, val_main_c_29_apply, v3_apply]
  exact select_wrap _

theorem v118_col (ei : (⟨S2x1600000, .i32⟩ : BufTy).Contents (Elt Ideal)) (e : Fin 1700000) :
    val_main_v118 (F := Ideal) ei (ix2 e (0 : Fin 1)) = Cert.Spec.wrap (Cert.Spec.ends ei 0 e) := by
  rw [val_main_v118_apply]
  exact (congrArg (val_main_v117 (F := Ideal) ei) (funext fun a => by match a with | ⟨0, _⟩ => rfl)).trans (v117_apply ei e)

/-! ### The wrapped target columns (three copies) -/

theorem v27_apply (ei : (⟨S2x1600000, .i32⟩ : BufTy).Contents (Elt Ideal)) (e : Fin 1700000) :
    val_main_v27 (F := Ideal) ei (ix1 e) = Cert.Spec.wrap (Cert.Spec.ends ei 1 e) := by
  rw [val_main_v27_apply, val_main_v24_apply, val_main_v26_apply, val_main_v23_apply, val_main_v25_apply,
    val_main_c_4_apply, val_main_c_5_apply, v6_apply]
  exact select_wrap _

theorem v28_col (ei : (⟨S2x1600000, .i32⟩ : BufTy).Contents (Elt Ideal)) (e : Fin 1700000) :
    val_main_v28 (F := Ideal) ei (ix2 e (0 : Fin 1)) = Cert.Spec.wrap (Cert.Spec.ends ei 1 e) := by
  rw [val_main_v28_apply]
  exact (congrArg (val_main_v27 (F := Ideal) ei) (funext fun a => by match a with | ⟨0, _⟩ => rfl)).trans (v27_apply ei e)

theorem v68_apply (ei : (⟨S2x1600000, .i32⟩ : BufTy).Contents (Elt Ideal)) (e : Fin 1700000) :
    val_main_v68 (F := Ideal) ei (ix1 e) = Cert.Spec.wrap (Cert.Spec.ends ei 1 e) := by
  rw [val_main_v68_apply, val_main_v65_apply, val_main_v67_apply, val_main_v64_apply, val_main_v66_apply,
    val_main_c_15_apply, val_main_c_16_apply, v6_apply]
  exact select_wrap _

theorem v69_col (ei : (⟨S2x1600000, .i32⟩ : BufTy).Contents (Elt Ideal)) (e : Fin 1700000) :
    val_main_v69 (F := Ideal) ei (ix2 e (0 : Fin 1)) = Cert.Spec.wrap (Cert.Spec.ends ei 1 e) := by
  rw [val_main_v69_apply]
  exact (congrArg (val_main_v68 (F := Ideal) ei) (funext fun a => by match a with | ⟨0, _⟩ => rfl)).trans (v68_apply ei e)

theorem v109_apply (ei : (⟨S2x1600000, .i32⟩ : BufTy).Contents (Elt Ideal)) (e : Fin 1700000) :
    val_main_v109 (F := Ideal) ei (ix1 e) = Cert.Spec.wrap (Cert.Spec.ends ei 1 e) := by
  rw [val_main_v109_apply, val_main_v106_apply, val_main_v108_apply, val_main_v105_apply, val_main_v107_apply,
    val_main_c_26_apply, val_main_c_27_apply, v6_apply]
  exact select_wrap _

theorem v110_col (ei : (⟨S2x1600000, .i32⟩ : BufTy).Contents (Elt Ideal)) (e : Fin 1700000) :
    val_main_v110 (F := Ideal) ei (ix2 e (0 : Fin 1)) = Cert.Spec.wrap (Cert.Spec.ends ei 1 e) := by
  rw [val_main_v110_apply]
  exact (congrArg (val_main_v109 (F := Ideal) ei) (funext fun a => by match a with | ⟨0, _⟩ => rfl)).trans (v109_apply ei e)

/-! ### The target columns (six copies) -/

theorem v10_col (ei : (⟨S2x1600000, .i32⟩ : BufTy).Contents (Elt Ideal)) (e : Fin 1700000) :
    val_main_v10 (F := Ideal) ei (ix2 e (0 : Fin 1)) = Cert.Spec.ends ei 1 e := by
  rw [val_main_v10_apply]
  exact (congrArg (val_main_v6 (F := Ideal) ei) (funext fun a => by match a with | ⟨0, _⟩ => rfl)).trans (v6_apply ei e)

theorem v42_col (ei : (⟨S2x1600000, .i32⟩ : BufTy).Contents (Elt Ideal)) (e : Fin 1700000) :
    val_main_v42 (F := Ideal) ei (ix2 e (0 : Fin 1)) = Cert.Spec.ends ei 1 e := by
  rw [val_main_v42_apply]
  exact (congrArg (val_main_v6 (F := Ideal) ei) (funext fun a => by match a with | ⟨0, _⟩ => rfl)).trans (v6_apply ei e)

theorem v51_col (ei : (⟨S2x1600000, .i32⟩ : BufTy).Contents (Elt Ideal)) (e : Fin 1700000) :
    val_main_v51 (F := Ideal) ei (ix2 e (0 : Fin 1)) = Cert.Spec.ends ei 1 e := by
  rw [val_main_v51_apply]
  exact (congrArg (val_main_v6 (F := Ideal) ei) (funext fun a => by match a with | ⟨0, _⟩ => rfl)).trans (v6_apply ei e)

theorem v83_col (ei : (⟨S2x1600000, .i32⟩ : BufTy).Contents (Elt Ideal)) (e : Fin 1700000) :
    val_main_v83 (F := Ideal) ei (ix2 e (0 : Fin 1)) = Cert.Spec.ends ei 1 e := by
  rw [val_main_v83_apply]
  exact (congrArg (val_main_v6 (F := Ideal) ei) (funext fun a => by match a with | ⟨0, _⟩ => rfl)).trans (v6_apply ei e)

theorem v92_col (ei : (⟨S2x1600000, .i32⟩ : BufTy).Contents (Elt Ideal)) (e : Fin 1700000) :
    val_main_v92 (F := Ideal) ei (ix2 e (0 : Fin 1)) = Cert.Spec.ends ei 1 e := by
  rw [val_main_v92_apply]
  exact (congrArg (val_main_v6 (F := Ideal) ei) (funext fun a => by match a with | ⟨0, _⟩ => rfl)).trans (v6_apply ei e)

theorem v124_col (ei : (⟨S2x1600000, .i32⟩ : BufTy).Contents (Elt Ideal)) (e : Fin 1700000) :
    val_main_v124 (F := Ideal) ei (ix2 e (0 : Fin 1)) = Cert.Spec.ends ei 1 e := by
  rw [val_main_v124_apply]
  exact (congrArg (val_main_v6 (F := Ideal) ei) (funext fun a => by match a with | ⟨0, _⟩ => rfl)).trans (v6_apply ei e)

end Cert.ReferenceIdeal.RefValue

end
-- ==== Proof.LibVecScatter.lean ====
import Idealize.ShloMosaic.PureOps.Ideal
import Idealize.ShloMosaic.Lib.ValueIdx

/-!
# Entries of a vector picked by an index column: a scatter of single entries

An array of E scatter indices, laid out as a column [E, 1], names for each e one entry of an operand vector
with N entries. A scatter reads the index as a signed integer and does not clamp it: an update whose entry
falls outside [0, N) lands nowhere. So a scatter-add leaves at entry p the operand's entry plus the sum of the
updates whose index, read signed, is p.
-/

noncomputable section

namespace Cert.RowIndex

open Idealize.ShloMosaic Idealize.ShloMosaic.ValueIdx
open scoped BigOperators

/-- Dimension numbers of a scatter of single entries into a vector: operand [N], scatter indices [E, 1],
    updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e of a scatter of entries lands on entry p exactly when the e-th scatter index, read signed, is p. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) (p : Fin N) :
    (vecScatterDims N E wf).resultIdx? (ix1 e) idx = some (ix1 p)
      ↔ (idx (ix2 e (0 : Fin 1))).toInt = (p.val : ℤ) := by
  have hw0 : (vecScatterDims N E wf).window (ix1 e) 0 = 0 := by
    unfold ScatterDims.window
    rw [dif_neg]
    intro h
    have h' := (List.mem_filter.mp h).2
    simp at h'
  have hst0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hsum0 : (vecScatterDims N E wf).start (ix1 e) idx 0
      + (((vecScatterDims N E wf).window (ix1 e) 0 : ℕ) : ℤ) = (idx (ix2 e (0 : Fin 1))).toInt := by
    rw [hst0, hw0]; simp
  unfold ScatterDims.resultIdx?
  split
  · rename_i h
    rw [Option.some.injEq]
    constructor
    · intro hf
      have h0 : ((vecScatterDims N E wf).start (ix1 e) idx 0
          + (((vecScatterDims N E wf).window (ix1 e) 0 : ℕ) : ℤ)).toNat = p.val :=
        congrArg (fun f => (f 0).val) hf
      have hh := (h 0).1
      rw [hsum0] at h0 hh
      omega
    · intro hp
      funext a; refine Fin.ext ?_
      match a with
      | ⟨0, _⟩ =>
        show ((vecScatterDims N E wf).start (ix1 e) idx 0
          + (((vecScatterDims N E wf).window (ix1 e) 0 : ℕ) : ℤ)).toNat = p.val
        rw [hsum0, hp]; simp
  · rename_i h
    constructor
    · intro hf; exact absurd hf (by simp)
    · intro hp
      exfalso; apply h
      intro a
      match a with
      | ⟨0, _⟩ =>
        show 0 ≤ (vecScatterDims N E wf).start (ix1 e) idx 0
              + (((vecScatterDims N E wf).window (ix1 e) 0 : ℕ) : ℤ)
          ∧ (vecScatterDims N E wf).start (ix1 e) idx 0
              + (((vecScatterDims N E wf).window (ix1 e) 0 : ℕ) : ℤ) < (N : ℤ)
        rw [hsum0, hp]
        have := p.isLt
        omega

/-- A scatter-add of entries at entry p: the operand there plus the updates e whose scatter index, read
    signed, is p. -/
theorem vecScatterAdd_apply {N E w : Nat}
    (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ w)
    (u : (⟨1, ![E]⟩ : Shape).Idx → EReal) (p : Fin N) :
    Host.scatterAdd (F := Ideal) (φ := .f32) (vecScatterDims N E wf) z idx u (ix1 p)
      = z (ix1 p)
        + ∑ e ∈ Finset.univ.filter (fun e : Fin E => (idx (ix2 e (0 : Fin 1))).toInt = (p.val : ℤ)), u (ix1 e) := by
  show Ideal.hostScatterAdd (vecScatterDims N E wf) z idx u (ix1 p) = _
  unfold Ideal.hostScatterAdd
  congr 1
  refine Finset.sum_nbij' (fun j => j 0) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _,
      (vecScatter_resultIdx wf idx e p).mp (Finset.mem_filter.mp hj).2⟩
  · intro e he
    exact Finset.mem_filter.mpr ⟨Finset.mem_univ _,
      (vecScatter_resultIdx wf idx e p).mpr (Finset.mem_filter.mp he).2⟩
  · intro j _
    exact (eq_ix1 j).symm
  · intro e _
    rfl
  · intro j _
    exact congrArg u (eq_ix1 j)

end Cert.RowIndex

end
-- ==== Proof.RefDeg.lean ====
import proofs.«106155_j30657476559342_2_alg».proof.Proof.RefReadP
import proofs.«106155_j30657476559342_2_alg».proof.Proof.RefIdx
import proofs.«106155_j30657476559342_2_alg».proof.Proof.RefCore
import proofs.«106155_j30657476559342_2_alg».proof.Proof.LibVecScatter

/-!
# The degree and the scale of the reference, read at a node

Each layer of the reference counts, by a scatter-add of ones along the targets into zeros, the edges landing on
each node, and takes "1/√deg where deg > 0, else 0". Both read at node p as the specification's `deg` and `dinv`.
-/

noncomputable section

namespace Cert.ReferenceIdeal.RefValue

open Cert.ReferenceIdeal Cert.ReferenceIdeal.Gen Cert.ReferenceIdeal.ReadP Idealize.ShloMosaic Idealize.ShloMosaic.ValueIdx
open Cert.GinMath Cert.RowIndex
open scoped BigOperators

/-- The pattern `0x3F800000` denotes the extended real one. -/
theorem ofBits_one' : Ideal.ofBits .f32 0x3F800000#32 = 1 := by
  rw [ofBits_one, EReal.coe_one]

/-- A scatter-add of ones along the targets into zeros counts the edges landing on each node. -/
theorem deg_of (z : (⟨1, ![100000]⟩ : Shape).Idx → EReal) (hz : ∀ i, z i = 0) (dst : IVec ⟨2, ![1700000, 1]⟩ 32)
    (ei : (⟨2, ![2, 1600000]⟩ : Shape).Idx → BitVec 32)
    (hdst : ∀ e : Fin 1700000, dst (ix2 e (0 : Fin 1)) = Cert.Spec.ends ei 1 e)
    (u : (⟨1, ![1700000]⟩ : Shape).Idx → EReal) (hu : ∀ i, u i = 1) (p : Fin 100000) :
    Host.scatterAdd (F := Ideal) (φ := .f32) scatter_S100000_S1700000x1_S1700000_n_0_0_1 z dst u (ix1 p)
      = Cert.Spec.deg ei p := by
  show Host.scatterAdd (F := Ideal) (φ := .f32)
    (vecScatterDims 100000 1700000 scatter_S100000_S1700000x1_S1700000_n_0_0_1_wf) z dst u (ix1 p) = _
  rw [vecScatterAdd_apply, hz]
  unfold Cert.Spec.deg Cert.Spec.into
  refine congrArg (fun s => (0 : EReal) + s) ?_
  rw [Finset.filter_congr (q := fun e : Fin 1700000 => (Cert.Spec.ends ei 1 e).toInt = (p.val : ℤ)) (fun e _ => by rw [hdst])]
  exact Finset.sum_congr rfl fun e _ => hu _

/-! ### Layer 1: the degree and the scale -/

theorem v11_apply (ei : (⟨S2x1600000, .i32⟩ : BufTy).Contents (Elt Ideal)) (p : Fin 100000) :
    val_main_v11 (F := Ideal) ei (ix1 p) = Cert.Spec.deg ei p := by
  unfold val_main_v11
  exact deg_of _ (fun i => by rw [val_main_v9_apply, val_main_cst_0_apply]; exact ofBits_zero) _ ei (v10_col ei) _
    (fun i => by rw [val_main_v8_apply, val_main_cst_apply]; exact ofBits_one') p

theorem v15_apply (ei : (⟨S2x1600000, .i32⟩ : BufTy).Contents (Elt Ideal)) (p : Fin 100000) :
    val_main_v15 (F := Ideal) ei (ix1 p) = Cert.Spec.dinv ei p := by
  have hz : (val_main_v12 (F := Ideal) (ix1 p) : EReal) = 0 := by
    rw [val_main_v12_apply, val_main_cst_1_apply]; exact ofBits_zero
  have hz' : (val_main_call0_v1 (F := Ideal) (ix1 p) : EReal) = 0 := by
    rw [val_main_call0_v1_apply, val_main_call0_v0_apply, val_main_cst_2_apply]; exact ofBits_zero
  rw [val_main_v15_apply, val_main_v13_apply, val_main_v14_apply, v11_apply, hz, hz']
  unfold Cert.Spec.dinv
  generalize Cert.Spec.deg ei p = dg
  exact select_rsqrt dg 0 0 rfl rfl

/-! ### Layer 2: the degree and the scale -/

theorem v52_apply (ei : (⟨S2x1600000, .i32⟩ : BufTy).Contents (Elt Ideal)) (p : Fin 100000) :
    val_main_v52 (F := Ideal) ei (ix1 p) = Cert.Spec.deg ei p := by
  unfold val_main_v52
  exact deg_of _ (fun i => by rw [val_main_v50_apply, val_main_cst_10_apply]; exact ofBits_zero) _ ei (v51_col ei) _
    (fun i => by rw [val_main_v49_apply, val_main_cst_9_apply]; exact ofBits_one') p

theorem v56_apply (ei : (⟨S2x1600000, .i32⟩ : BufTy).Contents (Elt Ideal)) (p : Fin 100000) :
    val_main_v56 (F := Ideal) ei (ix1 p) = Cert.Spec.dinv ei p := by
  have hz : (val_main_v53 (F := Ideal) (ix1 p) : EReal) = 0 := by
    rw [val_main_v53_apply, val_main_cst_11_apply]; exact ofBits_zero
  have hz' : (val_main_call1_v1 (F := Ideal) (ix1 p) : EReal) = 0 := by
    rw [val_main_call1_v1_apply, val_main_call1_v0_apply, val_main_cst_12_apply]; exact ofBits_zero
  rw [val_main_v56_apply, val_main_v54_apply, val_main_v55_apply, v52_apply, hz, hz']
  unfold Cert.Spec.dinv
  generalize Cert.Spec.deg ei p = dg
  exact select_rsqrt dg 0 0 rfl rfl

/-! ### Layer 3: the degree and the scale -/

theorem v93_apply (ei : (⟨S2x1600000, .i32⟩ : BufTy).Contents (Elt Ideal)) (p : Fin 100000) :
    val_main_v93 (F := Ideal) ei (ix1 p) = Cert.Spec.deg ei p := by
  unfold val_main_v93
  exact deg_of _ (fun i => by rw [val_main_v91_apply, val_main_cst_21_apply]; exact ofBits_zero) _ ei (v92_col ei) _
    (fun i => by rw [val_main_v90_apply, val_main_cst_20_apply]; exact ofBits_one') p

theorem v97_apply (ei : (⟨S2x1600000, .i32⟩ : BufTy).Contents (Elt Ideal)) (p : Fin 100000) :
    val_main_v97 (F := Ideal) ei (ix1 p) = Cert.Spec.dinv ei p := by
  have hz : (val_main_v94 (F := Ideal) (ix1 p) : EReal) = 0 := by
    rw [val_main_v94_apply, val_main_cst_22_apply]; exact ofBits_zero
  have hz' : (val_main_call2_v1 (F := Ideal) (ix1 p) : EReal) = 0 := by
    rw [val_main_call2_v1_apply, val_main_call2_v0_apply, val_main_cst_23_apply]; exact ofBits_zero
  rw [val_main_v97_apply, val_main_v95_apply, val_main_v96_apply, v93_apply, hz, hz']
  unfold Cert.Spec.dinv
  generalize Cert.Spec.deg ei p = dg
  exact select_rsqrt dg 0 0 rfl rfl

end Cert.ReferenceIdeal.RefValue

end
-- ==== Proof.RefLayer1.lean ====
import proofs.«106155_j30657476559342_2_alg».proof.Proof.RefReadP
import proofs.«106155_j30657476559342_2_alg».proof.Proof.RefIdx
import proofs.«106155_j30657476559342_2_alg».proof.Proof.RefDeg
import proofs.«106155_j30657476559342_2_alg».proof.Proof.RefCore

/-!
# Layer 1 of the reference, read at an entry

The reference projects the node features by the weight matrix, gathers for each edge the projected row of its
source and the two scales (the source's and the wrapped, clamped target's), multiplies, scatter-adds the rows
along the targets, adds the bias and takes `tanh`. At (p, q) this is the layer of the specification applied to
the features entering the layer.
-/

noncomputable section

namespace Cert.ReferenceIdeal.RefValue

open Cert.ReferenceIdeal Cert.ReferenceIdeal.Gen Cert.ReferenceIdeal.ReadP Idealize.ShloMosaic Idealize.ShloMosaic.ValueIdx
open Cert.GinMath Cert.RowIndex
open scoped BigOperators

set_option maxHeartbeats 1000000 in
/-- Layer 1 at (p, q). -/
theorem layer1 (x0 : (⟨S100000x128, .f32⟩ : BufTy).Contents (Elt Ideal)) (x1 : (⟨S128x16, .f32⟩ : BufTy).Contents (Elt Ideal)) (x2 : (⟨S16, .f32⟩ : BufTy).Contents (Elt Ideal)) (x9 : (⟨S2x1600000, .i32⟩ : BufTy).Contents (Elt Ideal))
    (h0 : ∀ i, IsReal (x0 i)) (h1 : ∀ i, IsReal (x1 i))
    (p : Fin 100000) (q : Fin 16) :
    val_main_v47 (F := Ideal) x0 x1 x2 x9 (ix2 p q)
      = Cert.Spec.layer x9 (fun n k => x0 (ix2 n k)) (fun k c => x1 (ix2 k c)) (fun c => x2 (ix1 c)) p q := by
  have hHWv : ∀ (n : Fin 100000) (c : Fin 16), val_main_v7 (F := Ideal) x0 x1 (ix2 n c)
      = ∑ k : Fin 128, (fun n k => x0 (ix2 n k)) n k * (fun k c => x1 (ix2 k c)) k c := by
    intro n c
    rw [val_main_v7_apply]
    refine Finset.sum_congr rfl fun k _ => ?_
    have e1 : lidx_main_v7 (ix2 n c) k = ix2 n k :=
      funext fun a => by match a with | ⟨0, _⟩ => rfl | ⟨1, _⟩ => rfl
    have e2 : ridx_main_v7 (ix2 n c) k = ix2 k c :=
      funext fun a => by match a with | ⟨0, _⟩ => rfl | ⟨1, _⟩ => rfl
    rw [e1, e2]
  have hz : ∀ i, (val_main_v41 (F := Ideal) i : EReal) = 0 := by
    intro i
    rw [val_main_v41_apply, val_main_cst_8_apply]
    exact ofBits_zero
  have hupd : ∀ (e : Fin 1700000) (c : Fin 16), val_main_v40 (F := Ideal) x0 x1 x9 (ix2 e c)
      = val_main_v7 (F := Ideal) x0 x1 (ix2 (Cert.Spec.srcNode x9 e) c)
          * (val_main_v15 (F := Ideal) x9 (ix1 (Cert.Spec.srcNode x9 e))
              * val_main_v15 (F := Ideal) x9 (ix1 (clampRow 100000 (by decide) (Cert.Spec.wrap (Cert.Spec.ends x9 1 e))))) := by
    intro e c
    rw [val_main_v40_apply, val_main_v39_apply, val_main_v38_apply, val_main_v30_apply]
    have hi : idx_main_v38 (idx_main_v39 (ix2 e c)) = ix1 e :=
      funext fun a => by match a with | ⟨0, _⟩ => rfl
    rw [hi]
    unfold val_main_v37 val_main_v22 val_main_v29
    have g1 : Host.gather gather_S100000x16_S1700000x1_S1700000x16_1_0_n_n_0_1_116 (val_main_v7 (F := Ideal) x0 x1) (val_main_v36 (F := Ideal) x9) (ix2 e c)
        = val_main_v7 (F := Ideal) x0 x1 (ix2 (Cert.Spec.srcNode x9 e) c) := by
      refine (rowGather_apply (by decide) gather_S100000x16_S1700000x1_S1700000x16_1_0_n_n_0_1_116_wf (val_main_v7 (F := Ideal) x0 x1) (val_main_v36 (F := Ideal) x9) e c).trans ?_
      rw [v36_col]
      rfl
    have g2 : Host.gather gather_S100000_S1700000x1_S1700000_n_0_n_n_0_1_1 (val_main_v15 (F := Ideal) x9) (val_main_v21 (F := Ideal) x9) (ix1 e)
        = val_main_v15 (F := Ideal) x9 (ix1 (Cert.Spec.srcNode x9 e)) := by
      refine (vecGather_apply (by decide) gather_S100000_S1700000x1_S1700000_n_0_n_n_0_1_1_wf (val_main_v15 (F := Ideal) x9) (val_main_v21 (F := Ideal) x9) e).trans ?_
      rw [v21_col]
      rfl
    have g3 : Host.gather gather_S100000_S1700000x1_S1700000_n_0_n_n_0_1_1 (val_main_v15 (F := Ideal) x9) (val_main_v28 (F := Ideal) x9) (ix1 e)
        = val_main_v15 (F := Ideal) x9 (ix1 (clampRow 100000 (by decide) (Cert.Spec.wrap (Cert.Spec.ends x9 1 e)))) := by
      refine (vecGather_apply (by decide) gather_S100000_S1700000x1_S1700000_n_0_n_n_0_1_1_wf (val_main_v15 (F := Ideal) x9) (val_main_v28 (F := Ideal) x9) e).trans ?_
      rw [v28_col]
    rw [g1, g2, g3]
    rfl
  have hbb : val_main_v45 (F := Ideal) x2 (ix2 p q) = (fun c => x2 (ix1 c)) q := by
    rw [val_main_v45_apply, val_main_v44_apply]
    exact congrArg x2 (funext fun a => by match a with | ⟨0, _⟩ => rfl)
  rw [val_main_v47_apply, val_main_v46_apply, Ideal.hostUnary_tanh_def, Ideal.addf_def]
  unfold val_main_v43
  have hdims : scatter_S100000x16_S1700000x1_S1700000x16_1_0_0_1 = rowScatterDims 100000 1700000 16 scatter_S100000x16_S1700000x1_S1700000x16_1_0_0_1_wf := rfl
  rw [hdims]
  exact layer_of scatter_S100000x16_S1700000x1_S1700000x16_1_0_0_1_wf x9 (fun n k => x0 (ix2 n k)) (fun k c => x1 (ix2 k c)) (fun c => x2 (ix1 c))
    (fun n k => h0 _) (fun k c => h1 _)
    (val_main_v7 (F := Ideal) x0 x1) hHWv (val_main_v15 (F := Ideal) x9) (v15_apply x9)
    (val_main_v41 (F := Ideal)) hz (val_main_v42 (F := Ideal) x9) (v42_col x9)
    (val_main_v40 (F := Ideal) x0 x1 x9) hupd p q _ hbb

end Cert.ReferenceIdeal.RefValue

end
-- ==== Proof.RefLayer2.lean ====
import proofs.«106155_j30657476559342_2_alg».proof.Proof.RefReadP
import proofs.«106155_j30657476559342_2_alg».proof.Proof.RefIdx
import proofs.«106155_j30657476559342_2_alg».proof.Proof.RefDeg
import proofs.«106155_j30657476559342_2_alg».proof.Proof.RefCore

/-!
# Layer 2 of the reference, read at an entry

The reference projects the node features by the weight matrix, gathers for each edge the projected row of its
source and the two scales (the source's and the wrapped, clamped target's), multiplies, scatter-adds the rows
along the targets, adds the bias and takes `tanh`. At (p, q) this is the layer of the specification applied to
the features entering the layer.
-/

noncomputable section

namespace Cert.ReferenceIdeal.RefValue

open Cert.ReferenceIdeal Cert.ReferenceIdeal.Gen Cert.ReferenceIdeal.ReadP Idealize.ShloMosaic Idealize.ShloMosaic.ValueIdx
open Cert.GinMath Cert.RowIndex
open scoped BigOperators

set_option maxHeartbeats 1000000 in
/-- Layer 2 at (p, q). -/
theorem layer2 (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S16x32, .f32⟩ : BufTy).Contents (Elt Ideal)) (x4 : (⟨S32, .f32⟩ : BufTy).Contents (Elt Ideal)) (x9 : (⟨S2x1600000, .i32⟩ : BufTy).Contents (Elt Ideal))
    (h3 : ∀ i, IsReal (x3 i))
    (p : Fin 100000) (q : Fin 32) :
    val_main_v88 (F := Ideal) x0 x1 x2 x3 x4 x9 (ix2 p q)
      = Cert.Spec.layer x9 (fun n k => val_main_v47 (F := Ideal) x0 x1 x2 x9 (ix2 n k)) (fun k c => x3 (ix2 k c)) (fun c => x4 (ix1 c)) p q := by
  have hHWv : ∀ (n : Fin 100000) (c : Fin 32), val_main_v48 (F := Ideal) x0 x1 x2 x3 x9 (ix2 n c)
      = ∑ k : Fin 16, (fun n k => val_main_v47 (F := Ideal) x0 x1 x2 x9 (ix2 n k)) n k * (fun k c => x3 (ix2 k c)) k c := by
    intro n c
    rw [val_main_v48_apply]
    refine Finset.sum_congr rfl fun k _ => ?_
    have e1 : lidx_main_v48 (ix2 n c) k = ix2 n k :=
      funext fun a => by match a with | ⟨0, _⟩ => rfl | ⟨1, _⟩ => rfl
    have e2 : ridx_main_v48 (ix2 n c) k = ix2 k c :=
      funext fun a => by match a with | ⟨0, _⟩ => rfl | ⟨1, _⟩ => rfl
    rw [e1, e2]
  have hz : ∀ i, (val_main_v82 (F := Ideal) i : EReal) = 0 := by
    intro i
    rw [val_main_v82_apply, val_main_cst_19_apply]
    exact ofBits_zero
  have hupd : ∀ (e : Fin 1700000) (c : Fin 32), val_main_v81 (F := Ideal) x0 x1 x2 x3 x9 (ix2 e c)
      = val_main_v48 (F := Ideal) x0 x1 x2 x3 x9 (ix2 (Cert.Spec.srcNode x9 e) c)
          * (val_main_v56 (F := Ideal) x9 (ix1 (Cert.Spec.srcNode x9 e))
              * val_main_v56 (F := Ideal) x9 (ix1 (clampRow 100000 (by decide) (Cert.Spec.wrap (Cert.Spec.ends x9 1 e))))) := by
    intro e c
    rw [val_main_v81_apply, val_main_v80_apply, val_main_v79_apply, val_main_v71_apply]
    have hi : idx_main_v79 (idx_main_v80 (ix2 e c)) = ix1 e :=
      funext fun a => by match a with | ⟨0, _⟩ => rfl
    rw [hi]
    unfold val_main_v78 val_main_v63 val_main_v70
    have g1 : Host.gather gather_S100000x32_S1700000x1_S1700000x32_1_0_n_n_0_1_132 (val_main_v48 (F := Ideal) x0 x1 x2 x3 x9) (val_main_v77 (F := Ideal) x9) (ix2 e c)
        = val_main_v48 (F := Ideal) x0 x1 x2 x3 x9 (ix2 (Cert.Spec.srcNode x9 e) c) := by
      refine (rowGather_apply (by decide) gather_S100000x32_S1700000x1_S1700000x32_1_0_n_n_0_1_132_wf (val_main_v48 (F := Ideal) x0 x1 x2 x3 x9) (val_main_v77 (F := Ideal) x9) e c).trans ?_
      rw [v77_col]
      rfl
    have g2 : Host.gather gather_S100000_S1700000x1_S1700000_n_0_n_n_0_1_1 (val_main_v56 (F := Ideal) x9) (val_main_v62 (F := Ideal) x9) (ix1 e)
        = val_main_v56 (F := Ideal) x9 (ix1 (Cert.Spec.srcNode x9 e)) := by
      refine (vecGather_apply (by decide) gather_S100000_S1700000x1_S1700000_n_0_n_n_0_1_1_wf (val_main_v56 (F := Ideal) x9) (val_main_v62 (F := Ideal) x9) e).trans ?_
      rw [v62_col]
      rfl
    have g3 : Host.gather gather_S100000_S1700000x1_S1700000_n_0_n_n_0_1_1 (val_main_v56 (F := Ideal) x9) (val_main_v69 (F := Ideal) x9) (ix1 e)
        = val_main_v56 (F := Ideal) x9 (ix1 (clampRow 100000 (by decide) (Cert.Spec.wrap (Cert.Spec.ends x9 1 e)))) := by
      refine (vecGather_apply (by decide) gather_S100000_S1700000x1_S1700000_n_0_n_n_0_1_1_wf (val_main_v56 (F := Ideal) x9) (val_main_v69 (F := Ideal) x9) e).trans ?_
      rw [v69_col]
    rw [g1, g2, g3]
    rfl
  have hbb : val_main_v86 (F := Ideal) x4 (ix2 p q) = (fun c => x4 (ix1 c)) q := by
    rw [val_main_v86_apply, val_main_v85_apply]
    exact congrArg x4 (funext fun a => by match a with | ⟨0, _⟩ => rfl)
  rw [val_main_v88_apply, val_main_v87_apply, Ideal.hostUnary_tanh_def, Ideal.addf_def]
  unfold val_main_v84
  have hdims : scatter_S100000x32_S1700000x1_S1700000x32_1_0_0_1 = rowScatterDims 100000 1700000 32 scatter_S100000x32_S1700000x1_S1700000x32_1_0_0_1_wf := rfl
  rw [hdims]
  exact layer_of scatter_S100000x32_S1700000x1_S1700000x32_1_0_0_1_wf x9 (fun n k => val_main_v47 (F := Ideal) x0 x1 x2 x9 (ix2 n k)) (fun k c => x3 (ix2 k c)) (fun c => x4 (ix1 c))
    (fun n k => by rw [val_main_v47_apply, Ideal.hostUnary_tanh_def]; exact isReal_tanh _) (fun k c => h3 _)
    (val_main_v48 (F := Ideal) x0 x1 x2 x3 x9) hHWv (val_main_v56 (F := Ideal) x9) (v56_apply x9)
    (val_main_v82 (F := Ideal)) hz (val_main_v83 (F := Ideal) x9) (v83_col x9)
    (val_main_v81 (F := Ideal) x0 x1 x2 x3 x9) hupd p q _ hbb

end Cert.ReferenceIdeal.RefValue

end
-- ==== Proof.RefLayer3.lean ====
import proofs.«106155_j30657476559342_2_alg».proof.Proof.RefReadP
import proofs.«106155_j30657476559342_2_alg».proof.Proof.RefIdx
import proofs.«106155_j30657476559342_2_alg».proof.Proof.RefDeg
import proofs.«106155_j30657476559342_2_alg».proof.Proof.RefCore

/-!
# Layer 3 of the reference, read at an entry

The reference projects the node features by the weight matrix, gathers for each edge the projected row of its
source and the two scales (the source's and the wrapped, clamped target's), multiplies, scatter-adds the rows
along the targets, adds the bias and takes `tanh`. At (p, q) this is the layer of the specification applied to
the features entering the layer.
-/

noncomputable section

namespace Cert.ReferenceIdeal.RefValue

open Cert.ReferenceIdeal Cert.ReferenceIdeal.Gen Cert.ReferenceIdeal.ReadP Idealize.ShloMosaic Idealize.ShloMosaic.ValueIdx
open Cert.GinMath Cert.RowIndex
open scoped BigOperators

set_option maxHeartbeats 1000000 in
/-- Layer 3 at (p, q). -/
theorem layer3 (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S16x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x9 : (⟨S2x1600000, .i32⟩ : BufTy).Contents (Elt Ideal))
    (h5 : ∀ i, IsReal (x5 i))
    (p : Fin 100000) (q : Fin 64) :
    val_main_v129 (F := Ideal) x0 x1 x2 x3 x4 x5 x6 x9 (ix2 p q)
      = Cert.Spec.layer x9 (fun n k => val_main_v88 (F := Ideal) x0 x1 x2 x3 x4 x9 (ix2 n k)) (fun k c => x5 (ix2 k c)) (fun c => x6 (ix1 c)) p q := by
  have hHWv : ∀ (n : Fin 100000) (c : Fin 64), val_main_v89 (F := Ideal) x0 x1 x2 x3 x4 x5 x9 (ix2 n c)
      = ∑ k : Fin 32, (fun n k => val_main_v88 (F := Ideal) x0 x1 x2 x3 x4 x9 (ix2 n k)) n k * (fun k c => x5 (ix2 k c)) k c := by
    intro n c
    rw [val_main_v89_apply]
    refine Finset.sum_congr rfl fun k _ => ?_
    have e1 : lidx_main_v89 (ix2 n c) k = ix2 n k :=
      funext fun a => by match a with | ⟨0, _⟩ => rfl | ⟨1, _⟩ => rfl
    have e2 : ridx_main_v89 (ix2 n c) k = ix2 k c :=
      funext fun a => by match a with | ⟨0, _⟩ => rfl | ⟨1, _⟩ => rfl
    rw [e1, e2]
  have hz : ∀ i, (val_main_v123 (F := Ideal) i : EReal) = 0 := by
    intro i
    rw [val_main_v123_apply, val_main_cst_30_apply]
    exact ofBits_zero
  have hupd : ∀ (e : Fin 1700000) (c : Fin 64), val_main_v122 (F := Ideal) x0 x1 x2 x3 x4 x5 x9 (ix2 e c)
      = val_main_v89 (F := Ideal) x0 x1 x2 x3 x4 x5 x9 (ix2 (Cert.Spec.srcNode x9 e) c)
          * (val_main_v97 (F := Ideal) x9 (ix1 (Cert.Spec.srcNode x9 e))
              * val_main_v97 (F := Ideal) x9 (ix1 (clampRow 100000 (by decide) (Cert.Spec.wrap (Cert.Spec.ends x9 1 e))))) := by
    intro e c
    rw [val_main_v122_apply, val_main_v121_apply, val_main_v120_apply, val_main_v112_apply]
    have hi : idx_main_v120 (idx_main_v121 (ix2 e c)) = ix1 e :=
      funext fun a => by match a with | ⟨0, _⟩ => rfl
    rw [hi]
    unfold val_main_v119 val_main_v104 val_main_v111
    have g1 : Host.gather gather_S100000x64_S1700000x1_S1700000x64_1_0_n_n_0_1_164 (val_main_v89 (F := Ideal) x0 x1 x2 x3 x4 x5 x9) (val_main_v118 (F := Ideal) x9) (ix2 e c)
        = val_main_v89 (F := Ideal) x0 x1 x2 x3 x4 x5 x9 (ix2 (Cert.Spec.srcNode x9 e) c) := by
      refine (rowGather_apply (by decide) gather_S100000x64_S1700000x1_S1700000x64_1_0_n_n_0_1_164_wf (val_main_v89 (F := Ideal) x0 x1 x2 x3 x4 x5 x9) (val_main_v118 (F := Ideal) x9) e c).trans ?_
      rw [v118_col]
      rfl
    have g2 : Host.gather gather_S100000_S1700000x1_S1700000_n_0_n_n_0_1_1 (val_main_v97 (F := Ideal) x9) (val_main_v103 (F := Ideal) x9) (ix1 e)
        = val_main_v97 (F := Ideal) x9 (ix1 (Cert.Spec.srcNode x9 e)) := by
      refine (vecGather_apply (by decide) gather_S100000_S1700000x1_S1700000_n_0_n_n_0_1_1_wf (val_main_v97 (F := Ideal) x9) (val_main_v103 (F := Ideal) x9) e).trans ?_
      rw [v103_col]
      rfl
    have g3 : Host.gather gather_S100000_S1700000x1_S1700000_n_0_n_n_0_1_1 (val_main_v97 (F := Ideal) x9) (val_main_v110 (F := Ideal) x9) (ix1 e)
        = val_main_v97 (F := Ideal) x9 (ix1 (clampRow 100000 (by decide) (Cert.Spec.wrap (Cert.Spec.ends x9 1 e)))) := by
      refine (vecGather_apply (by decide) gather_S100000_S1700000x1_S1700000_n_0_n_n_0_1_1_wf (val_main_v97 (F := Ideal) x9) (val_main_v110 (F := Ideal) x9) e).trans ?_
      rw [v110_col]
    rw [g1, g2, g3]
    rfl
  have hbb : val_main_v127 (F := Ideal) x6 (ix2 p q) = (fun c => x6 (ix1 c)) q := by
    rw [val_main_v127_apply, val_main_v126_apply]
    exact congrArg x6 (funext fun a => by match a with | ⟨0, _⟩ => rfl)
  rw [val_main_v129_apply, val_main_v128_apply, Ideal.hostUnary_tanh_def, Ideal.addf_def]
  unfold val_main_v125
  have hdims : scatter_S100000x64_S1700000x1_S1700000x64_1_0_0_1 = rowScatterDims 100000 1700000 64 scatter_S100000x64_S1700000x1_S1700000x64_1_0_0_1_wf := rfl
  rw [hdims]
  exact layer_of scatter_S100000x64_S1700000x1_S1700000x64_1_0_0_1_wf x9 (fun n k => val_main_v88 (F := Ideal) x0 x1 x2 x3 x4 x9 (ix2 n k)) (fun k c => x5 (ix2 k c)) (fun c => x6 (ix1 c))
    (fun n k => by rw [val_main_v88_apply, Ideal.hostUnary_tanh_def]; exact isReal_tanh _) (fun k c => h5 _)
    (val_main_v89 (F := Ideal) x0 x1 x2 x3 x4 x5 x9) hHWv (val_main_v97 (F := Ideal) x9) (v97_apply x9)
    (val_main_v123 (F := Ideal)) hz (val_main_v124 (F := Ideal) x9) (v124_col x9)
    (val_main_v122 (F := Ideal) x0 x1 x2 x3 x4 x5 x9) hupd p q _ hbb

end Cert.ReferenceIdeal.RefValue

end
-- ==== Proof.RefPool.lean ====
import proofs.«106155_j30657476559342_2_alg».proof.Proof.RefReadP
import proofs.«106155_j30657476559342_2_alg».proof.Proof.RefCore

/-!
# The maximum over the nodes, read at a column

The reference reduces the last features over the node axis by `maximum`, starting from −∞: at column k this is the
supremum over the nodes of the features' entries in that column.
-/

noncomputable section

namespace Cert.ReferenceIdeal.RefValue

open Cert.ReferenceIdeal Cert.ReferenceIdeal.Gen Cert.ReferenceIdeal.ReadP Idealize.ShloMosaic Idealize.ShloMosaic.ValueIdx

/-- The pattern `0xFF800000` (sign set, exponent all ones, fraction zero) denotes `⊥`. -/
theorem ofBits_neg_inf : Ideal.ofBits .f32 0xFF800000#32 = ⊥ := by
  simp [Ideal.ofBits, Ideal.ieee]

/-- The reduced index k with node p put back on the reduced axis is (p, k). -/
theorem lift_node (h : S100000x64.Reduces [0] S64) (k : Fin 64) (p : Fin (S100000x64.size 0)) :
    h.lift (ix1 k) p = ix2 (⟨p.val, p.isLt⟩ : Fin 100000) k := by
  funext c; apply Fin.ext
  fin_cases c <;> rfl

/-- A reduce by `maximum` from −∞ over the node axis of a [100000, 64] array, at column k: the supremum over the
    nodes. -/
theorem reduce_max_nodes (y : FVec Ideal S100000x64 .f32)
    (init : FVec Ideal S_ .f32) (hinit : ∀ i, init i = Ideal.ofBits .f32 0xFF800000#32) (k : Fin 64) :
    (Host.reduce (FloatOps.maximumf (F := Ideal) (φ := .f32)) y init reducesTo_S100000x64_S64_d0 h_S_ : FVec Ideal S64 .f32) (ix1 k)
      = Finset.univ.sup fun p : Fin 100000 => y (ix2 p k) := by
  have hR : S100000x64.Reduces [0] S64 := by decide
  rw [Host.reduce_eq_fold_single (FloatOps.maximumf (F := Ideal) (φ := .f32)) y init reducesTo_S100000x64_S64_d0 hR h_S_ (ix1 k), hinit, ofBits_neg_inf]
  show (Finset.univ : Finset (Fin 100000)).fold max ⊥ (fun p : Fin 100000 => y (hR.lift (ix1 k) p)) = _
  rw [fold_max_bot_eq_sup]
  exact congrArg (Finset.univ.sup) (funext fun p => congrArg y (lift_node hR k p))

/-- The pooled features of the reference at column k. -/
theorem v130_apply (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S16x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x9 : (⟨S2x1600000, .i32⟩ : BufTy).Contents (Elt Ideal)) (k : Fin 64) :
    val_main_v130 (F := Ideal) x0 x1 x2 x3 x4 x5 x6 x9 (ix1 k) = Finset.univ.sup fun p : Fin 100000 => val_main_v129 (F := Ideal) x0 x1 x2 x3 x4 x5 x6 x9 (ix2 p k) := by
  unfold val_main_v130
  exact reduce_max_nodes _ _ (fun i => val_main_cst_31_apply i) k

end Cert.ReferenceIdeal.RefValue

end
-- ==== Proof.RefOut.lean ====
import proofs.«106155_j30657476559342_2_alg».proof.Proof.RefReadP
import proofs.«106155_j30657476559342_2_alg».proof.Proof.RefCore
import proofs.«106155_j30657476559342_2_alg».proof.Proof.RefLayer1
import proofs.«106155_j30657476559342_2_alg».proof.Proof.RefLayer2
import proofs.«106155_j30657476559342_2_alg».proof.Proof.RefLayer3
import proofs.«106155_j30657476559342_2_alg».proof.Proof.RefPool

/-!
# The reference computes the specification

With every float argument real, the one number the reference returns — three layers, the maximum over the nodes,
the last linear map — is the specification's `out` of the arguments read entry by entry.
-/

noncomputable section

namespace Cert.ReferenceIdeal.RefValue

open Cert.ReferenceIdeal Cert.ReferenceIdeal.Gen Cert.ReferenceIdeal.ReadP Idealize.ShloMosaic Idealize.ShloMosaic.ValueIdx
open Cert.GinMath
open scoped BigOperators

/-- The features after the three layers of the reference are the specification's. -/
theorem v129_apply (x0 : (⟨S100000x128, .f32⟩ : BufTy).Contents (Elt Ideal))
    (x1 : (⟨S128x16, .f32⟩ : BufTy).Contents (Elt Ideal))
    (x2 : (⟨S16, .f32⟩ : BufTy).Contents (Elt Ideal))
    (x3 : (⟨S16x32, .f32⟩ : BufTy).Contents (Elt Ideal))
    (x4 : (⟨S32, .f32⟩ : BufTy).Contents (Elt Ideal))
    (x5 : (⟨S32x64, .f32⟩ : BufTy).Contents (Elt Ideal))
    (x6 : (⟨S64, .f32⟩ : BufTy).Contents (Elt Ideal))
    (x9 : (⟨S2x1600000, .i32⟩ : BufTy).Contents (Elt Ideal))
    (h0 : ∀ i, IsReal (x0 i)) (h1 : ∀ i, IsReal (x1 i)) (h3 : ∀ i, IsReal (x3 i)) (h5 : ∀ i, IsReal (x5 i))
    (p : Fin 100000) (k : Fin 64) :
    val_main_v129 (F := Ideal) x0 x1 x2 x3 x4 x5 x6 x9 (ix2 p k) = Cert.Spec.h3 x9 (fun p k => x0 (ix2 p k)) (fun k q => x1 (ix2 k q)) (fun q => x2 (ix1 q)) (fun k q => x3 (ix2 k q)) (fun q => x4 (ix1 q)) (fun k q => x5 (ix2 k q)) (fun q => x6 (ix1 q)) p k := by
  have f1 : (fun n k => val_main_v47 (F := Ideal) x0 x1 x2 x9 (ix2 n k)) = Cert.Spec.layer x9 (fun p k => x0 (ix2 p k)) (fun k q => x1 (ix2 k q)) (fun q => x2 (ix1 q)) :=
    funext fun n => funext fun k => layer1 x0 x1 x2 x9 h0 h1 n k
  have f2 : (fun n k => val_main_v88 (F := Ideal) x0 x1 x2 x3 x4 x9 (ix2 n k))
      = Cert.Spec.layer x9 (Cert.Spec.layer x9 (fun p k => x0 (ix2 p k)) (fun k q => x1 (ix2 k q)) (fun q => x2 (ix1 q))) (fun k q => x3 (ix2 k q)) (fun q => x4 (ix1 q)) :=
    funext fun n => funext fun k => by rw [layer2 x0 x1 x2 x3 x4 x9 h3 n k, f1]
  rw [layer3 x0 x1 x2 x3 x4 x5 x6 x9 h5 p k, f2]
  unfold Cert.Spec.h3
  rfl

/-- The reference's result, read at its only index, is the specification's number. -/
theorem ref_out
    (x0 : (⟨S100000x128, .f32⟩ : BufTy).Contents (Elt Ideal))
    (x1 : (⟨S128x16, .f32⟩ : BufTy).Contents (Elt Ideal))
    (x2 : (⟨S16, .f32⟩ : BufTy).Contents (Elt Ideal))
    (x3 : (⟨S16x32, .f32⟩ : BufTy).Contents (Elt Ideal))
    (x4 : (⟨S32, .f32⟩ : BufTy).Contents (Elt Ideal))
    (x5 : (⟨S32x64, .f32⟩ : BufTy).Contents (Elt Ideal))
    (x6 : (⟨S64, .f32⟩ : BufTy).Contents (Elt Ideal))
    (x7 : (⟨S64x1, .f32⟩ : BufTy).Contents (Elt Ideal))
    (x8 : (⟨S1, .f32⟩ : BufTy).Contents (Elt Ideal))
    (x9 : (⟨S2x1600000, .i32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) :
    val_main_v134 (F := Ideal) x0 x1 x2 x3 x4 x5 x6 x7 x8 x9 (ix2 (0 : Fin 1) (0 : Fin 1))
      = Cert.Spec.out x9 (fun p k => x0 (ix2 p k)) (fun k q => x1 (ix2 k q)) (fun q => x2 (ix1 q))
          (fun k q => x3 (ix2 k q)) (fun q => x4 (ix1 q)) (fun k q => x5 (ix2 k q)) (fun q => x6 (ix1 q))
          (fun k => x7 (ix2 k (0 : Fin 1))) (x8 (ix1 (0 : Fin 1))) := by
  rw [val_main_v134_apply, val_main_v132_apply, val_main_v133_apply]
  unfold Cert.Spec.out
  rw [Ideal.addf_def]
  have e8 : idx_main_v133 (ix2 (0 : Fin 1) (0 : Fin 1)) = ix1 (0 : Fin 1) :=
    funext fun a => by match a with | ⟨0, _⟩ => rfl
  rw [e8]
  refine congrArg (fun s => s + x8 (ix1 (0 : Fin 1))) (Finset.sum_congr rfl fun k _ => ?_)
  have e7 : ridx_main_v132 (ix2 (0 : Fin 1) (0 : Fin 1)) k = ix2 k (0 : Fin 1) :=
    funext fun a => by match a with | ⟨0, _⟩ => rfl | ⟨1, _⟩ => rfl
  have e1 : idx_main_v131 (lidx_main_v132 (ix2 (0 : Fin 1) (0 : Fin 1)) k) = ix1 k :=
    funext fun a => by match a with | ⟨0, _⟩ => rfl
  rw [e7, val_main_v131_apply, e1, v130_apply]
  unfold Cert.Spec.pooled
  refine congrArg (fun s => s * x7 (ix2 k (0 : Fin 1))) (congrArg (Finset.univ.sup) (funext fun p => ?_))
  exact v129_apply x0 x1 x2 x3 x4 x5 x6 x9 h0 h1 h3 h5 p k

/-- The same, stated on the run's result term over a launch memory. -/
theorem ref_out_mem (m : (ℓ : Loc nD τ sig) → Buf (Elt Ideal) ℓ) (c : Dev nD)
    (h0 : ∀ i, IsReal (m ((c.tc : Thread nD τ).loc main_arg0) i)) (h1 : ∀ i, IsReal (m ((c.tc : Thread nD τ).loc main_arg1) i))
    (h2 : ∀ i, IsReal (m ((c.tc : Thread nD τ).loc main_arg2) i)) (h3 : ∀ i, IsReal (m ((c.tc : Thread nD τ).loc main_arg3) i))
    (h4 : ∀ i, IsReal (m ((c.tc : Thread nD τ).loc main_arg4) i)) (h5 : ∀ i, IsReal (m ((c.tc : Thread nD τ).loc main_arg5) i))
    (h6 : ∀ i, IsReal (m ((c.tc : Thread nD τ).loc main_arg6) i)) (h7 : ∀ i, IsReal (m ((c.tc : Thread nD τ).loc main_arg7) i))
    (h8 : ∀ i, IsReal (m ((c.tc : Thread nD τ).loc main_arg8) i)) :
    Cert.ReferenceIdeal.ValueP.res_main_v134 (F := Ideal) m c (ix2 (0 : Fin 1) (0 : Fin 1))
      = Cert.Spec.out (m ((c.tc : Thread nD τ).loc main_arg9))
          (fun p k => m ((c.tc : Thread nD τ).loc main_arg0) (ix2 p k)) (fun k q => m ((c.tc : Thread nD τ).loc main_arg1) (ix2 k q))
          (fun q => m ((c.tc : Thread nD τ).loc main_arg2) (ix1 q)) (fun k q => m ((c.tc : Thread nD τ).loc main_arg3) (ix2 k q))
          (fun q => m ((c.tc : Thread nD τ).loc main_arg4) (ix1 q)) (fun k q => m ((c.tc : Thread nD τ).loc main_arg5) (ix2 k q))
          (fun q => m ((c.tc : Thread nD τ).loc main_arg6) (ix1 q)) (fun k => m ((c.tc : Thread nD τ).loc main_arg7) (ix2 k (0 : Fin 1)))
          (m ((c.tc : Thread nD τ).loc main_arg8) (ix1 (0 : Fin 1))) := by
  rw [val_main_v134_eq]
  exact ref_out _ _ _ _ _ _ _ _ _ _ h0 h1 h2 h3 h4 h5 h6 h7 h8

end Cert.ReferenceIdeal.RefValue

end
-- ==== Proof.LibLay.lean ====
import Idealize.ShloMosaic.Lib.ValueIdx
import Idealize.ShloMosaic.Lib.ValueLayout
import Idealize.ShloMosaic.Lib.Pipeline.Value

/-!
# Rows, columns and scalars spread over a matrix, read at an entry

A vector laid along the columns of one row, a row repeated down the rows, a vector laid down one column, a
column repeated across the columns, a scalar everywhere: each read at an entry is the operand at the
evident place.
-/

namespace Cert.Lay

open Idealize.ShloMosaic Idealize.ShloMosaic.ValueIdx

variable {α : Type}

/-- A scalar spread over any shape reads the scalar everywhere. -/
theorem scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector of length b as the one row of a [1, b] matrix. -/
theorem vecRow_apply {b : Nat} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x _ _ fun a => ?_
  match a with
  | ⟨0, _⟩ =>
    show c.val = if b = 1 then 0 else c.val
    split
    · have := c.isLt; omega
    · rfl

/-- One row repeated down a rows. -/
theorem rowRep_apply {a b : Nat} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x _ _ fun ax => ?_
  match ax with
  | ⟨0, _⟩ => rfl
  | ⟨1, _⟩ =>
    show c.val = if b = 1 then 0 else c.val
    split
    · have := c.isLt; omega
    · rfl

/-- A vector of length a as the one column of an [a, 1] matrix (by broadcasting). -/
theorem vecCol_apply {a : Nat} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x _ _ fun ax => ?_
  match ax with
  | ⟨0, _⟩ =>
    show p.val = if a = 1 then 0 else p.val
    split
    · have := p.isLt; omega
    · rfl

/-- A vector of length a recast as an [a, 1] matrix. -/
theorem vecColCast_apply {a : Nat} (h : (⟨1, ![a]⟩ : Shape).ShapeCasts ⟨2, ![a, 1]⟩)
    (x : (⟨1, ![a]⟩ : Shape).Idx → α) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column repeated across b columns. -/
theorem colRep_apply {a b : Nat} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

end Cert.Lay
-- ==== Proof.RefPre.lean ====
import proofs.«106155_j30657476559342_2_alg».proof.Pre_finite_inputs
import proofs.«106155_j30657476559342_2_alg».proof.Proof.LibReal
import proofs.«106155_j30657476559342_2_alg».proof.Proof.LibLay
import Idealize.ShloMosaic.Lib.ReduceAll
import Idealize.ShloMosaic.Lib.ValueIdx

/-!
# Finite inputs are real inputs

The precondition evaluates, for each of the nine float arrays, "every entry has absolute value below +∞", and
asks the conjunction of the nine answers to be 1. An extended real whose absolute value is below +∞ is neither
infinity, hence a real number; so under the precondition every entry of every float array is real.
-/

noncomputable section

namespace Cert.ReferenceIdeal.RefValue

open Idealize.ShloMosaic Idealize.ShloMosaic.ValueIdx Cert.GinMath

/-- "All entries have absolute value below the broadcast +∞", answered 1, says every entry is real. -/
theorem real_of_all {s : Shape} {axes : List (Fin s.rank)} (x : FVec Ideal s .f32)
    (hb : (⟨0, ![]⟩ : Shape).BroadcastsInDim s (![] : Fin 0 → Fin s.rank))
    (init : IVec (⟨0, ![]⟩ : Shape) 1) (h : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          init h hu ix0 = 1#1)
    (i : s.Idx) : IsReal (x i) := by
  haveI : Subsingleton (⟨0, ![]⟩ : Shape).Idx := ⟨fun a b => funext fun d => d.elim0⟩
  have h1 := Host.reduce_andi_all _ init h hu ix0 e i
  have h2 : Ideal.cmp .olt (max (x i) (-(x i)))
      (broadcastInDim s ![] hb (constant (F := Ideal) (⟨0, ![]⟩ : Shape) .f32 0x7F800000#32) i) = 1#1 := h1
  rw [Cert.Lay.scalar_apply] at h2
  exact isReal_of_cmp_abs_lt_inf h2

/-- Under the finiteness precondition every entry of each of the nine float arrays is real. -/
theorem real_of_fn [Cert.Pre_finite_inputs.Facts]
    (x0 : FVec Ideal Cert.Pre_finite_inputs.S100000x128 .f32) (x1 : FVec Ideal Cert.Pre_finite_inputs.S128x16 .f32)
    (x2 : FVec Ideal Cert.Pre_finite_inputs.S16 .f32) (x3 : FVec Ideal Cert.Pre_finite_inputs.S16x32 .f32)
    (x4 : FVec Ideal Cert.Pre_finite_inputs.S32 .f32) (x5 : FVec Ideal Cert.Pre_finite_inputs.S32x64 .f32)
    (x6 : FVec Ideal Cert.Pre_finite_inputs.S64 .f32) (x7 : FVec Ideal Cert.Pre_finite_inputs.S64x1 .f32)
    (x8 : FVec Ideal Cert.Pre_finite_inputs.S1 .f32) (x9 : IVec Cert.Pre_finite_inputs.S2x1600000 32)
    (h : Cert.Pre_finite_inputs.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  have h1 := congrFun h ix0
  dsimp only [Cert.Pre_finite_inputs.fn, Cert.Pre_finite_inputs.fn_part1, Cert.Pre_finite_inputs.fn_part2, andi] at h1
  simp only [IntOp.andi_eq_one] at h1
  obtain ⟨⟨⟨⟨⟨⟨⟨⟨e0, e1⟩, e2⟩, e3⟩, e4⟩, e5⟩, e6⟩, e7⟩, e8⟩ := h1
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6, real_of_all x7 _ _ _ _ e7,
    real_of_all x8 _ _ _ _ e8⟩

end Cert.ReferenceIdeal.RefValue

end
-- ==== Proof.RefPreK.lean ====
import proofs.«106155_j30657476559342_2_alg».proof.Defs
import proofs.«106155_j30657476559342_2_alg».proof.Proof.RefPre

/-!
# The precondition of the claim makes every float argument real

The claim's precondition is the finiteness test of the nine float argument arrays answered 1 on every device;
so every entry of each of them is a real number.
-/

noncomputable section

namespace Cert.ReferenceIdeal.RefValue

open Idealize.ShloMosaic Idealize.SL.Sem Cert.GinMath

/-- Under the claim's precondition every entry of each float argument buffer is real. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i)) ∧ (∀ i, IsReal (m ((c.tc : Thread Cert.KernelIdeal.nD Cert.KernelIdeal.τ).loc Cert.KernelIdeal.main_arg1) i)) ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i)) ∧ (∀ i, IsReal (m ((c.tc : Thread Cert.KernelIdeal.nD Cert.KernelIdeal.τ).loc Cert.KernelIdeal.main_arg4) i)) ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i)) ∧ (∀ i, IsReal (m ((c.tc : Thread Cert.KernelIdeal.nD Cert.KernelIdeal.τ).loc Cert.KernelIdeal.main_arg7) i)) ∧ (∀ i, IsReal (m ((c.tc : Thread Cert.KernelIdeal.nD Cert.KernelIdeal.τ).loc Cert.KernelIdeal.main_arg8) i)) :=
  real_of_fn _ _ _ _ _ _ _ _ _ _ (h c)

end Cert.ReferenceIdeal.RefValue

end
-- ==== Proof.Claims.lean ====
import proofs.«106155_j30657476559342_2_alg».proof.Defs
import proofs.«106155_j30657476559342_2_alg».proof.Proof.Gen.Kernel
import proofs.«106155_j30657476559342_2_alg».proof.Proof.Gen.KernelIdeal
import proofs.«106155_j30657476559342_2_alg».proof.Proof.Gen.ReferenceIdeal
import proofs.«106155_j30657476559342_2_alg».proof.Proof.Gen.Pre_finite_inputs
import proofs.«106155_j30657476559342_2_alg».proof.Proof.KRun
import proofs.«106155_j30657476559342_2_alg».proof.Proof.KIRun
import proofs.«106155_j30657476559342_2_alg».proof.Proof.RefRunP
import proofs.«106155_j30657476559342_2_alg».proof.Proof.RefOut
import proofs.«106155_j30657476559342_2_alg».proof.Proof.RefPreK

/-!
# The five claims

Each program runs to its end with its argument arrays unchanged: the kernel program (at both float instances) by
its run region by region, the reference by its run operation by operation. The idealized kernel program is the
kernel program's own text, so nothing is to be preserved. At the ideal instance, under the finiteness
precondition, the kernel program's result and the reference's are one [1, 1] array: at its only index both are
the specification's number `Cert.Spec.out` of the arguments — for the reference because every float argument is
real, for the kernel program by its value read off the last region.
-/

noncomputable section

namespace Cert.Proof.Claims

open Idealize.ShloMosaic Idealize.ShloMosaic.TcCoe Idealize.SL.Sem Idealize.ShloMosaic.ValueIdx Cert.GinMath

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Real entries pass along an equation of arrays. -/
theorem real_transport {S : Shape} (a b : S.Idx → EReal) (e : a = b) (h : ∀ i, IsReal (b i)) : ∀ i, IsReal (a i) :=
  e ▸ h

/-- A [1, 1] array is its entry at (0, 0). -/
theorem eq_of_entry (a b : (⟨2, ![1, 1]⟩ : Shape).Idx → EReal)
    (h : a (ix2 (0 : Fin 1) (0 : Fin 1)) = b (ix2 (0 : Fin 1) (0 : Fin 1))) : a = b := by
  funext i
  obtain ⟨u, v, rfl⟩ : ∃ (u v : Fin 1), i = ix2 u v := ⟨i 0, i 1, eq_ix2 i⟩
  obtain rfl : u = 0 := Subsingleton.elim _ _
  obtain rfl : v = 0 := Subsingleton.elim _ _
  exact h

/-- The two programs agree, given that the kernel program's result array reads the specification's number at its
    only index. -/
theorem algebraic_of
    (hK : ∀ (m : (ℓ : Loc Cert.KernelIdeal.nD Cert.KernelIdeal.τ Cert.KernelIdeal.sig) → Buf (Elt Ideal) ℓ)
        (c : Dev Cert.KernelIdeal.nD),
      (Cert.KernelIdeal.Hand.W14 m c (Proc.devRef .tc Cert.KernelIdeal.main_v63) : (⟨2, ![1, 1]⟩ : Shape).Idx → EReal)
          (ix2 (0 : Fin 1) (0 : Fin 1))
        = Cert.Spec.out (m ((c.tc : Thread Cert.KernelIdeal.nD Cert.KernelIdeal.τ).loc Cert.KernelIdeal.main_arg9))
          (fun p k => m ((c.tc : Thread Cert.KernelIdeal.nD Cert.KernelIdeal.τ).loc Cert.KernelIdeal.main_arg0) (ix2 p k)) (fun k q => m ((c.tc : Thread Cert.KernelIdeal.nD Cert.KernelIdeal.τ).loc Cert.KernelIdeal.main_arg1) (ix2 k q))
          (fun q => m ((c.tc : Thread Cert.KernelIdeal.nD Cert.KernelIdeal.τ).loc Cert.KernelIdeal.main_arg2) (ix1 q)) (fun k q => m ((c.tc : Thread Cert.KernelIdeal.nD Cert.KernelIdeal.τ).loc Cert.KernelIdeal.main_arg3) (ix2 k q))
          (fun q => m ((c.tc : Thread Cert.KernelIdeal.nD Cert.KernelIdeal.τ).loc Cert.KernelIdeal.main_arg4) (ix1 q)) (fun k q => m ((c.tc : Thread Cert.KernelIdeal.nD Cert.KernelIdeal.τ).loc Cert.KernelIdeal.main_arg5) (ix2 k q))
          (fun q => m ((c.tc : Thread Cert.KernelIdeal.nD Cert.KernelIdeal.τ).loc Cert.KernelIdeal.main_arg6) (ix1 q)) (fun k => m ((c.tc : Thread Cert.KernelIdeal.nD Cert.KernelIdeal.τ).loc Cert.KernelIdeal.main_arg7) (ix2 k (0 : Fin 1)))
          (m ((c.tc : Thread Cert.KernelIdeal.nD Cert.KernelIdeal.τ).loc Cert.KernelIdeal.main_arg8) (ix1 (0 : Fin 1)))) :
    Cert.algebraic_KernelIdeal_ReferenceIdeal := by
  intro m ρ m' ρ' hpre hagree
  refine ⟨fun c => Cert.KernelIdeal.Hand.W14 m c (Proc.devRef .tc Cert.KernelIdeal.main_v63), ?_, ?_⟩
  · exact (θ_run Cert.KernelIdeal.defs _ _).mono (fun r h c =>
      ⟨h c _ (Cert.KernelIdeal.Hand.mem_uc Cert.KernelIdeal.main_v63 (by decide)),
       (h c _ (Cert.KernelIdeal.Hand.mem_uc Cert.KernelIdeal.main_arg0 (by decide))).trans
         (Cert.KernelIdeal.Hand.W14_unwritten m c Cert.KernelIdeal.main_arg0 (by decide)),
       (h c _ (Cert.KernelIdeal.Hand.mem_uc Cert.KernelIdeal.main_arg1 (by decide))).trans
         (Cert.KernelIdeal.Hand.W14_unwritten m c Cert.KernelIdeal.main_arg1 (by decide)),
       (h c _ (Cert.KernelIdeal.Hand.mem_uc Cert.KernelIdeal.main_arg2 (by decide))).trans
         (Cert.KernelIdeal.Hand.W14_unwritten m c Cert.KernelIdeal.main_arg2 (by decide)),
       (h c _ (Cert.KernelIdeal.Hand.mem_uc Cert.KernelIdeal.main_arg3 (by decide))).trans
         (Cert.KernelIdeal.Hand.W14_unwritten m c Cert.KernelIdeal.main_arg3 (by decide)),
       (h c _ (Cert.KernelIdeal.Hand.mem_uc Cert.KernelIdeal.main_arg4 (by decide))).trans
         (Cert.KernelIdeal.Hand.W14_unwritten m c Cert.KernelIdeal.main_arg4 (by decide)),
       (h c _ (Cert.KernelIdeal.Hand.mem_uc Cert.KernelIdeal.main_arg5 (by decide))).trans
         (Cert.KernelIdeal.Hand.W14_unwritten m c Cert.KernelIdeal.main_arg5 (by decide)),
       (h c _ (Cert.KernelIdeal.Hand.mem_uc Cert.KernelIdeal.main_arg6 (by decide))).trans
         (Cert.KernelIdeal.Hand.W14_unwritten m c Cert.KernelIdeal.main_arg6 (by decide)),
       (h c _ (Cert.KernelIdeal.Hand.mem_uc Cert.KernelIdeal.main_arg7 (by decide))).trans
         (Cert.KernelIdeal.Hand.W14_unwritten m c Cert.KernelIdeal.main_arg7 (by decide)),
       (h c _ (Cert.KernelIdeal.Hand.mem_uc Cert.KernelIdeal.main_arg8 (by decide))).trans
         (Cert.KernelIdeal.Hand.W14_unwritten m c Cert.KernelIdeal.main_arg8 (by decide)),
       (h c _ (Cert.KernelIdeal.Hand.mem_uc Cert.KernelIdeal.main_arg9 (by decide))).trans
         (Cert.KernelIdeal.Hand.W14_unwritten m c Cert.KernelIdeal.main_arg9 (by decide))⟩)
      (Cert.KernelIdeal.Hand.run_all m ρ)
  · refine (θ_run Cert.ReferenceIdeal.defs _ _).mono (fun r h c => ⟨(h c).1.trans ?_, (h c).2⟩)
      (Cert.ReferenceIdeal.ValueP.run (F := Ideal) m' ρ')
    have hr := Cert.ReferenceIdeal.RefValue.real_of_pre m hpre c
    refine eq_of_entry _ _ ?_
    refine (Cert.ReferenceIdeal.RefValue.ref_out_mem m' c
      (real_transport (S := Cert.ReferenceIdeal.S100000x128) _ _ (hagree c).1 hr.1)
      (real_transport (S := Cert.ReferenceIdeal.S128x16) _ _ (hagree c).2.1 hr.2.1)
      (real_transport (S := Cert.ReferenceIdeal.S16) _ _ (hagree c).2.2.1 hr.2.2.1)
      (real_transport (S := Cert.ReferenceIdeal.S16x32) _ _ (hagree c).2.2.2.1 hr.2.2.2.1)
      (real_transport (S := Cert.ReferenceIdeal.S32) _ _ (hagree c).2.2.2.2.1 hr.2.2.2.2.1)
      (real_transport (S := Cert.ReferenceIdeal.S32x64) _ _ (hagree c).2.2.2.2.2.1 hr.2.2.2.2.2.1)
      (real_transport (S := Cert.ReferenceIdeal.S64) _ _ (hagree c).2.2.2.2.2.2.1 hr.2.2.2.2.2.2.1)
      (real_transport (S := Cert.ReferenceIdeal.S64x1) _ _ (hagree c).2.2.2.2.2.2.2.1 hr.2.2.2.2.2.2.2.1)
      (real_transport (S := Cert.ReferenceIdeal.S1) _ _ (hagree c).2.2.2.2.2.2.2.2.1 hr.2.2.2.2.2.2.2.2)).trans ?_
    refine Eq.trans ?_ (hK m c).symm
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

end Cert.Proof.Claims

end
-- ==== Proof.KIStable.lean ====
import proofs.«106155_j30657476559342_2_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# Buffers that later items leave alone

A buffer keeps its contents through every item that does not write it: through a stretch of host operations none
of which writes it, and through a region of which it is not the output array.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The references written from region 0 on. -/
abbrev writtenLate : List (Ref sig .tc) :=
  hostOps1_W ++ hostOps2_W ++ hostOps3_W ++ hostOps4_W ++ hostOps5_W
    ++ [main_v16, main_v30, main_v32, main_v46, main_v48, main_v63]

section
variable (c : Dev nD) (b : Ref sig .tc) (hb : b ∉ (writtenLate : List (Ref sig .tc)))
include hb

theorem late_split : (b ∉ hostOps1_W ∧ b ∉ hostOps2_W ∧ b ∉ hostOps3_W ∧ b ∉ hostOps4_W ∧ b ∉ hostOps5_W)
    ∧ ∀ r ∈ ([main_v16, main_v30, main_v32, main_v46, main_v48, main_v63] : List (Ref sig .tc)), b ≠ r := by
  simp only [writtenLate, List.mem_append, not_or] at hb
  obtain ⟨⟨⟨⟨⟨h1, h2⟩, h3⟩, h4⟩, h5⟩, hr⟩ := hb
  exact ⟨⟨h1, h2, h3, h4, h5⟩, fun r hrm e => hr (e ▸ hrm)⟩

theorem W4_st : W4 m c (Proc.devRef .tc b) = W3 m c (Proc.devRef .tc b) :=
  W4_keep m c b ((late_split b hb).2 _ (by simp))
theorem W5_st : W5 m c (Proc.devRef .tc b) = W3 m c (Proc.devRef .tc b) :=
  (StableHlo.after_of_writes_sub hostOps1 _ hostOps1_writes (late_split b hb).1.1).trans (W4_st m c b hb)
theorem W6_st : W6 m c (Proc.devRef .tc b) = W3 m c (Proc.devRef .tc b) :=
  (W6_keep m c b ((late_split b hb).2 _ (by simp))).trans (W5_st m c b hb)
theorem W7_st : W7 m c (Proc.devRef .tc b) = W3 m c (Proc.devRef .tc b) :=
  (StableHlo.after_of_writes_sub hostOps2 _ hostOps2_writes (late_split b hb).1.2.1).trans (W6_st m c b hb)
theorem W8_st : W8 m c (Proc.devRef .tc b) = W3 m c (Proc.devRef .tc b) :=
  (W8_keep m c b ((late_split b hb).2 _ (by simp))).trans (W7_st m c b hb)
theorem W9_st : W9 m c (Proc.devRef .tc b) = W3 m c (Proc.devRef .tc b) :=
  (StableHlo.after_of_writes_sub hostOps3 _ hostOps3_writes (late_split b hb).1.2.2.1).trans (W8_st m c b hb)
theorem W10_st : W10 m c (Proc.devRef .tc b) = W3 m c (Proc.devRef .tc b) :=
  (W10_keep m c b ((late_split b hb).2 _ (by simp))).trans (W9_st m c b hb)
theorem W11_st : W11 m c (Proc.devRef .tc b) = W3 m c (Proc.devRef .tc b) :=
  (StableHlo.after_of_writes_sub hostOps4 _ hostOps4_writes (late_split b hb).1.2.2.2.1).trans (W10_st m c b hb)
theorem W12_st : W12 m c (Proc.devRef .tc b) = W3 m c (Proc.devRef .tc b) :=
  (W12_keep m c b ((late_split b hb).2 _ (by simp))).trans (W11_st m c b hb)
theorem W13_st : W13 m c (Proc.devRef .tc b) = W3 m c (Proc.devRef .tc b) :=
  (StableHlo.after_of_writes_sub hostOps5 _ hostOps5_writes (late_split b hb).1.2.2.2.2).trans (W12_st m c b hb)

end

/-- A buffer no item writes holds its launch contents at region 0's entry. -/
theorem W3_unwritten (c : Dev nD) (b : Ref sig .tc) (h0 : b ∉ hostOps0_W) (h01 : b ∉ hostOps0_1_W) (h02 : b ∉ hostOps0_2_W) :
    W3 m c (Proc.devRef .tc b) = m ((c : Thread nD τ).loc b) :=
  (StableHlo.after_of_writes_sub hostOps0_2 _ hostOps0_2_writes h02).trans <|
    (StableHlo.after_of_writes_sub hostOps0_1 _ hostOps0_1_writes h01).trans <|
      (StableHlo.after_of_writes_sub hostOps0 _ hostOps0_writes h0).trans rfl

/-- Region 1's output through the next stretch; likewise region 3's. -/
theorem W7_v30 (c : Dev nD) : W7 m c (Proc.devRef .tc main_v30) = W6 m c (Proc.devRef .tc main_v30) :=
  StableHlo.after_of_writes_sub hostOps2 _ hostOps2_writes (by decide)
theorem W11_v46 (c : Dev nD) : W11 m c (Proc.devRef .tc main_v46) = W10 m c (Proc.devRef .tc main_v46) :=
  StableHlo.after_of_writes_sub hostOps4 _ hostOps4_writes (by decide)

end Cert.KernelIdeal.Hand

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.KIHost.lean ====
import proofs.«106155_j30657476559342_2_alg».proof.Proof.Gen.KernelIdeal.Regions
import proofs.«106155_j30657476559342_2_alg».proof.Proof.LibTypedRef
import Idealize.ShloMosaic.Lib.StableHlo.Run
import Idealize.ShloMosaic.PureOps.Ideal

/-!
# What each stretch of host operations computes

Each stretch is read back as pure terms of the buffers it starts from: the edge ends (sources and targets, the
listed edges followed by one loop per node), the degree and its inverse square root, and per layer the rows
gathered at the wrapped sources and summed into their targets.
-/

noncomputable section

namespace Cert.KernelIdeal.Hand

open Cert.KernelIdeal Cert.KernelIdeal.Gen
open Idealize.ShloMosaic Idealize.ShloMosaic.TcCoe Idealize.SL.Sem Idealize.ShloMosaic.StableHlo

/-- Row `r` of the edge list followed by the loop ends. -/
def endsV (r : Fin 2) (ei : (⟨S2x1600000, .i32⟩ : BufTy).Contents (Elt Ideal)) : (⟨S1700000, .i32⟩ : BufTy).Contents (Elt Ideal) :=
  match r with
  | ⟨0, _⟩ => concatenate S1700000 0
      [⟨S1600000, shapeCast S1600000 (extractStridedSlice S1x1600000 ![0, 0] ei slices_S2x1600000_S1x1600000_0_0) shapeCasts_S1x1600000_S1600000⟩,
        ⟨S100000, iotaInDim S100000 32 0⟩] concatenates_S1600000_S100000_S1700000_d0
  | ⟨1, _⟩ => concatenate S1700000 0
      [⟨S1600000, shapeCast S1600000 (extractStridedSlice S1x1600000 ![1, 0] ei slices_S2x1600000_S1x1600000_1_0) shapeCasts_S1x1600000_S1600000⟩,
        ⟨S100000, iotaInDim S100000 32 0⟩] concatenates_S1600000_S100000_S1700000_d0

/-- An index vector as a column. -/
def colV (v : (⟨S1700000, .i32⟩ : BufTy).Contents (Elt Ideal)) : (⟨S1700000x1, .i32⟩ : BufTy).Contents (Elt Ideal) :=
  broadcastInDim S1700000x1 ![0] bcast_S1700000_S1700000x1_0 v

/-- The source ends, a negative one wrapped once by the node count, as a column. -/
def wrapColV (v : (⟨S1700000, .i32⟩ : BufTy).Contents (Elt Ideal)) : (⟨S1700000x1, .i32⟩ : BufTy).Contents (Elt Ideal) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degree: one per edge, summed into its target. -/
def degV (dst : (⟨S1700000, .i32⟩ : BufTy).Contents (Elt Ideal)) : FVec Ideal S100000 .f32 :=
  Host.scatterAdd scatter_S100000_S1700000x1_S1700000_n_0_0_1
    (broadcastInDim S100000 ![] bcast_S_S100000 (constant (F := Ideal) S_ .f32 0x00000000#32)) (colV dst)
    (broadcastInDim S1700000 ![] bcast_S_S1700000 (constant (F := Ideal) S_ .f32 0x3F800000#32))

/-- The inverse square root of the degree where it is positive, 0 elsewhere. -/
def dinvV (d : FVec Ideal S100000 .f32) : FVec Ideal S100000 .f32 :=
  select (cmpf (F := Ideal) .ogt d (broadcastInDim S100000 ![] bcast_S_S100000 (constant (F := Ideal) S_ .f32 0x00000000#32)))
    (Host.rsqrt (F := Ideal) (φ := .f32) d) (broadcastInDim S100000 ![] bcast_S_S100000 (constant (F := Ideal) S_ .f32 0x00000000#32))

/-- The rows of `hs` (16 columns) gathered at the wrapped sources and summed into their targets. -/
def agg16V (dst src : (⟨S1700000, .i32⟩ : BufTy).Contents (Elt Ideal)) (hs : FVec Ideal S100000x16 .bf16) : FVec Ideal S100000x16 .f32 :=
  Host.scatterAdd scatter_S100000x16_S1700000x1_S1700000x16_1_0_0_1
    (broadcastInDim S100000x16 ![] bcast_S_S100000x16 (constant (F := Ideal) S_ .f32 0x00000000#32)) (colV dst)
    (extf .f32 (Host.gather gather_S100000x16_S1700000x1_S1700000x16_1_0_n_n_0_1_116 hs (wrapColV src)) bitsLt_bf16_f32)

/-- The rows of `hs` (32 columns) gathered at the wrapped sources and summed into their targets. -/
def agg32V (dst src : (⟨S1700000, .i32⟩ : BufTy).Contents (Elt Ideal)) (hs : FVec Ideal S100000x32 .bf16) : FVec Ideal S100000x32 .f32 :=
  Host.scatterAdd scatter_S100000x32_S1700000x1_S1700000x32_1_0_0_1
    (broadcastInDim S100000x32 ![] bcast_S_S100000x32 (constant (F := Ideal) S_ .f32 0x00000000#32)) (colV dst)
    (extf .f32 (Host.gather gather_S100000x32_S1700000x1_S1700000x32_1_0_n_n_0_1_132 hs (wrapColV src)) bitsLt_bf16_f32)

/-- The rows of `hs` (64 columns) gathered at the wrapped sources and summed into their targets. -/
def agg64V (dst src : (⟨S1700000, .i32⟩ : BufTy).Contents (Elt Ideal)) (hs : FVec Ideal S100000x64 .bf16) : FVec Ideal S100000x64 .f32 :=
  Host.scatterAdd scatter_S100000x64_S1700000x1_S1700000x64_1_0_0_1
    (broadcastInDim S100000x64 ![] bcast_S_S100000x64 (constant (F := Ideal) S_ .f32 0x00000000#32)) (colV dst)
    (extf .f32 (Host.gather gather_S100000x64_S1700000x1_S1700000x64_1_0_n_n_0_1_164 hs (wrapColV src)) bitsLt_bf16_f32)

variable (V : Valuation τ sig (Elt Ideal))

theorem h0_v3 : StableHlo.after (hostOps0 (F := Ideal)) V (Proc.devRef .tc main_v3) = endsV 0 (V (Proc.devRef .tc main_arg9)) := by
  after_results; rfl
theorem h0_v6 : StableHlo.after (hostOps0 (F := Ideal)) V (Proc.devRef .tc main_v6) = endsV 1 (V (Proc.devRef .tc main_arg9)) := by
  after_results; rfl
theorem h0_v10 : StableHlo.after (hostOps0 (F := Ideal)) V (Proc.devRef .tc main_v10) = degV (endsV 1 (V (Proc.devRef .tc main_arg9))) := by
  after_results; rfl
theorem h0_v12 : StableHlo.after (hostOps0 (F := Ideal)) V (Proc.devRef .tc main_v12)
    = cmpf (F := Ideal) .ogt (degV (endsV 1 (V (Proc.devRef .tc main_arg9)))) (broadcastInDim S100000 ![] bcast_S_S100000 (constant (F := Ideal) S_ .f32 0x00000000#32)) := by
  after_results; rfl
theorem h0_v13 : StableHlo.after (hostOps0 (F := Ideal)) V (Proc.devRef .tc main_v13) = Host.rsqrt (F := Ideal) (φ := .f32) (degV (endsV 1 (V (Proc.devRef .tc main_arg9)))) := by
  after_results; rfl
theorem h0_cst2 : StableHlo.after (hostOps0 (F := Ideal)) V (Proc.devRef .tc main_cst_2) = constant (F := Ideal) S_ .f32 0x00000000#32 := by
  after_results

theorem h01_v14 : StableHlo.after (hostOps0_1 (F := Ideal)) V (Proc.devRef .tc main_v14)
    = select (V (Proc.devRef .tc main_v12)) (V (Proc.devRef .tc main_v13)) (broadcastInDim S100000 ![] bcast_S_S100000 (V (Proc.devRef .tc main_cst_2))) := by
  after_results
  simp only [Cert.LibTypedRef.ofBuf_toBuf]
  rfl

theorem h02_v15 : StableHlo.after (hostOps0_2 (F := Ideal)) V (Proc.devRef .tc main_v15)
    = shapeCast S100000x1 (V (Proc.devRef .tc main_v14)) shapeCasts_S100000_S100000x1 := by
  after_results; rfl

set_option maxHeartbeats 3200000 in
theorem h1_v27 : StableHlo.after (hostOps1 (F := Ideal)) V (Proc.devRef .tc main_v27)
    = agg16V (V (Proc.devRef .tc main_v6)) (V (Proc.devRef .tc main_v3)) (V (Proc.devRef .tc main_v16)) := by
  after_results; rfl
theorem h1_v28 : StableHlo.after (hostOps1 (F := Ideal)) V (Proc.devRef .tc main_v28)
    = shapeCast S100000x1 (V (Proc.devRef .tc main_v14)) shapeCasts_S100000_S100000x1 := by
  after_results; rfl
theorem h1_v29 : StableHlo.after (hostOps1 (F := Ideal)) V (Proc.devRef .tc main_v29)
    = shapeCast S1x16 (V (Proc.devRef .tc main_arg2)) shapeCasts_S16_S1x16 := by
  after_results; rfl
theorem h2_v31 : StableHlo.after (hostOps2 (F := Ideal)) V (Proc.devRef .tc main_v31)
    = shapeCast S100000x1 (V (Proc.devRef .tc main_v14)) shapeCasts_S100000_S100000x1 := by
  after_results; rfl

set_option maxHeartbeats 3200000 in
theorem h3_v43 : StableHlo.after (hostOps3 (F := Ideal)) V (Proc.devRef .tc main_v43)
    = agg32V (V (Proc.devRef .tc main_v6)) (V (Proc.devRef .tc main_v3)) (V (Proc.devRef .tc main_v32)) := by
  after_results; rfl
theorem h3_v44 : StableHlo.after (hostOps3 (F := Ideal)) V (Proc.devRef .tc main_v44)
    = shapeCast S100000x1 (V (Proc.devRef .tc main_v14)) shapeCasts_S100000_S100000x1 := by
  after_results; rfl
theorem h3_v45 : StableHlo.after (hostOps3 (F := Ideal)) V (Proc.devRef .tc main_v45)
    = shapeCast S1x32 (V (Proc.devRef .tc main_arg4)) shapeCasts_S32_S1x32 := by
  after_results; rfl
theorem h4_v47 : StableHlo.after (hostOps4 (F := Ideal)) V (Proc.devRef .tc main_v47)
    = shapeCast S100000x1 (V (Proc.devRef .tc main_v14)) shapeCasts_S100000_S100000x1 := by
  after_results; rfl

set_option maxHeartbeats 3200000 in
theorem h5_v59 : StableHlo.after (hostOps5 (F := Ideal)) V (Proc.devRef .tc main_v59)
    = agg64V (V (Proc.devRef .tc main_v6)) (V (Proc.devRef .tc main_v3)) (V (Proc.devRef .tc main_v48)) := by
  after_results; rfl
theorem h5_v60 : StableHlo.after (hostOps5 (F := Ideal)) V (Proc.devRef .tc main_v60)
    = shapeCast S100000x1 (V (Proc.devRef .tc main_v14)) shapeCasts_S100000_S100000x1 := by
  after_results; rfl
theorem h5_v61 : StableHlo.after (hostOps5 (F := Ideal)) V (Proc.devRef .tc main_v61)
    = shapeCast S1x64 (V (Proc.devRef .tc main_arg6)) shapeCasts_S64_S1x64 := by
  after_results; rfl
theorem h5_v62 : StableHlo.after (hostOps5 (F := Ideal)) V (Proc.devRef .tc main_v62)
    = shapeCast S1x1 (V (Proc.devRef .tc main_arg8)) shapeCasts_S1_S1x1 := by
  after_results; rfl

end Cert.KernelIdeal.Hand

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.KIVal0.lean ====
import proofs.«106155_j30657476559342_2_alg».proof.Proof.KIReg0
import proofs.«106155_j30657476559342_2_alg».proof.Proof.LibPlainDot
import Idealize.ShloMosaic.Lib.Pipeline.Value
import Idealize.ShloMosaic.Lib.ValueIdx
import Idealize.ShloMosaic.Lib.ValueLayout

/-! Region 0 of @main on the extended reals: what the region leaves in its output array, as one function of the
    arrays it reads, index by index. Each grid point writes back one block of 10000 rows; the blocks tile the rows. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz_0 : (![0, 0] : Fin 2 → Nat) = fun _ => 0 := funext fun a => by fin_cases a <;> rfl

/-- The block index of each window at a grid point: the row-blocked windows sit at the point's number on the row axis,
    the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left operand's block at point `t` is rows `10000 t …` of its array. -/
theorem iblk0_0_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → Elt Ideal .f32) k := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The weights' block at every point is the whole array. -/
theorem iblk0_1_apply (c : Dev nD) (t : Fin cfg0.N) (x : S128x16.Idx) (k : S128x16.Idx)
    (hk0 : (k 0).val = (x 0).val) (hk1 : (k 1).val = (x 1).val) :
    (iblk0 V c 1 t : Vec Ideal S128x16 .f32) x = (V c main_arg1 : S128x16.Idx → Elt Ideal .f32) k := by
  obtain ⟨-, -, e0, e1, -⟩ := idx_facts0 t
  unfold iblk0
  rw [View.read_apply]
  show V c main_arg1 _ = V c main_arg1 _
  refine congrArg (V c main_arg1) ?_
  funext a
  apply Fin.ext
  match a with
  | ⟨0, _⟩ => show win0_1.index t 0 * 128 + 1 * (x 0).val = (k 0).val; rw [e0, hk0]; omega
  | ⟨1, _⟩ => show win0_1.index t 1 * 16 + 1 * (x 1).val = (k 1).val; rw [e1, hk1]; omega

/-- The scale column's block at point `t` is rows `10000 t …` of the column. -/
theorem iblk0_2_apply (c : Dev nD) (t : Fin cfg0.N) (x : S10000x1.Idx) (k : S100000x1.Idx)
    (hk0 : (k 0).val = 10000 * t.val + (x 0).val) (hk1 : (k 1).val = (x 1).val) :
    (iblk0 V c 2 t : Vec Ideal S10000x1 .f32) x = (V c main_v15 : S100000x1.Idx → Elt Ideal .f32) k := by
  obtain ⟨-, -, -, -, e0, e1, -⟩ := idx_facts0 t
  unfold iblk0
  rw [View.read_apply]
  show V c main_v15 _ = V c main_v15 _
  refine congrArg (V c main_v15) ?_
  funext a
  apply Fin.ext
  match a with
  | ⟨0, _⟩ => show win0_2.index t 0 * 10000 + 1 * (x 0).val = (k 0).val; rw [e0, hk0]; omega
  | ⟨1, _⟩ => show win0_2.index t 1 * 1 + 1 * (x 1).val = (k 1).val; rw [e1, hk1]; omega

/-- The body's payload at an entry: row p of the left block times column q of the weights, scaled by entry p of the
    column (the narrowing to bf16 is the identity on the extended reals). -/
theorem pay0_apply (x0 : Vec Ideal S10000x128 .f32) (x1 : Vec Ideal S128x16 .f32) (x2 : Vec Ideal S10000x1 .f32)
    (p : Fin 10000) (q : Fin 16) :
    k0_pay1 x0 x1 x2 (ix2 p q) = (∑ k : Fin 128, x0 (ix2 p k) * x1 (ix2 k q)) * x2 (ix2 p (0 : Fin 1)) := by
  unfold k0_pay1
  simp only [shapeCast_self]
  show (matmul dot_S10000x128_S128x16_S10000x16_1_0_0_1_n_n none x0 x1 (constant (F := Ideal) S10000x16 .f32 0x00000000#32) (ix2 p q))
      * (broadcastTo S10000x16 x2 broadcasts_S10000x1_S10000x16 (ix2 p q)) = _
  refine congrArg₂ (· * ·) ?_ ?_
  · exact Cert.PlainDot.matmul_zero_apply 10000 128 16 none x0 x1 p q
  · refine broadcastTo_apply x2 _ (ix2 p q) (ix2 p (0 : Fin 1)) fun a => ?_
    match a with
    | ⟨0, _⟩ => rfl
    | ⟨1, _⟩ => rfl

/-- What the region leaves in its output array: entry (r, q) is row r of the left array times column q of the
    weights, scaled by entry r of the column. -/
def G0 (a0 : S100000x128.Idx → EReal) (a1 : S128x16.Idx → EReal) (a2 : S100000x1.Idx → EReal) : S100000x16.Idx → EReal := fun i =>
  (∑ k : Fin 128, a0 (ix2 (i 0 : Fin 100000) k) * a1 (ix2 k (i 1 : Fin 16))) * a2 (ix2 (i 0 : Fin 100000) (0 : Fin 1))

/-- Entry (p, q) of the block the body leaves at point `t` is `G0` at the array index `e` with row `10000 t + p`, column `q`. -/
theorem point0 (c : Dev nD) (t : Fin cfg0.N) (p : Fin 10000) (q : Fin 16) (e : S100000x16.Idx)
    (he0 : (e 0).val = 10000 * t.val + p.val) (he1 : (e 1).val = q.val) :
    k0_pay1 (iblk0 V c 0 t) (iblk0 V c 1 t) (iblk0 V c 2 t) (ix2 p q) = G0 (V c main_arg0) (V c main_arg1) (V c main_v15) e := by
  refine (pay0_apply (iblk0 V c 0 t) (iblk0 V c 1 t) (iblk0 V c 2 t) p q).trans ?_
  unfold G0
  refine congrArg₂ (· * ·) (Finset.sum_congr rfl fun k _ => congrArg₂ (· * ·) ?_ ?_) ?_
  · exact iblk0_0_apply V c t (ix2 p k) (ix2 (e 0 : Fin 100000) k) he0 rfl
  · exact iblk0_1_apply V c t (ix2 k q) (ix2 k (e 1 : Fin 16)) rfl he1
  · exact iblk0_2_apply V c t (ix2 p (0 : Fin 1)) (ix2 (e 0 : Fin 100000) (0 : Fin 1)) he0 rfl

/-- What point `t` writes back is block `t` of `G0`. -/
theorem flushed0_eq (c : Dev nD) (t : Fin cfg0.N) :
    (dat0 (F := Ideal) V c).flushed 3 t = ((cfg0.win 3).blk t).view.read (Elt Ideal) (G0 (V c main_arg0) (V c main_arg1) (V c main_v15)) := by
  show (cfg0.win 3).cut (grid0.coords t) ((dat0 V c).after 3 t) = _
  rw [after0_3]
  unfold out0_3
  rw [View.canon_unit_zero hz_0]
  simp only [View.ld_unit_zero (S := S10000x128) hz_0, View.ld_unit_zero (S := S128x16) hz_0, View.ld_unit_zero (S := S10000x1) hz_0]
  obtain ⟨-, -, -, -, -, -, e0, e1⟩ := idx_facts0 t
  funext j
  obtain ⟨p, q, rfl⟩ : ∃ (p : Fin 10000) (q : Fin 16), j = ix2 p q := ⟨j 0, j 1, eq_ix2 j⟩
  refine point0 V c t p q _ ?_ ?_
  · show win0_3.index t 0 * 10000 + 1 * p.val = _; rw [e0]; omega
  · show win0_3.index t 1 * 16 + 1 * q.val = _; rw [e1]; omega

/-- An index of the output array is in point `t`'s block iff each coordinate is in the block's range on its axis. -/
theorem mem_blk0 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v16).slice (win0_3.rect t)).set ↔ _
  rw [View.set_slice_whole, Rect.mem_set_unit]
  exact Iff.rfl

/-- Every row of the output array is in the block of the point numbered by the row's ten-thousands. -/
theorem cover0 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  have ht : t.val = (i 0).val / 10000 := rfl
  obtain ⟨-, -, -, -, -, -, e0, e1⟩ := idx_facts0 t
  refine ⟨t, flush0_3 t, ?_⟩
  rw [mem_blk0]
  intro a
  match a with
  | ⟨0, _⟩ => show win0_3.index t 0 * 10000 ≤ (i 0).val ∧ (i 0).val < win0_3.index t 0 * 10000 + 10000; rw [e0, ht]; omega
  | ⟨1, _⟩ => show win0_3.index t 1 * 16 ≤ (i 1).val ∧ (i 1).val < win0_3.index t 1 * 16 + 16; rw [e1]; omega

/-- THE OUTPUT ARRAY after the region, index by index. -/
theorem arr0 (c : Dev nD) : (dat0 (F := Ideal) V c).arrAt 3 cfg0.N = G0 (V c main_arg0) (V c main_arg1) (V c main_v15) :=
  (dat0 (F := Ideal) V c).arrAt_eq_of_cover 3 (G0 (V c main_arg0) (V c main_arg1) (V c main_v15)) (fun t _ => flushed0_eq V c t) (cover0)

end Cert.KernelIdeal.Hand

end
-- ==== Proof.KIVal1.lean ====
import proofs.«106155_j30657476559342_2_alg».proof.Proof.KIReg1
import proofs.«106155_j30657476559342_2_alg».proof.Proof.LibPlainDot
import Idealize.ShloMosaic.Lib.Pipeline.Value
import Idealize.ShloMosaic.Lib.ValueIdx
import Idealize.ShloMosaic.Lib.ValueLayout

/-! Region 1 of @main on the extended reals: what the region leaves in its output array, as one function of the
    arrays it reads, index by index. Each grid point writes back one block of 10000 rows; the blocks tile the rows. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz_1 : (![0, 0] : Fin 2 → Nat) = fun _ => 0 := funext fun a => by fin_cases a <;> rfl

/-- The block index of each window at a grid point: the row-blocked windows sit at the point's number on the row axis,
    the bias row at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point `t` is rows `10000 t …` of its array. -/
theorem iblk1_0_apply (c : Dev nD) (t : Fin cfg1.N) (x : S10000x16.Idx) (k : S100000x16.Idx)
    (hk0 : (k 0).val = 10000 * t.val + (x 0).val) (hk1 : (k 1).val = (x 1).val) :
    (iblk1 V c 0 t : Vec Ideal S10000x16 .f32) x = (V c main_v27 : S100000x16.Idx → Elt Ideal .f32) k := by
  obtain ⟨e0, e1, -⟩ := idx_facts1 t
  unfold iblk1
  rw [View.read_apply]
  show V c main_v27 _ = V c main_v27 _
  refine congrArg (V c main_v27) ?_
  funext a
  apply Fin.ext
  match a with
  | ⟨0, _⟩ => show win1_0.index t 0 * 10000 + 1 * (x 0).val = (k 0).val; rw [e0, hk0]; omega
  | ⟨1, _⟩ => show win1_0.index t 1 * 16 + 1 * (x 1).val = (k 1).val; rw [e1, hk1]; omega

/-- The scale column's block at point `t` is rows `10000 t …` of the column. -/
theorem iblk1_1_apply (c : Dev nD) (t : Fin cfg1.N) (x : S10000x1.Idx) (k : S100000x1.Idx)
    (hk0 : (k 0).val = 10000 * t.val + (x 0).val) (hk1 : (k 1).val = (x 1).val) :
    (iblk1 V c 1 t : Vec Ideal S10000x1 .f32) x = (V c main_v28 : S100000x1.Idx → Elt Ideal .f32) k := by
  obtain ⟨-, -, e0, e1, -⟩ := idx_facts1 t
  unfold iblk1
  rw [View.read_apply]
  show V c main_v28 _ = V c main_v28 _
  refine congrArg (V c main_v28) ?_
  funext a
  apply Fin.ext
  match a with
  | ⟨0, _⟩ => show win1_1.index t 0 * 10000 + 1 * (x 0).val = (k 0).val; rw [e0, hk0]; omega
  | ⟨1, _⟩ => show win1_1.index t 1 * 1 + 1 * (x 1).val = (k 1).val; rw [e1, hk1]; omega

/-- The bias row's block at every point is the whole row. -/
theorem iblk1_2_apply (c : Dev nD) (t : Fin cfg1.N) (x : S1x16.Idx) (k : S1x16.Idx)
    (hk0 : (k 0).val = (x 0).val) (hk1 : (k 1).val = (x 1).val) :
    (iblk1 V c 2 t : Vec Ideal S1x16 .f32) x = (V c main_v29 : S1x16.Idx → Elt Ideal .f32) k := by
  obtain ⟨-, -, -, -, e0, e1, -⟩ := idx_facts1 t
  unfold iblk1
  rw [View.read_apply]
  show V c main_v29 _ = V c main_v29 _
  refine congrArg (V c main_v29) ?_
  funext a
  apply Fin.ext
  match a with
  | ⟨0, _⟩ => show win1_2.index t 0 * 1 + 1 * (x 0).val = (k 0).val; rw [e0, hk0]; omega
  | ⟨1, _⟩ => show win1_2.index t 1 * 16 + 1 * (x 1).val = (k 1).val; rw [e1, hk1]; omega

/-- The body's payload at an entry: the hyperbolic tangent of the row's scale times the aggregate's entry plus the
    column's bias. -/
theorem pay1_apply (x0 : Vec Ideal S10000x16 .f32) (x1 : Vec Ideal S10000x1 .f32) (x2 : Vec Ideal S1x16 .f32)
    (p : Fin 10000) (q : Fin 16) :
    k1_pay1 x1 x0 x2 (ix2 p q) = Ideal.tanh (x1 (ix2 p (0 : Fin 1)) * x0 (ix2 p q) + x2 (ix2 (0 : Fin 1) q)) := by
  unfold k1_pay1
  simp only [shapeCast_self]
  show Ideal.tanh (broadcastTo S10000x16 x1 broadcasts_S10000x1_S10000x16 (ix2 p q) * x0 (ix2 p q)
      + broadcastTo S10000x16 x2 broadcasts_S1x16_S10000x16 (ix2 p q)) = _
  refine congrArg Ideal.tanh (congrArg₂ (· + ·) (congrArg₂ (· * ·) ?_ rfl) ?_)
  · refine broadcastTo_apply x1 _ (ix2 p q) (ix2 p (0 : Fin 1)) fun a => ?_
    match a with
    | ⟨0, _⟩ => rfl
    | ⟨1, _⟩ => rfl
  · refine broadcastTo_apply x2 _ (ix2 p q) (ix2 (0 : Fin 1) q) fun a => ?_
    match a with
    | ⟨0, _⟩ => rfl
    | ⟨1, _⟩ => rfl

/-- What the region leaves in its output array: entry (r, q) is the hyperbolic tangent of row r's scale times the
    aggregate's entry plus column q's bias. -/
def G1 (a0 : S100000x16.Idx → EReal) (a1 : S100000x1.Idx → EReal) (a2 : S1x16.Idx → EReal) : S100000x16.Idx → EReal := fun i =>
  Ideal.tanh (a1 (ix2 (i 0 : Fin 100000) (0 : Fin 1)) * a0 i + a2 (ix2 (0 : Fin 1) (i 1 : Fin 16)))

/-- Entry (p, q) of the block the body leaves at point `t` is `G1` at the array index `e` with row `10000 t + p`, column `q`. -/
theorem point1 (c : Dev nD) (t : Fin cfg1.N) (p : Fin 10000) (q : Fin 16) (e : S100000x16.Idx)
    (he0 : (e 0).val = 10000 * t.val + p.val) (he1 : (e 1).val = q.val) :
    k1_pay1 (iblk1 V c 1 t) (iblk1 V c 0 t) (iblk1 V c 2 t) (ix2 p q) = G1 (V c main_v27) (V c main_v28) (V c main_v29) e := by
  refine (pay1_apply (iblk1 V c 0 t) (iblk1 V c 1 t) (iblk1 V c 2 t) p q).trans ?_
  unfold G1
  refine congrArg Ideal.tanh (congrArg₂ (· + ·) (congrArg₂ (· * ·) ?_ ?_) ?_)
  · exact iblk1_1_apply V c t (ix2 p (0 : Fin 1)) (ix2 (e 0 : Fin 100000) (0 : Fin 1)) he0 rfl
  · exact iblk1_0_apply V c t (ix2 p q) e he0 he1
  · exact iblk1_2_apply V c t (ix2 (0 : Fin 1) q) (ix2 (0 : Fin 1) (e 1 : Fin 16)) rfl he1

/-- What point `t` writes back is block `t` of `G1`. -/
theorem flushed1_eq (c : Dev nD) (t : Fin cfg1.N) :
    (dat1 (F := Ideal) V c).flushed 3 t = ((cfg1.win 3).blk t).view.read (Elt Ideal) (G1 (V c main_v27) (V c main_v28) (V c main_v29)) := by
  show (cfg1.win 3).cut (grid1.coords t) ((dat1 V c).after 3 t) = _
  rw [after1_3]
  unfold out1_3
  rw [View.canon_unit_zero hz_1]
  simp only [View.ld_unit_zero (S := S10000x16) hz_1, View.ld_unit_zero (S := S10000x1) hz_1, View.ld_unit_zero (S := S1x16) hz_1]
  obtain ⟨-, -, -, -, -, -, e0, e1⟩ := idx_facts1 t
  funext j
  obtain ⟨p, q, rfl⟩ : ∃ (p : Fin 10000) (q : Fin 16), j = ix2 p q := ⟨j 0, j 1, eq_ix2 j⟩
  refine point1 V c t p q _ ?_ ?_
  · show win1_3.index t 0 * 10000 + 1 * p.val = _; rw [e0]; omega
  · show win1_3.index t 1 * 16 + 1 * q.val = _; rw [e1]; omega

/-- An index of the output array is in point `t`'s block iff each coordinate is in the block's range on its axis. -/
theorem mem_blk1 (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v30).slice (win1_3.rect t)).set ↔ _
  rw [View.set_slice_whole, Rect.mem_set_unit]
  exact Iff.rfl

/-- Every row of the output array is in the block of the point numbered by the row's ten-thousands. -/
theorem cover1 (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  let t : Fin cfg1.N := ⟨(i 0).val / 10000, by rw [hN]; omega⟩
  have ht : t.val = (i 0).val / 10000 := rfl
  obtain ⟨-, -, -, -, -, -, e0, e1⟩ := idx_facts1 t
  refine ⟨t, flush1_3 t, ?_⟩
  rw [mem_blk1]
  intro a
  match a with
  | ⟨0, _⟩ => show win1_3.index t 0 * 10000 ≤ (i 0).val ∧ (i 0).val < win1_3.index t 0 * 10000 + 10000; rw [e0, ht]; omega
  | ⟨1, _⟩ => show win1_3.index t 1 * 16 ≤ (i 1).val ∧ (i 1).val < win1_3.index t 1 * 16 + 16; rw [e1]; omega

/-- THE OUTPUT ARRAY after the region, index by index. -/
theorem arr1 (c : Dev nD) : (dat1 (F := Ideal) V c).arrAt 3 cfg1.N = G1 (V c main_v27) (V c main_v28) (V c main_v29) :=
  (dat1 (F := Ideal) V c).arrAt_eq_of_cover 3 (G1 (V c main_v27) (V c main_v28) (V c main_v29)) (fun t _ => flushed1_eq V c t) (cover1)

end Cert.KernelIdeal.Hand

end
-- ==== Proof.KIVal2.lean ====
import proofs.«106155_j30657476559342_2_alg».proof.Proof.KIReg2
import proofs.«106155_j30657476559342_2_alg».proof.Proof.LibPlainDot
import Idealize.ShloMosaic.Lib.Pipeline.Value
import Idealize.ShloMosaic.Lib.ValueIdx
import Idealize.ShloMosaic.Lib.ValueLayout

/-! Region 2 of @main on the extended reals: what the region leaves in its output array, as one function of the
    arrays it reads, index by index. Each grid point writes back one block of 10000 rows; the blocks tile the rows. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz_2 : (![0, 0] : Fin 2 → Nat) = fun _ => 0 := funext fun a => by fin_cases a <;> rfl

/-- The block index of each window at a grid point: the row-blocked windows sit at the point's number on the row axis,
    the weights at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The left operand's block at point `t` is rows `10000 t …` of its array. -/
theorem iblk2_0_apply (c : Dev nD) (t : Fin cfg2.N) (x : S10000x16.Idx) (k : S100000x16.Idx)
    (hk0 : (k 0).val = 10000 * t.val + (x 0).val) (hk1 : (k 1).val = (x 1).val) :
    (iblk2 V c 0 t : Vec Ideal S10000x16 .f32) x = (V c main_v30 : S100000x16.Idx → Elt Ideal .f32) k := by
  obtain ⟨e0, e1, -⟩ := idx_facts2 t
  unfold iblk2
  rw [View.read_apply]
  show V c main_v30 _ = V c main_v30 _
  refine congrArg (V c main_v30) ?_
  funext a
  apply Fin.ext
  match a with
  | ⟨0, _⟩ => show win2_0.index t 0 * 10000 + 1 * (x 0).val = (k 0).val; rw [e0, hk0]; omega
  | ⟨1, _⟩ => show win2_0.index t 1 * 16 + 1 * (x 1).val = (k 1).val; rw [e1, hk1]; omega

/-- The weights' block at every point is the whole array. -/
theorem iblk2_1_apply (c : Dev nD) (t : Fin cfg2.N) (x : S16x32.Idx) (k : S16x32.Idx)
    (hk0 : (k 0).val = (x 0).val) (hk1 : (k 1).val = (x 1).val) :
    (iblk2 V c 1 t : Vec Ideal S16x32 .f32) x = (V c main_arg3 : S16x32.Idx → Elt Ideal .f32) k := by
  obtain ⟨-, -, e0, e1, -⟩ := idx_facts2 t
  unfold iblk2
  rw [View.read_apply]
  show V c main_arg3 _ = V c main_arg3 _
  refine congrArg (V c main_arg3) ?_
  funext a
  apply Fin.ext
  match a with
  | ⟨0, _⟩ => show win2_1.index t 0 * 16 + 1 * (x 0).val = (k 0).val; rw [e0, hk0]; omega
  | ⟨1, _⟩ => show win2_1.index t 1 * 32 + 1 * (x 1).val = (k 1).val; rw [e1, hk1]; omega

/-- The scale column's block at point `t` is rows `10000 t …` of the column. -/
theorem iblk2_2_apply (c : Dev nD) (t : Fin cfg2.N) (x : S10000x1.Idx) (k : S100000x1.Idx)
    (hk0 : (k 0).val = 10000 * t.val + (x 0).val) (hk1 : (k 1).val = (x 1).val) :
    (iblk2 V c 2 t : Vec Ideal S10000x1 .f32) x = (V c main_v31 : S100000x1.Idx → Elt Ideal .f32) k := by
  obtain ⟨-, -, -, -, e0, e1, -⟩ := idx_facts2 t
  unfold iblk2
  rw [View.read_apply]
  show V c main_v31 _ = V c main_v31 _
  refine congrArg (V c main_v31) ?_
  funext a
  apply Fin.ext
  match a with
  | ⟨0, _⟩ => show win2_2.index t 0 * 10000 + 1 * (x 0).val = (k 0).val; rw [e0, hk0]; omega
  | ⟨1, _⟩ => show win2_2.index t 1 * 1 + 1 * (x 1).val = (k 1).val; rw [e1, hk1]; omega

/-- The body's payload at an entry: row p of the left block times column q of the weights, scaled by entry p of the
    column (the narrowing to bf16 is the identity on the extended reals). -/
theorem pay2_apply (x0 : Vec Ideal S10000x16 .f32) (x1 : Vec Ideal S16x32 .f32) (x2 : Vec Ideal S10000x1 .f32)
    (p : Fin 10000) (q : Fin 32) :
    k2_pay1 x0 x1 x2 (ix2 p q) = (∑ k : Fin 16, x0 (ix2 p k) * x1 (ix2 k q)) * x2 (ix2 p (0 : Fin 1)) := by
  unfold k2_pay1
  simp only [shapeCast_self]
  show (matmul dot_S10000x16_S16x32_S10000x32_1_0_0_1_n_n none x0 x1 (constant (F := Ideal) S10000x32 .f32 0x00000000#32) (ix2 p q))
      * (broadcastTo S10000x32 x2 broadcasts_S10000x1_S10000x32 (ix2 p q)) = _
  refine congrArg₂ (· * ·) ?_ ?_
  · exact Cert.PlainDot.matmul_zero_apply 10000 16 32 none x0 x1 p q
  · refine broadcastTo_apply x2 _ (ix2 p q) (ix2 p (0 : Fin 1)) fun a => ?_
    match a with
    | ⟨0, _⟩ => rfl
    | ⟨1, _⟩ => rfl

/-- What the region leaves in its output array: entry (r, q) is row r of the left array times column q of the
    weights, scaled by entry r of the column. -/
def G2 (a0 : S100000x16.Idx → EReal) (a1 : S16x32.Idx → EReal) (a2 : S100000x1.Idx → EReal) : S100000x32.Idx → EReal := fun i =>
  (∑ k : Fin 16, a0 (ix2 (i 0 : Fin 100000) k) * a1 (ix2 k (i 1 : Fin 32))) * a2 (ix2 (i 0 : Fin 100000) (0 : Fin 1))

/-- Entry (p, q) of the block the body leaves at point `t` is `G2` at the array index `e` with row `10000 t + p`, column `q`. -/
theorem point2 (c : Dev nD) (t : Fin cfg2.N) (p : Fin 10000) (q : Fin 32) (e : S100000x32.Idx)
    (he0 : (e 0).val = 10000 * t.val + p.val) (he1 : (e 1).val = q.val) :
    k2_pay1 (iblk2 V c 0 t) (iblk2 V c 1 t) (iblk2 V c 2 t) (ix2 p q) = G2 (V c main_v30) (V c main_arg3) (V c main_v31) e := by
  refine (pay2_apply (iblk2 V c 0 t) (iblk2 V c 1 t) (iblk2 V c 2 t) p q).trans ?_
  unfold G2
  refine congrArg₂ (· * ·) (Finset.sum_congr rfl fun k _ => congrArg₂ (· * ·) ?_ ?_) ?_
  · exact iblk2_0_apply V c t (ix2 p k) (ix2 (e 0 : Fin 100000) k) he0 rfl
  · exact iblk2_1_apply V c t (ix2 k q) (ix2 k (e 1 : Fin 32)) rfl he1
  · exact iblk2_2_apply V c t (ix2 p (0 : Fin 1)) (ix2 (e 0 : Fin 100000) (0 : Fin 1)) he0 rfl

/-- What point `t` writes back is block `t` of `G2`. -/
theorem flushed2_eq (c : Dev nD) (t : Fin cfg2.N) :
    (dat2 (F := Ideal) V c).flushed 3 t = ((cfg2.win 3).blk t).view.read (Elt Ideal) (G2 (V c main_v30) (V c main_arg3) (V c main_v31)) := by
  show (cfg2.win 3).cut (grid2.coords t) ((dat2 V c).after 3 t) = _
  rw [after2_3]
  unfold out2_3
  rw [View.canon_unit_zero hz_2]
  simp only [View.ld_unit_zero (S := S10000x16) hz_2, View.ld_unit_zero (S := S16x32) hz_2, View.ld_unit_zero (S := S10000x1) hz_2]
  obtain ⟨-, -, -, -, -, -, e0, e1⟩ := idx_facts2 t
  funext j
  obtain ⟨p, q, rfl⟩ : ∃ (p : Fin 10000) (q : Fin 32), j = ix2 p q := ⟨j 0, j 1, eq_ix2 j⟩
  refine point2 V c t p q _ ?_ ?_
  · show win2_3.index t 0 * 10000 + 1 * p.val = _; rw [e0]; omega
  · show win2_3.index t 1 * 32 + 1 * q.val = _; rw [e1]; omega

/-- An index of the output array is in point `t`'s block iff each coordinate is in the block's range on its axis. -/
theorem mem_blk2 (t : Fin cfg2.N) (i : S100000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v32).slice (win2_3.rect t)).set ↔ _
  rw [View.set_slice_whole, Rect.mem_set_unit]
  exact Iff.rfl

/-- Every row of the output array is in the block of the point numbered by the row's ten-thousands. -/
theorem cover2 (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 10 := N_2
  let t : Fin cfg2.N := ⟨(i 0).val / 10000, by rw [hN]; omega⟩
  have ht : t.val = (i 0).val / 10000 := rfl
  obtain ⟨-, -, -, -, -, -, e0, e1⟩ := idx_facts2 t
  refine ⟨t, flush2_3 t, ?_⟩
  rw [mem_blk2]
  intro a
  match a with
  | ⟨0, _⟩ => show win2_3.index t 0 * 10000 ≤ (i 0).val ∧ (i 0).val < win2_3.index t 0 * 10000 + 10000; rw [e0, ht]; omega
  | ⟨1, _⟩ => show win2_3.index t 1 * 32 ≤ (i 1).val ∧ (i 1).val < win2_3.index t 1 * 32 + 32; rw [e1]; omega

/-- THE OUTPUT ARRAY after the region, index by index. -/
theorem arr2 (c : Dev nD) : (dat2 (F := Ideal) V c).arrAt 3 cfg2.N = G2 (V c main_v30) (V c main_arg3) (V c main_v31) :=
  (dat2 (F := Ideal) V c).arrAt_eq_of_cover 3 (G2 (V c main_v30) (V c main_arg3) (V c main_v31)) (fun t _ => flushed2_eq V c t) (cover2)

end Cert.KernelIdeal.Hand

end
-- ==== Proof.KIVal3.lean ====
import proofs.«106155_j30657476559342_2_alg».proof.Proof.KIReg3
import proofs.«106155_j30657476559342_2_alg».proof.Proof.LibPlainDot
import Idealize.ShloMosaic.Lib.Pipeline.Value
import Idealize.ShloMosaic.Lib.ValueIdx
import Idealize.ShloMosaic.Lib.ValueLayout

/-! Region 3 of @main on the extended reals: what the region leaves in its output array, as one function of the
    arrays it reads, index by index. Each grid point writes back one block of 10000 rows; the blocks tile the rows. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz_3 : (![0, 0] : Fin 2 → Nat) = fun _ => 0 := funext fun a => by fin_cases a <;> rfl

/-- The block index of each window at a grid point: the row-blocked windows sit at the point's number on the row axis,
    the bias row at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The aggregate's block at point `t` is rows `10000 t …` of its array. -/
theorem iblk3_0_apply (c : Dev nD) (t : Fin cfg3.N) (x : S10000x32.Idx) (k : S100000x32.Idx)
    (hk0 : (k 0).val = 10000 * t.val + (x 0).val) (hk1 : (k 1).val = (x 1).val) :
    (iblk3 V c 0 t : Vec Ideal S10000x32 .f32) x = (V c main_v43 : S100000x32.Idx → Elt Ideal .f32) k := by
  obtain ⟨e0, e1, -⟩ := idx_facts3 t
  unfold iblk3
  rw [View.read_apply]
  show V c main_v43 _ = V c main_v43 _
  refine congrArg (V c main_v43) ?_
  funext a
  apply Fin.ext
  match a with
  | ⟨0, _⟩ => show win3_0.index t 0 * 10000 + 1 * (x 0).val = (k 0).val; rw [e0, hk0]; omega
  | ⟨1, _⟩ => show win3_0.index t 1 * 32 + 1 * (x 1).val = (k 1).val; rw [e1, hk1]; omega

/-- The scale column's block at point `t` is rows `10000 t …` of the column. -/
theorem iblk3_1_apply (c : Dev nD) (t : Fin cfg3.N) (x : S10000x1.Idx) (k : S100000x1.Idx)
    (hk0 : (k 0).val = 10000 * t.val + (x 0).val) (hk1 : (k 1).val = (x 1).val) :
    (iblk3 V c 1 t : Vec Ideal S10000x1 .f32) x = (V c main_v44 : S100000x1.Idx → Elt Ideal .f32) k := by
  obtain ⟨-, -, e0, e1, -⟩ := idx_facts3 t
  unfold iblk3
  rw [View.read_apply]
  show V c main_v44 _ = V c main_v44 _
  refine congrArg (V c main_v44) ?_
  funext a
  apply Fin.ext
  match a with
  | ⟨0, _⟩ => show win3_1.index t 0 * 10000 + 1 * (x 0).val = (k 0).val; rw [e0, hk0]; omega
  | ⟨1, _⟩ => show win3_1.index t 1 * 1 + 1 * (x 1).val = (k 1).val; rw [e1, hk1]; omega

/-- The bias row's block at every point is the whole row. -/
theorem iblk3_2_apply (c : Dev nD) (t : Fin cfg3.N) (x : S1x32.Idx) (k : S1x32.Idx)
    (hk0 : (k 0).val = (x 0).val) (hk1 : (k 1).val = (x 1).val) :
    (iblk3 V c 2 t : Vec Ideal S1x32 .f32) x = (V c main_v45 : S1x32.Idx → Elt Ideal .f32) k := by
  obtain ⟨-, -, -, -, e0, e1, -⟩ := idx_facts3 t
  unfold iblk3
  rw [View.read_apply]
  show V c main_v45 _ = V c main_v45 _
  refine congrArg (V c main_v45) ?_
  funext a
  apply Fin.ext
  match a with
  | ⟨0, _⟩ => show win3_2.index t 0 * 1 + 1 * (x 0).val = (k 0).val; rw [e0, hk0]; omega
  | ⟨1, _⟩ => show win3_2.index t 1 * 32 + 1 * (x 1).val = (k 1).val; rw [e1, hk1]; omega

/-- The body's payload at an entry: the hyperbolic tangent of the row's scale times the aggregate's entry plus the
    column's bias. -/
theorem pay3_apply (x0 : Vec Ideal S10000x32 .f32) (x1 : Vec Ideal S10000x1 .f32) (x2 : Vec Ideal S1x32 .f32)
    (p : Fin 10000) (q : Fin 32) :
    k3_pay1 x1 x0 x2 (ix2 p q) = Ideal.tanh (x1 (ix2 p (0 : Fin 1)) * x0 (ix2 p q) + x2 (ix2 (0 : Fin 1) q)) := by
  unfold k3_pay1
  simp only [shapeCast_self]
  show Ideal.tanh (broadcastTo S10000x32 x1 broadcasts_S10000x1_S10000x32 (ix2 p q) * x0 (ix2 p q)
      + broadcastTo S10000x32 x2 broadcasts_S1x32_S10000x32 (ix2 p q)) = _
  refine congrArg Ideal.tanh (congrArg₂ (· + ·) (congrArg₂ (· * ·) ?_ rfl) ?_)
  · refine broadcastTo_apply x1 _ (ix2 p q) (ix2 p (0 : Fin 1)) fun a => ?_
    match a with
    | ⟨0, _⟩ => rfl
    | ⟨1, _⟩ => rfl
  · refine broadcastTo_apply x2 _ (ix2 p q) (ix2 (0 : Fin 1) q) fun a => ?_
    match a with
    | ⟨0, _⟩ => rfl
    | ⟨1, _⟩ => rfl

/-- What the region leaves in its output array: entry (r, q) is the hyperbolic tangent of row r's scale times the
    aggregate's entry plus column q's bias. -/
def G3 (a0 : S100000x32.Idx → EReal) (a1 : S100000x1.Idx → EReal) (a2 : S1x32.Idx → EReal) : S100000x32.Idx → EReal := fun i =>
  Ideal.tanh (a1 (ix2 (i 0 : Fin 100000) (0 : Fin 1)) * a0 i + a2 (ix2 (0 : Fin 1) (i 1 : Fin 32)))

/-- Entry (p, q) of the block the body leaves at point `t` is `G3` at the array index `e` with row `10000 t + p`, column `q`. -/
theorem point3 (c : Dev nD) (t : Fin cfg3.N) (p : Fin 10000) (q : Fin 32) (e : S100000x32.Idx)
    (he0 : (e 0).val = 10000 * t.val + p.val) (he1 : (e 1).val = q.val) :
    k3_pay1 (iblk3 V c 1 t) (iblk3 V c 0 t) (iblk3 V c 2 t) (ix2 p q) = G3 (V c main_v43) (V c main_v44) (V c main_v45) e := by
  refine (pay3_apply (iblk3 V c 0 t) (iblk3 V c 1 t) (iblk3 V c 2 t) p q).trans ?_
  unfold G3
  refine congrArg Ideal.tanh (congrArg₂ (· + ·) (congrArg₂ (· * ·) ?_ ?_) ?_)
  · exact iblk3_1_apply V c t (ix2 p (0 : Fin 1)) (ix2 (e 0 : Fin 100000) (0 : Fin 1)) he0 rfl
  · exact iblk3_0_apply V c t (ix2 p q) e he0 he1
  · exact iblk3_2_apply V c t (ix2 (0 : Fin 1) q) (ix2 (0 : Fin 1) (e 1 : Fin 32)) rfl he1

/-- What point `t` writes back is block `t` of `G3`. -/
theorem flushed3_eq (c : Dev nD) (t : Fin cfg3.N) :
    (dat3 (F := Ideal) V c).flushed 3 t = ((cfg3.win 3).blk t).view.read (Elt Ideal) (G3 (V c main_v43) (V c main_v44) (V c main_v45)) := by
  show (cfg3.win 3).cut (grid3.coords t) ((dat3 V c).after 3 t) = _
  rw [after3_3]
  unfold out3_3
  rw [View.canon_unit_zero hz_3]
  simp only [View.ld_unit_zero (S := S10000x32) hz_3, View.ld_unit_zero (S := S10000x1) hz_3, View.ld_unit_zero (S := S1x32) hz_3]
  obtain ⟨-, -, -, -, -, -, e0, e1⟩ := idx_facts3 t
  funext j
  obtain ⟨p, q, rfl⟩ : ∃ (p : Fin 10000) (q : Fin 32), j = ix2 p q := ⟨j 0, j 1, eq_ix2 j⟩
  refine point3 V c t p q _ ?_ ?_
  · show win3_3.index t 0 * 10000 + 1 * p.val = _; rw [e0]; omega
  · show win3_3.index t 1 * 32 + 1 * q.val = _; rw [e1]; omega

/-- An index of the output array is in point `t`'s block iff each coordinate is in the block's range on its axis. -/
theorem mem_blk3 (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v46).slice (win3_3.rect t)).set ↔ _
  rw [View.set_slice_whole, Rect.mem_set_unit]
  exact Iff.rfl

/-- Every row of the output array is in the block of the point numbered by the row's ten-thousands. -/
theorem cover3 (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 10 := N_3
  let t : Fin cfg3.N := ⟨(i 0).val / 10000, by rw [hN]; omega⟩
  have ht : t.val = (i 0).val / 10000 := rfl
  obtain ⟨-, -, -, -, -, -, e0, e1⟩ := idx_facts3 t
  refine ⟨t, flush3_3 t, ?_⟩
  rw [mem_blk3]
  intro a
  match a with
  | ⟨0, _⟩ => show win3_3.index t 0 * 10000 ≤ (i 0).val ∧ (i 0).val < win3_3.index t 0 * 10000 + 10000; rw [e0, ht]; omega
  | ⟨1, _⟩ => show win3_3.index t 1 * 32 ≤ (i 1).val ∧ (i 1).val < win3_3.index t 1 * 32 + 32; rw [e1]; omega

/-- THE OUTPUT ARRAY after the region, index by index. -/
theorem arr3 (c : Dev nD) : (dat3 (F := Ideal) V c).arrAt 3 cfg3.N = G3 (V c main_v43) (V c main_v44) (V c main_v45) :=
  (dat3 (F := Ideal) V c).arrAt_eq_of_cover 3 (G3 (V c main_v43) (V c main_v44) (V c main_v45)) (fun t _ => flushed3_eq V c t) (cover3)

end Cert.KernelIdeal.Hand

end
-- ==== Proof.KIVal4.lean ====
import proofs.«106155_j30657476559342_2_alg».proof.Proof.KIReg4
import proofs.«106155_j30657476559342_2_alg».proof.Proof.LibPlainDot
import Idealize.ShloMosaic.Lib.Pipeline.Value
import Idealize.ShloMosaic.Lib.ValueIdx
import Idealize.ShloMosaic.Lib.ValueLayout

/-! Region 4 of @main on the extended reals: what the region leaves in its output array, as one function of the
    arrays it reads, index by index. Each grid point writes back one block of 10000 rows; the blocks tile the rows. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz_4 : (![0, 0] : Fin 2 → Nat) = fun _ => 0 := funext fun a => by fin_cases a <;> rfl

/-- The block index of each window at a grid point: the row-blocked windows sit at the point's number on the row axis,
    the weights at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The left operand's block at point `t` is rows `10000 t …` of its array. -/
theorem iblk4_0_apply (c : Dev nD) (t : Fin cfg4.N) (x : S10000x32.Idx) (k : S100000x32.Idx)
    (hk0 : (k 0).val = 10000 * t.val + (x 0).val) (hk1 : (k 1).val = (x 1).val) :
    (iblk4 V c 0 t : Vec Ideal S10000x32 .f32) x = (V c main_v46 : S100000x32.Idx → Elt Ideal .f32) k := by
  obtain ⟨e0, e1, -⟩ := idx_facts4 t
  unfold iblk4
  rw [View.read_apply]
  show V c main_v46 _ = V c main_v46 _
  refine congrArg (V c main_v46) ?_
  funext a
  apply Fin.ext
  match a with
  | ⟨0, _⟩ => show win4_0.index t 0 * 10000 + 1 * (x 0).val = (k 0).val; rw [e0, hk0]; omega
  | ⟨1, _⟩ => show win4_0.index t 1 * 32 + 1 * (x 1).val = (k 1).val; rw [e1, hk1]; omega

/-- The weights' block at every point is the whole array. -/
theorem iblk4_1_apply (c : Dev nD) (t : Fin cfg4.N) (x : S32x64.Idx) (k : S32x64.Idx)
    (hk0 : (k 0).val = (x 0).val) (hk1 : (k 1).val = (x 1).val) :
    (iblk4 V c 1 t : Vec Ideal S32x64 .f32) x = (V c main_arg5 : S32x64.Idx → Elt Ideal .f32) k := by
  obtain ⟨-, -, e0, e1, -⟩ := idx_facts4 t
  unfold iblk4
  rw [View.read_apply]
  show V c main_arg5 _ = V c main_arg5 _
  refine congrArg (V c main_arg5) ?_
  funext a
  apply Fin.ext
  match a with
  | ⟨0, _⟩ => show win4_1.index t 0 * 32 + 1 * (x 0).val = (k 0).val; rw [e0, hk0]; omega
  | ⟨1, _⟩ => show win4_1.index t 1 * 64 + 1 * (x 1).val = (k 1).val; rw [e1, hk1]; omega

/-- The scale column's block at point `t` is rows `10000 t …` of the column. -/
theorem iblk4_2_apply (c : Dev nD) (t : Fin cfg4.N) (x : S10000x1.Idx) (k : S100000x1.Idx)
    (hk0 : (k 0).val = 10000 * t.val + (x 0).val) (hk1 : (k 1).val = (x 1).val) :
    (iblk4 V c 2 t : Vec Ideal S10000x1 .f32) x = (V c main_v47 : S100000x1.Idx → Elt Ideal .f32) k := by
  obtain ⟨-, -, -, -, e0, e1, -⟩ := idx_facts4 t
  unfold iblk4
  rw [View.read_apply]
  show V c main_v47 _ = V c main_v47 _
  refine congrArg (V c main_v47) ?_
  funext a
  apply Fin.ext
  match a with
  | ⟨0, _⟩ => show win4_2.index t 0 * 10000 + 1 * (x 0).val = (k 0).val; rw [e0, hk0]; omega
  | ⟨1, _⟩ => show win4_2.index t 1 * 1 + 1 * (x 1).val = (k 1).val; rw [e1, hk1]; omega

/-- The body's payload at an entry: row p of the left block times column q of the weights, scaled by entry p of the
    column (the narrowing to bf16 is the identity on the extended reals). -/
theorem pay4_apply (x0 : Vec Ideal S10000x32 .f32) (x1 : Vec Ideal S32x64 .f32) (x2 : Vec Ideal S10000x1 .f32)
    (p : Fin 10000) (q : Fin 64) :
    k4_pay1 x0 x1 x2 (ix2 p q) = (∑ k : Fin 32, x0 (ix2 p k) * x1 (ix2 k q)) * x2 (ix2 p (0 : Fin 1)) := by
  unfold k4_pay1
  simp only [shapeCast_self]
  show (matmul dot_S10000x32_S32x64_S10000x64_1_0_0_1_n_n none x0 x1 (constant (F := Ideal) S10000x64 .f32 0x00000000#32) (ix2 p q))
      * (broadcastTo S10000x64 x2 broadcasts_S10000x1_S10000x64 (ix2 p q)) = _
  refine congrArg₂ (· * ·) ?_ ?_
  · exact Cert.PlainDot.matmul_zero_apply 10000 32 64 none x0 x1 p q
  · refine broadcastTo_apply x2 _ (ix2 p q) (ix2 p (0 : Fin 1)) fun a => ?_
    match a with
    | ⟨0, _⟩ => rfl
    | ⟨1, _⟩ => rfl

/-- What the region leaves in its output array: entry (r, q) is row r of the left array times column q of the
    weights, scaled by entry r of the column. -/
def G4 (a0 : S100000x32.Idx → EReal) (a1 : S32x64.Idx → EReal) (a2 : S100000x1.Idx → EReal) : S100000x64.Idx → EReal := fun i =>
  (∑ k : Fin 32, a0 (ix2 (i 0 : Fin 100000) k) * a1 (ix2 k (i 1 : Fin 64))) * a2 (ix2 (i 0 : Fin 100000) (0 : Fin 1))

/-- Entry (p, q) of the block the body leaves at point `t` is `G4` at the array index `e` with row `10000 t + p`, column `q`. -/
theorem point4 (c : Dev nD) (t : Fin cfg4.N) (p : Fin 10000) (q : Fin 64) (e : S100000x64.Idx)
    (he0 : (e 0).val = 10000 * t.val + p.val) (he1 : (e 1).val = q.val) :
    k4_pay1 (iblk4 V c 0 t) (iblk4 V c 1 t) (iblk4 V c 2 t) (ix2 p q) = G4 (V c main_v46) (V c main_arg5) (V c main_v47) e := by
  refine (pay4_apply (iblk4 V c 0 t) (iblk4 V c 1 t) (iblk4 V c 2 t) p q).trans ?_
  unfold G4
  refine congrArg₂ (· * ·) (Finset.sum_congr rfl fun k _ => congrArg₂ (· * ·) ?_ ?_) ?_
  · exact iblk4_0_apply V c t (ix2 p k) (ix2 (e 0 : Fin 100000) k) he0 rfl
  · exact iblk4_1_apply V c t (ix2 k q) (ix2 k (e 1 : Fin 64)) rfl he1
  · exact iblk4_2_apply V c t (ix2 p (0 : Fin 1)) (ix2 (e 0 : Fin 100000) (0 : Fin 1)) he0 rfl

/-- What point `t` writes back is block `t` of `G4`. -/
theorem flushed4_eq (c : Dev nD) (t : Fin cfg4.N) :
    (dat4 (F := Ideal) V c).flushed 3 t = ((cfg4.win 3).blk t).view.read (Elt Ideal) (G4 (V c main_v46) (V c main_arg5) (V c main_v47)) := by
  show (cfg4.win 3).cut (grid4.coords t) ((dat4 V c).after 3 t) = _
  rw [after4_3]
  unfold out4_3
  rw [View.canon_unit_zero hz_4]
  simp only [View.ld_unit_zero (S := S10000x32) hz_4, View.ld_unit_zero (S := S32x64) hz_4, View.ld_unit_zero (S := S10000x1) hz_4]
  obtain ⟨-, -, -, -, -, -, e0, e1⟩ := idx_facts4 t
  funext j
  obtain ⟨p, q, rfl⟩ : ∃ (p : Fin 10000) (q : Fin 64), j = ix2 p q := ⟨j 0, j 1, eq_ix2 j⟩
  refine point4 V c t p q _ ?_ ?_
  · show win4_3.index t 0 * 10000 + 1 * p.val = _; rw [e0]; omega
  · show win4_3.index t 1 * 64 + 1 * q.val = _; rw [e1]; omega

/-- An index of the output array is in point `t`'s block iff each coordinate is in the block's range on its axis. -/
theorem mem_blk4 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v48).slice (win4_3.rect t)).set ↔ _
  rw [View.set_slice_whole, Rect.mem_set_unit]
  exact Iff.rfl

/-- Every row of the output array is in the block of the point numbered by the row's ten-thousands. -/
theorem cover4 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  have ht : t.val = (i 0).val / 10000 := rfl
  obtain ⟨-, -, -, -, -, -, e0, e1⟩ := idx_facts4 t
  refine ⟨t, flush4_3 t, ?_⟩
  rw [mem_blk4]
  intro a
  match a with
  | ⟨0, _⟩ => show win4_3.index t 0 * 10000 ≤ (i 0).val ∧ (i 0).val < win4_3.index t 0 * 10000 + 10000; rw [e0, ht]; omega
  | ⟨1, _⟩ => show win4_3.index t 1 * 64 ≤ (i 1).val ∧ (i 1).val < win4_3.index t 1 * 64 + 64; rw [e1]; omega

/-- THE OUTPUT ARRAY after the region, index by index. -/
theorem arr4 (c : Dev nD) : (dat4 (F := Ideal) V c).arrAt 3 cfg4.N = G4 (V c main_v46) (V c main_arg5) (V c main_v47) :=
  (dat4 (F := Ideal) V c).arrAt_eq_of_cover 3 (G4 (V c main_v46) (V c main_arg5) (V c main_v47)) (fun t _ => flushed4_eq V c t) (cover4)

end Cert.KernelIdeal.Hand

end
-- ==== Proof.KIChain.lean ====
import proofs.«106155_j30657476559342_2_alg».proof.Proof.KIStable
import proofs.«106155_j30657476559342_2_alg».proof.Proof.KIHost
import proofs.«106155_j30657476559342_2_alg».proof.Proof.KIVal0
import proofs.«106155_j30657476559342_2_alg».proof.Proof.KIVal1
import proofs.«106155_j30657476559342_2_alg».proof.Proof.KIVal2
import proofs.«106155_j30657476559342_2_alg».proof.Proof.KIVal3
import proofs.«106155_j30657476559342_2_alg».proof.Proof.KIVal4
import Idealize.ShloMosaic.PureOps.Ideal

/-!
# The arrays of the idealized run, stage by stage

From the launch memory: the edge ends, the degree's inverse square root `D` as a column, and per layer the
projected, source-scaled features, their aggregation along the edges, and the activated features. Each array is
named as a function of the arrays before it; nothing is read at an index here.
-/

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The edge list as launched. -/
abbrev eiOf : (⟨S2x1600000, .i32⟩ : BufTy).Contents (Elt Ideal) := W0 m c (Proc.devRef .tc main_arg9)
/-- The degree's inverse square root (0 where the degree is 0). -/
abbrev Dv : FVec Ideal S100000 .f32 := dinvV (degV (endsV 1 (eiOf m c)))
/-- The same as a column. -/
abbrev Dcol : FVec Ideal S100000x1 .f32 := shapeCast S100000x1 (Dv m c) shapeCasts_S100000_S100000x1

/-! ## Region 0's entry -/

theorem W3_v3 : W3 m c (Proc.devRef .tc main_v3) = endsV 0 (eiOf m c) :=
  (StableHlo.after_of_writes_sub hostOps0_2 (W2 m c) hostOps0_2_writes (by decide : main_v3 ∉ hostOps0_2_W)).trans
    ((StableHlo.after_of_writes_sub hostOps0_1 (W1 m c) hostOps0_1_writes (by decide : main_v3 ∉ hostOps0_1_W)).trans
      (h0_v3 (W0 m c)))
theorem W3_v6 : W3 m c (Proc.devRef .tc main_v6) = endsV 1 (eiOf m c) :=
  (StableHlo.after_of_writes_sub hostOps0_2 (W2 m c) hostOps0_2_writes (by decide : main_v6 ∉ hostOps0_2_W)).trans
    ((StableHlo.after_of_writes_sub hostOps0_1 (W1 m c) hostOps0_1_writes (by decide : main_v6 ∉ hostOps0_1_W)).trans
      (h0_v6 (W0 m c)))
theorem W2_v14 : W2 m c (Proc.devRef .tc main_v14) = Dv m c := by
  refine (h01_v14 (W1 m c)).trans ?_
  rw [show W1 m c (Proc.devRef .tc main_v12) = _ from h0_v12 (W0 m c),
    show W1 m c (Proc.devRef .tc main_v13) = _ from h0_v13 (W0 m c),
    show W1 m c (Proc.devRef .tc main_cst_2) = _ from h0_cst2 (W0 m c)]
  rfl
theorem W3_v14 : W3 m c (Proc.devRef .tc main_v14) = Dv m c :=
  (StableHlo.after_of_writes_sub hostOps0_2 (W2 m c) hostOps0_2_writes (by decide : main_v14 ∉ hostOps0_2_W)).trans (W2_v14 m c)
theorem W3_v15 : W3 m c (Proc.devRef .tc main_v15) = Dcol m c := by
  refine (h02_v15 (W2 m c)).trans ?_
  rw [W2_v14]

/-- An argument array at region 0's entry and ever after. -/
theorem W3_arg (b : Ref sig .tc) (h0 : b ∉ hostOps0_W) (h01 : b ∉ hostOps0_1_W) (h02 : b ∉ hostOps0_2_W) :
    W3 m c (Proc.devRef .tc b) = W0 m c (Proc.devRef .tc b) := W3_unwritten m c b h0 h01 h02

/-! ## Layer 1 -/

/-- The projected features of layer 1, scaled by the source factor. -/
abbrev hs1 : S100000x16.Idx → EReal :=
  G0 (W0 m c (Proc.devRef .tc main_arg0)) (W0 m c (Proc.devRef .tc main_arg1)) (Dcol m c)
theorem W4_v16 : W4 m c (Proc.devRef .tc main_v16) = hs1 m c := by
  refine (W4_arr m c 3).trans ((arr0 (V3 m) c).trans ?_)
  show G0 (W3 m c (Proc.devRef .tc main_arg0)) (W3 m c (Proc.devRef .tc main_arg1)) (W3 m c (Proc.devRef .tc main_v15)) = _
  rw [W3_arg m c main_arg0 (by decide) (by decide) (by decide), W3_arg m c main_arg1 (by decide) (by decide) (by decide), W3_v15]
/-- Layer 1's aggregation along the edges. -/
abbrev ag1 : FVec Ideal S100000x16 .f32 := agg16V (endsV 1 (eiOf m c)) (endsV 0 (eiOf m c)) (hs1 m c)
theorem W5_v27 : W5 m c (Proc.devRef .tc main_v27) = ag1 m c := by
  refine (h1_v27 (W4 m c)).trans ?_
  rw [(W4_st m c main_v6 (by decide)).trans (W3_v6 m c), (W4_st m c main_v3 (by decide)).trans (W3_v3 m c), W4_v16]
theorem W5_v28 : W5 m c (Proc.devRef .tc main_v28) = Dcol m c := by
  refine (h1_v28 (W4 m c)).trans ?_
  rw [(W4_st m c main_v14 (by decide)).trans (W3_v14 m c)]
theorem W5_v29 : W5 m c (Proc.devRef .tc main_v29)
    = shapeCast S1x16 (W0 m c (Proc.devRef .tc main_arg2)) shapeCasts_S16_S1x16 := by
  refine (h1_v29 (W4 m c)).trans ?_
  rw [(W4_st m c main_arg2 (by decide)).trans (W3_arg m c main_arg2 (by decide) (by decide) (by decide))]
/-- Layer 1's activated features. -/
abbrev act1 : S100000x16.Idx → EReal :=
  G1 (ag1 m c) (Dcol m c) (shapeCast S1x16 (W0 m c (Proc.devRef .tc main_arg2)) shapeCasts_S16_S1x16)
theorem W6_v30 : W6 m c (Proc.devRef .tc main_v30) = act1 m c := by
  refine (W6_arr m c 3).trans ((arr1 (V5 m) c).trans ?_)
  show G1 (W5 m c (Proc.devRef .tc main_v27)) (W5 m c (Proc.devRef .tc main_v28)) (W5 m c (Proc.devRef .tc main_v29)) = _
  rw [W5_v27, W5_v28, W5_v29]

/-- A buffer written before region 0 and by nothing later, at a later boundary. -/
theorem late_arg (b : Ref sig .tc) (hb : b ∉ (writtenLate : List (Ref sig .tc))) (h0 : b ∉ hostOps0_W) (h01 : b ∉ hostOps0_1_W)
    (h02 : b ∉ hostOps0_2_W) {W : Valuation τ sig (Elt Ideal)} (hW : W (Proc.devRef .tc b) = W3 m c (Proc.devRef .tc b)) :
    W (Proc.devRef .tc b) = W0 m c (Proc.devRef .tc b) := hW.trans (W3_arg m c b h0 h01 h02)

/-! ## Layer 2 -/

theorem W7_v31 : W7 m c (Proc.devRef .tc main_v31) = Dcol m c := by
  refine (h2_v31 (W6 m c)).trans ?_
  rw [(W6_st m c main_v14 (by decide)).trans (W3_v14 m c)]
/-- The projected features of layer 2, scaled by the source factor. -/
abbrev hs2 : S100000x32.Idx → EReal := G2 (act1 m c) (W0 m c (Proc.devRef .tc main_arg3)) (Dcol m c)
theorem W8_v32 : W8 m c (Proc.devRef .tc main_v32) = hs2 m c := by
  refine (W8_arr m c 3).trans ((arr2 (V7 m) c).trans ?_)
  show G2 (W7 m c (Proc.devRef .tc main_v30)) (W7 m c (Proc.devRef .tc main_arg3)) (W7 m c (Proc.devRef .tc main_v31)) = _
  rw [(W7_v30 m c).trans (W6_v30 m c),
    late_arg m c main_arg3 (by decide) (by decide) (by decide) (by decide) (W7_st m c main_arg3 (by decide)), W7_v31]
/-- Layer 2's aggregation along the edges. -/
abbrev ag2 : FVec Ideal S100000x32 .f32 := agg32V (endsV 1 (eiOf m c)) (endsV 0 (eiOf m c)) (hs2 m c)
theorem W9_v43 : W9 m c (Proc.devRef .tc main_v43) = ag2 m c := by
  refine (h3_v43 (W8 m c)).trans ?_
  rw [(W8_st m c main_v6 (by decide)).trans (W3_v6 m c), (W8_st m c main_v3 (by decide)).trans (W3_v3 m c), W8_v32]
theorem W9_v44 : W9 m c (Proc.devRef .tc main_v44) = Dcol m c := by
  refine (h3_v44 (W8 m c)).trans ?_
  rw [(W8_st m c main_v14 (by decide)).trans (W3_v14 m c)]
theorem W9_v45 : W9 m c (Proc.devRef .tc main_v45)
    = shapeCast S1x32 (W0 m c (Proc.devRef .tc main_arg4)) shapeCasts_S32_S1x32 := by
  refine (h3_v45 (W8 m c)).trans ?_
  rw [late_arg m c main_arg4 (by decide) (by decide) (by decide) (by decide) (W8_st m c main_arg4 (by decide))]
/-- Layer 2's activated features. -/
abbrev act2 : S100000x32.Idx → EReal :=
  G3 (ag2 m c) (Dcol m c) (shapeCast S1x32 (W0 m c (Proc.devRef .tc main_arg4)) shapeCasts_S32_S1x32)
theorem W10_v46 : W10 m c (Proc.devRef .tc main_v46) = act2 m c := by
  refine (W10_arr m c 3).trans ((arr3 (V9 m) c).trans ?_)
  show G3 (W9 m c (Proc.devRef .tc main_v43)) (W9 m c (Proc.devRef .tc main_v44)) (W9 m c (Proc.devRef .tc main_v45)) = _
  rw [W9_v43, W9_v44, W9_v45]

/-! ## Layer 3, up to the aggregation -/

theorem W11_v47 : W11 m c (Proc.devRef .tc main_v47) = Dcol m c := by
  refine (h4_v47 (W10 m c)).trans ?_
  rw [(W10_st m c main_v14 (by decide)).trans (W3_v14 m c)]
/-- The projected features of layer 3, scaled by the source factor. -/
abbrev hs3 : S100000x64.Idx → EReal := G4 (act2 m c) (W0 m c (Proc.devRef .tc main_arg5)) (Dcol m c)
theorem W12_v48 : W12 m c (Proc.devRef .tc main_v48) = hs3 m c := by
  refine (W12_arr m c 3).trans ((arr4 (V11 m) c).trans ?_)
  show G4 (W11 m c (Proc.devRef .tc main_v46)) (W11 m c (Proc.devRef .tc main_arg5)) (W11 m c (Proc.devRef .tc main_v47)) = _
  rw [(W11_v46 m c).trans (W10_v46 m c),
    late_arg m c main_arg5 (by decide) (by decide) (by decide) (by decide) (W11_st m c main_arg5 (by decide)), W11_v47]
/-- Layer 3's aggregation along the edges. -/
abbrev ag3 : FVec Ideal S100000x64 .f32 := agg64V (endsV 1 (eiOf m c)) (endsV 0 (eiOf m c)) (hs3 m c)
theorem W13_v59 : W13 m c (Proc.devRef .tc main_v59) = ag3 m c := by
  refine (h5_v59 (W12 m c)).trans ?_
  rw [(W12_st m c main_v6 (by decide)).trans (W3_v6 m c), (W12_st m c main_v3 (by decide)).trans (W3_v3 m c), W12_v48]
theorem W13_v60 : W13 m c (Proc.devRef .tc main_v60) = Dcol m c := by
  refine (h5_v60 (W12 m c)).trans ?_
  rw [(W12_st m c main_v14 (by decide)).trans (W3_v14 m c)]
theorem W13_v61 : W13 m c (Proc.devRef .tc main_v61)
    = shapeCast S1x64 (W0 m c (Proc.devRef .tc main_arg6)) shapeCasts_S64_S1x64 := by
  refine (h5_v61 (W12 m c)).trans ?_
  rw [late_arg m c main_arg6 (by decide) (by decide) (by decide) (by decide) (W12_st m c main_arg6 (by decide))]
theorem W13_v62 : W13 m c (Proc.devRef .tc main_v62)
    = shapeCast S1x1 (W0 m c (Proc.devRef .tc main_arg8)) shapeCasts_S1_S1x1 := by
  refine (h5_v62 (W12 m c)).trans ?_
  rw [late_arg m c main_arg8 (by decide) (by decide) (by decide) (by decide) (W12_st m c main_arg8 (by decide))]
theorem W13_arg7 : W13 m c (Proc.devRef .tc main_arg7) = W0 m c (Proc.devRef .tc main_arg7) :=
  late_arg m c main_arg7 (by decide) (by decide) (by decide) (by decide) (W13_st m c main_arg7 (by decide))

end Cert.KernelIdeal.Hand

end
-- ==== Proof.IdxFacts.lean ====
import proofs.«106155_j30657476559342_2_alg».proof.Proof.Spec
import proofs.«106155_j30657476559342_2_alg».proof.Proof.LibReal
import proofs.«106155_j30657476559342_2_alg».proof.Proof.LibRowIndex
import proofs.«106155_j30657476559342_2_alg».proof.Proof.LibVecScatter
import proofs.«106155_j30657476559342_2_alg».proof.Proof.LibLay
import proofs.«106155_j30657476559342_2_alg».proof.Proof.LibEdgeSum
import proofs.«106155_j30657476559342_2_alg».proof.Proof.RefCore
import Idealize.ShloMosaic.Lib.Pipeline.Value

/-!
# The index plumbing of the graph, read in the specification's words

Both programs build the same arrays from the edge list with the same host operations: each row of the edge list
joined with the loop ends 0, 1, …; a column of such indices, as it is or wrapped once where negative; the degree
as a scatter-add of ones along the targets; the scale "1/√deg where deg > 0, else 0"; an aggregation as a
scatter-add along the targets of rows gathered at the wrapped sources. Each is read here at an index and equals
the specification's `ends`, `wrap`, `deg`, `dinv`, and a sum over `into` at `srcNode`.
-/

noncomputable section

namespace Cert.IdxFacts

open Idealize.ShloMosaic Idealize.ShloMosaic.ValueIdx Cert.GinMath Cert.RowIndex Cert.ReferenceIdeal.RefValue
open scoped BigOperators

/-- Row r of the edge list, recast as a vector and joined with 0, 1, …, 99999, at position e. -/
theorem ends_apply (ei : (⟨2, ![2, 1600000]⟩ : Shape).Idx → BitVec 32) (r : Fin 2)
    (hs : (⟨2, ![2, 1600000]⟩ : Shape).Slices ![r.val, 0] ⟨2, ![1, 1600000]⟩)
    (hc : (⟨2, ![1, 1600000]⟩ : Shape).ShapeCasts ⟨1, ![1600000]⟩)
    (hcat : Shape.Concatenates [(⟨1, ![1600000]⟩ : Shape), ⟨1, ![100000]⟩] ⟨1, ![1700000]⟩ 0) (e : Fin 1700000) :
    concatenate (⟨1, ![1700000]⟩ : Shape) 0
        [⟨⟨1, ![1600000]⟩, shapeCast _ (extractStridedSlice ⟨2, ![1, 1600000]⟩ ![r.val, 0] ei hs) hc⟩,
         ⟨⟨1, ![100000]⟩, iotaInDim ⟨1, ![100000]⟩ 32 0⟩] hcat (ix1 e)
      = Cert.Spec.ends ei r e := by
  unfold Cert.Spec.ends
  by_cases h : e.val < 1600000
  · rw [dif_pos h]
    refine (concatenate_pair_apply_left (0 : Fin (⟨1, ![1700000]⟩ : Shape).rank) _ _ hcat (ix1 e) rfl
      (ix1 (⟨e.val, h⟩ : Fin 1600000)) (fun b => ?_)).trans ?_
    · match b with
      | ⟨0, _⟩ => rfl
    · refine (shapeCast_apply _ hc (ix1 (⟨e.val, h⟩ : Fin 1600000)) (ix2 (0 : Fin 1) (⟨e.val, h⟩ : Fin 1600000)) ?_).trans ?_
      · rewrite [Shape.rowMajor_val_two, Shape.rowMajor_val_one]
        show 0 * 1600000 + e.val = e.val
        omega
      · exact extractStridedSlice_apply ![r.val, 0] ei hs (ix2 (0 : Fin 1) (⟨e.val, h⟩ : Fin 1600000)) (ix2 r (⟨e.val, h⟩ : Fin 1600000)) (fun a => by
          match a with
          | ⟨0, _⟩ => show r.val = r.val + 0; omega
          | ⟨1, _⟩ => show e.val = 0 + e.val; omega)
  · rw [dif_neg h]
    have h2 : e.val - 1600000 < 100000 := by have := e.isLt; omega
    refine (concatenate_pair_apply_right (0 : Fin (⟨1, ![1700000]⟩ : Shape).rank) _ _ hcat (ix1 e) rfl rfl
      (ix1 (⟨e.val - 1600000, h2⟩ : Fin 100000)) (fun b hb => ?_) ?_).trans ?_
    · exact absurd (Subsingleton.elim _ _) hb
    · show (e.val - 1600000) + 1600000 = e.val
      omega
    · rfl

/-- A column [E, 1] laid from "v + N where v < 0, else v" reads at e the wrapped v at e. -/
theorem wrapCol_apply (v : IVec (⟨1, ![1700000]⟩ : Shape) 32)
    (hb : (⟨1, ![1700000]⟩ : Shape).BroadcastsInDim ⟨2, ![1700000, 1]⟩ (![0] : Fin 1 → Fin 2))
    (h0 : (⟨0, ![]⟩ : Shape).BroadcastsInDim ⟨1, ![1700000]⟩ (![] : Fin 0 → Fin 1)) (e : Fin 1700000) :
    broadcastInDim (⟨2, ![1700000, 1]⟩ : Shape) ![0] hb
        (select (cmpi .slt v (broadcastInDim ⟨1, ![1700000]⟩ ![] h0 (constantI ⟨0, ![]⟩ 32 0#32)))
          (addi v (broadcastInDim ⟨1, ![1700000]⟩ ![] h0 (constantI ⟨0, ![]⟩ 32 100000#32))) v) (ix2 e (0 : Fin 1))
      = Cert.Spec.wrap (v (ix1 e)) := by
  rw [Cert.Lay.vecCol_apply]
  show Scalar.select (IntOp.cmpi .slt (v (ix1 e)) (broadcastInDim ⟨1, ![1700000]⟩ ![] h0 (constantI ⟨0, ![]⟩ 32 0#32) (ix1 e)))
      (IntOp.addi (v (ix1 e)) (broadcastInDim ⟨1, ![1700000]⟩ ![] h0 (constantI ⟨0, ![]⟩ 32 100000#32) (ix1 e))) (v (ix1 e)) = _
  rw [Cert.Lay.scalar_apply, Cert.Lay.scalar_apply]
  exact select_wrap _

/-- A broadcast of the pattern of +0.0 reads zero everywhere. -/
theorem zeros_apply {t : Shape} (h : (⟨0, ![]⟩ : Shape).BroadcastsInDim t (![] : Fin 0 → Fin t.rank)) (j : t.Idx) :
    broadcastInDim t ![] h (constant (F := Ideal) ⟨0, ![]⟩ .f32 0x00000000#32) j = 0 := by
  rw [Cert.Lay.scalar_apply]
  exact ofBits_zero

/-- A broadcast of the pattern of 1.0 reads one everywhere. -/
theorem ones_apply {t : Shape} (h : (⟨0, ![]⟩ : Shape).BroadcastsInDim t (![] : Fin 0 → Fin t.rank)) (j : t.Idx) :
    broadcastInDim t ![] h (constant (F := Ideal) ⟨0, ![]⟩ .f32 0x3F800000#32) j = 1 := by
  rw [Cert.Lay.scalar_apply]
  exact ofBits_one.trans EReal.coe_one

/-- A scatter-add of ones along the targets into zeros counts the edges landing on each node. -/
theorem deg_apply (wf : ScatterDims.WF ⟨1, ![100000]⟩ ⟨2, ![1700000, 1]⟩ ⟨1, ![1700000]⟩ [] [0] [0] 1)
    (ei : (⟨2, ![2, 1600000]⟩ : Shape).Idx → BitVec 32)
    (z : (⟨1, ![100000]⟩ : Shape).Idx → EReal) (hz : ∀ i, z i = 0) (dst : IVec ⟨2, ![1700000, 1]⟩ 32)
    (hdst : ∀ e : Fin 1700000, dst (ix2 e (0 : Fin 1)) = Cert.Spec.ends ei 1 e)
    (u : (⟨1, ![1700000]⟩ : Shape).Idx → EReal) (hu : ∀ i, u i = 1) (p : Fin 100000) :
    Host.scatterAdd (F := Ideal) (φ := .f32) (vecScatterDims 100000 1700000 wf) z dst u (ix1 p)
      = Cert.Spec.deg ei p := by
  rw [vecScatterAdd_apply, hz]
  unfold Cert.Spec.deg Cert.Spec.into
  refine congrArg (fun s => (0 : EReal) + s) ?_
  rw [Finset.filter_congr (q := fun e : Fin 1700000 => (Cert.Spec.ends ei 1 e).toInt = (p.val : ℤ))
    (fun e _ => by rw [hdst])]
  exact Finset.sum_congr rfl fun e _ => hu _

/-- "1/√d where d > 0, else 0" of the degree, at node p, is the specification's scale. -/
theorem dinv_apply (ei : (⟨2, ![2, 1600000]⟩ : Shape).Idx → BitVec 32)
    (d z z' : FVec Ideal (⟨1, ![100000]⟩ : Shape) .f32) (p : Fin 100000)
    (hd : d (ix1 p) = Cert.Spec.deg ei p) (hz : z (ix1 p) = 0) (hz' : z' (ix1 p) = 0) :
    select (cmpf (F := Ideal) .ogt d z) (Host.rsqrt d) z' (ix1 p) = Cert.Spec.dinv ei p := by
  show Scalar.select (Ideal.cmp .ogt (d (ix1 p)) (z (ix1 p))) (Ideal.rsqrt (d (ix1 p))) (z' (ix1 p)) = _
  rw [hd]
  unfold Cert.Spec.dinv
  exact select_rsqrt _ _ _ hz hz'

/-- Rows gathered at the wrapped sources and scatter-added along the targets into zeros: at (p, q) the sum over
    the edges into p of the source node's row at q. -/
theorem agg_apply {C : Nat}
    (wfs : ScatterDims.WF ⟨2, ![100000, C]⟩ ⟨2, ![1700000, 1]⟩ ⟨2, ![1700000, C]⟩ [1] [0] [0] 1)
    (wfg : GatherDims.WF ⟨2, ![100000, C]⟩ ⟨2, ![1700000, 1]⟩ ⟨2, ![1700000, C]⟩ [1] [0] [] [0] [] 1 ![1, C])
    (ei : (⟨2, ![2, 1600000]⟩ : Shape).Idx → BitVec 32)
    (hs : (⟨2, ![100000, C]⟩ : Shape).Idx → EReal)
    (z : (⟨2, ![100000, C]⟩ : Shape).Idx → EReal) (hz : ∀ i, z i = 0)
    (dst srcW : IVec ⟨2, ![1700000, 1]⟩ 32)
    (hdst : ∀ e : Fin 1700000, dst (ix2 e (0 : Fin 1)) = Cert.Spec.ends ei 1 e)
    (hsrc : ∀ e : Fin 1700000, srcW (ix2 e (0 : Fin 1)) = Cert.Spec.wrap (Cert.Spec.ends ei 0 e))
    (p : Fin 100000) (q : Fin C) :
    Host.scatterAdd (F := Ideal) (φ := .f32) (rowScatterDims 100000 1700000 C wfs) z dst
        (Host.gather (rowGatherDims 100000 1700000 C wfg) hs srcW) (ix2 p q)
      = 0 + ∑ e ∈ Cert.Spec.into ei p, hs (ix2 (Cert.Spec.srcNode ei e) q) := by
  rw [Cert.EdgeSum.rowScatterAdd_apply, hz]
  have hset : (Finset.univ.filter fun e : Fin 1700000 => (dst (ix2 e (0 : Fin 1))).toInt = (p.val : ℤ))
      = Cert.Spec.into ei p := by
    unfold Cert.Spec.into
    exact Finset.filter_congr fun e _ => by rw [hdst]
  rw [hset]
  refine congrArg (fun s => (0 : EReal) + s) (Finset.sum_congr rfl fun e _ => ?_)
  rw [rowGather_apply (by decide) wfg hs srcW e q, hsrc]
  rfl

end Cert.IdxFacts

end
-- ==== Proof.KILayer.lean ====
import proofs.«106155_j30657476559342_2_alg».proof.Proof.KIHost
import proofs.«106155_j30657476559342_2_alg».proof.Proof.IdxFacts

/-! The host stretches' arrays read index by index, in the specification's words: the edge ends, the scale column
    (the inverse square root of the degree), a bias vector laid as a row, and the per-layer aggregation (rows gathered
    at the wrapped sources and summed into their targets). -/

noncomputable section

namespace Cert.KernelIdeal.Hand

open Cert.KernelIdeal Cert.KernelIdeal.Gen
open Idealize.ShloMosaic Idealize.ShloMosaic.ValueIdx
open scoped BigOperators

variable (ei : (⟨S2x1600000, .i32⟩ : BufTy).Contents (Elt Ideal))

/-- Row r of the edge list followed by the loop ends, at position e. -/
theorem endsV_apply (r : Fin 2) (e : Fin 1700000) : endsV r ei (ix1 e) = Cert.Spec.ends ei r e := by
  match r with
  | ⟨0, _⟩ =>
    exact Cert.IdxFacts.ends_apply ei 0 slices_S2x1600000_S1x1600000_0_0 shapeCasts_S1x1600000_S1600000
      concatenates_S1600000_S100000_S1700000_d0 e
  | ⟨1, _⟩ =>
    exact Cert.IdxFacts.ends_apply ei 1 slices_S2x1600000_S1x1600000_1_0 shapeCasts_S1x1600000_S1600000
      concatenates_S1600000_S100000_S1700000_d0 e

/-- An index vector laid as a column reads the vector. -/
theorem colV_apply (v : (⟨S1700000, .i32⟩ : BufTy).Contents (Elt Ideal)) (e : Fin 1700000) :
    colV v (ix2 e (0 : Fin 1)) = v (ix1 e) :=
  Cert.Lay.vecCol_apply bcast_S1700000_S1700000x1_0 v e 0

/-- The wrapped column reads the wrapped entry. -/
theorem wrapColV_apply (v : (⟨S1700000, .i32⟩ : BufTy).Contents (Elt Ideal)) (e : Fin 1700000) :
    wrapColV v (ix2 e (0 : Fin 1)) = Cert.Spec.wrap (v (ix1 e)) :=
  Cert.IdxFacts.wrapCol_apply v bcast_S1700000_S1700000x1_0 bcast_S_S1700000 e

/-- The degree vector at node p counts the edges landing on p. -/
theorem degV_apply (p : Fin 100000) : degV (endsV 1 ei) (ix1 p) = Cert.Spec.deg ei p := by
  unfold degV
  exact Cert.IdxFacts.deg_apply scatter_S100000_S1700000x1_S1700000_n_0_0_1.wf ei _
    (fun i => Cert.IdxFacts.zeros_apply _ i) (colV (endsV 1 ei))
    (fun e => (colV_apply _ e).trans (endsV_apply ei 1 e)) _ (fun i => Cert.IdxFacts.ones_apply _ i) p

/-- The scale vector recast as a column, at row p: the specification's scale of node p. -/
theorem dinvcol_apply (p : Fin 100000) :
    shapeCast S100000x1 (dinvV (degV (endsV 1 ei))) shapeCasts_S100000_S100000x1 (ix2 p (0 : Fin 1)) = Cert.Spec.dinv ei p := by
  refine (Cert.Lay.vecColCast_apply shapeCasts_S100000_S100000x1 (dinvV (degV (endsV 1 ei))) p 0).trans ?_
  unfold dinvV
  exact Cert.IdxFacts.dinv_apply ei _ _ _ p (degV_apply ei p) (Cert.IdxFacts.zeros_apply _ _) (Cert.IdxFacts.zeros_apply _ _)

/-- A vector of length 16 recast as the one row of a [1, 16] matrix, read at column q. -/
theorem row16_apply (b : FVec Ideal S16 .f32) (q : Fin 16) :
    shapeCast S1x16 b shapeCasts_S16_S1x16 (ix2 (0 : Fin 1) q) = b (ix1 q) :=
  shapeCast_apply b shapeCasts_S16_S1x16 (ix2 (0 : Fin 1) q) (ix1 q) (by
    rw [Shape.rowMajor_val_two, Shape.rowMajor_val_one]
    show q.val = 0 * 16 + q.val
    omega)

/-- A vector of length 32 recast as the one row of a [1, 32] matrix, read at column q. -/
theorem row32_apply (b : FVec Ideal S32 .f32) (q : Fin 32) :
    shapeCast S1x32 b shapeCasts_S32_S1x32 (ix2 (0 : Fin 1) q) = b (ix1 q) :=
  shapeCast_apply b shapeCasts_S32_S1x32 (ix2 (0 : Fin 1) q) (ix1 q) (by
    rw [Shape.rowMajor_val_two, Shape.rowMajor_val_one]
    show q.val = 0 * 32 + q.val
    omega)

/-- A vector of length 64 recast as the one row of a [1, 64] matrix, read at column q. -/
theorem row64_apply (b : FVec Ideal S64 .f32) (q : Fin 64) :
    shapeCast S1x64 b shapeCasts_S64_S1x64 (ix2 (0 : Fin 1) q) = b (ix1 q) :=
  shapeCast_apply b shapeCasts_S64_S1x64 (ix2 (0 : Fin 1) q) (ix1 q) (by
    rw [Shape.rowMajor_val_two, Shape.rowMajor_val_one]
    show q.val = 0 * 64 + q.val
    omega)

/-- A one-entry vector recast as a [1, 1] matrix reads its entry. -/
theorem one11 (b : FVec Ideal S1 .f32) :
    shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1)) (by
    rw [Shape.rowMajor_val_two, Shape.rowMajor_val_one]
    show 0 = 0 * 1 + 0
    omega)

/-- The aggregation over 16 columns at (p, q): the sum over the edges landing on p of the source node's row at q. -/
theorem agg16_apply (hs : FVec Ideal S100000x16 .bf16) (p : Fin 100000) (q : Fin 16) :
    agg16V (endsV 1 ei) (endsV 0 ei) hs (ix2 p q) = 0 + ∑ e ∈ Cert.Spec.into ei p, hs (ix2 (Cert.Spec.srcNode ei e) q) := by
  unfold agg16V
  exact Cert.IdxFacts.agg_apply scatter_S100000x16_S1700000x1_S1700000x16_1_0_0_1.wf
    gather_S100000x16_S1700000x1_S1700000x16_1_0_n_n_0_1_116.wf ei hs _ (fun i => Cert.IdxFacts.zeros_apply _ i)
    (colV (endsV 1 ei)) (wrapColV (endsV 0 ei)) (fun e => (colV_apply _ e).trans (endsV_apply ei 1 e))
    (fun e => (wrapColV_apply _ e).trans (congrArg Cert.Spec.wrap (endsV_apply ei 0 e))) p q

/-- The aggregation over 32 columns at (p, q): the sum over the edges landing on p of the source node's row at q. -/
theorem agg32_apply (hs : FVec Ideal S100000x32 .bf16) (p : Fin 100000) (q : Fin 32) :
    agg32V (endsV 1 ei) (endsV 0 ei) hs (ix2 p q) = 0 + ∑ e ∈ Cert.Spec.into ei p, hs (ix2 (Cert.Spec.srcNode ei e) q) := by
  unfold agg32V
  exact Cert.IdxFacts.agg_apply scatter_S100000x32_S1700000x1_S1700000x32_1_0_0_1.wf
    gather_S100000x32_S1700000x1_S1700000x32_1_0_n_n_0_1_132.wf ei hs _ (fun i => Cert.IdxFacts.zeros_apply _ i)
    (colV (endsV 1 ei)) (wrapColV (endsV 0 ei)) (fun e => (colV_apply _ e).trans (endsV_apply ei 1 e))
    (fun e => (wrapColV_apply _ e).trans (congrArg Cert.Spec.wrap (endsV_apply ei 0 e))) p q

/-- The aggregation over 64 columns at (p, q): the sum over the edges landing on p of the source node's row at q. -/
theorem agg64_apply (hs : FVec Ideal S100000x64 .bf16) (p : Fin 100000) (q : Fin 64) :
    agg64V (endsV 1 ei) (endsV 0 ei) hs (ix2 p q) = 0 + ∑ e ∈ Cert.Spec.into ei p, hs (ix2 (Cert.Spec.srcNode ei e) q) := by
  unfold agg64V
  exact Cert.IdxFacts.agg_apply scatter_S100000x64_S1700000x1_S1700000x64_1_0_0_1.wf
    gather_S100000x64_S1700000x1_S1700000x64_1_0_n_n_0_1_164.wf ei hs _ (fun i => Cert.IdxFacts.zeros_apply _ i)
    (colV (endsV 1 ei)) (wrapColV (endsV 0 ei)) (fun e => (colV_apply _ e).trans (endsV_apply ei 1 e))
    (fun e => (wrapColV_apply _ e).trans (congrArg Cert.Spec.wrap (endsV_apply ei 0 e))) p q

end Cert.KernelIdeal.Hand

end
-- ==== Proof.KIVal5.lean ====
import proofs.«106155_j30657476559342_2_alg».proof.Proof.KIReg5
import Idealize.ShloMosaic.Lib.Pipeline.Value

/-! Region 5 of @main: its output array has one entry, written back once, after the last grid point; it ends holding
    what the body leaves in the output window's staging buffer at that point. -/

set_option maxRecDepth 16384

noncomputable section

namespace Cert.KernelIdeal.Hand

open Idealize.ShloMosaic Idealize.ShloMosaic.TcCoe
open Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The output window's block sits at offset (0, 0) of its array at the last point. -/
theorem off5_last : (fun a => win5_5.index t5_9 a * main_v63.ty.shape.size a) = fun _ => 0 :=
  funext fun a => by fin_cases a <;> decide +kernel

/-- The one write-back, at the last point, writes what the body left there: block (0, 0) of the one-entry array read
    through zero offsets is the array. -/
theorem flushed5_eq (c : Dev nD) (t : Fin cfg5.N) (hf : (cfg5.win 5).flush t = true) :
    (dat5 V c).flushed 5 t = ((cfg5.win 5).blk t).view.read (Elt F) (outsAt5 V c 9 (by rw [show cfg5.N = 10 from N_5]; decide)).1 := by
  have hN : cfg5.N = 10 := N_5
  have h9 : t.val = 9 := by have := (flush5_5 t).mp hf; have := t.isLt; omega
  obtain rfl : t = t5_9 := Fin.ext h9
  show (cfg5.win 5).cut (grid5.coords t5_9) ((dat5 V c).after 5 t5_9) = _
  rw [after5_5]
  exact (Memref.read_access_unit_zero (Elt F) main_v63 off5_last (fun a => by rw [congrFun off5_last a]; simp)
    (outsAt5 V c 9 (by rw [show cfg5.N = 10 from N_5]; decide)).1).symm

/-- The last point's block is the whole one-entry array. -/
theorem cover5 (i : S1x1.Idx) : ∃ t : Fin cfg5.N, (cfg5.win 5).flush t = true ∧ i ∈ ((cfg5.win 5).blk t).view.set :=
  ⟨t5_9, (flush5_5 t5_9).mpr rfl, by
    show i ∈ ((View.whole main_v63).slice (win5_5.rect t5_9)).set
    rw [View.set_slice_whole, Rect.mem_set_unit]
    intro a
    have h0 : (i 0 : Nat) < 1 := (i 0).isLt
    have h1 : (i 1 : Nat) < 1 := (i 1).isLt
    match a with
    | ⟨0, _⟩ => show win5_5.index t5_9 0 * win5_5.size 0 ≤ (i 0 : Nat) ∧ (i 0 : Nat) < win5_5.index t5_9 0 * win5_5.size 0 + win5_5.xsize (grid5.coords t5_9) 0
                rw [show win5_5.index t5_9 0 * win5_5.size 0 = 0 from by decide +kernel, show win5_5.xsize (grid5.coords t5_9) 0 = 1 from by decide +kernel]; omega
    | ⟨1, _⟩ => show win5_5.index t5_9 1 * win5_5.size 1 ≤ (i 1 : Nat) ∧ (i 1 : Nat) < win5_5.index t5_9 1 * win5_5.size 1 + win5_5.xsize (grid5.coords t5_9) 1
                rw [show win5_5.index t5_9 1 * win5_5.size 1 = 0 from by decide +kernel, show win5_5.xsize (grid5.coords t5_9) 1 = 1 from by decide +kernel]; omega⟩

/-- THE OUTPUT ARRAY after the region: what the body leaves in the output window's buffer at the last point. -/
theorem arr5 (c : Dev nD) : (dat5 V c).arrAt 5 cfg5.N = (outsAt5 V c 9 (by rw [show cfg5.N = 10 from N_5]; decide)).1 :=
  (dat5 V c).arrAt_eq_of_cover 5 (outsAt5 V c 9 (by rw [show cfg5.N = 10 from N_5]; decide)).1 (flushed5_eq V c) (cover5)

end Cert.KernelIdeal.Hand

end
-- ==== Proof.KIValue.lean ====
import proofs.«106155_j30657476559342_2_alg».proof.Proof.KIChain
import proofs.«106155_j30657476559342_2_alg».proof.Proof.KILayer
import proofs.«106155_j30657476559342_2_alg».proof.Proof.KIVal5
import proofs.«106155_j30657476559342_2_alg».proof.Proof.Spec

/-!
# The idealized program's result is the specification's number

Read at an index, every stage is the specification's: the source-scaled projected features, their sum over the
edges landing on a node, and the activation `tanh (dinv p · sum + b)` — the specification's layer, three times —
then the column maxima over all nodes and the last linear map.
-/

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The argument arrays as launched, entry by entry. -/
abbrev xS : Fin 100000 → Fin 128 → EReal := fun p k => (W0 m c (Proc.devRef .tc main_arg0) : S100000x128.Idx → EReal) (ix2 p k)
abbrev W1S : Fin 128 → Fin 16 → EReal := fun k q => (W0 m c (Proc.devRef .tc main_arg1) : S128x16.Idx → EReal) (ix2 k q)
abbrev b1S : Fin 16 → EReal := fun q => (W0 m c (Proc.devRef .tc main_arg2) : S16.Idx → EReal) (ix1 q)
abbrev W2S : Fin 16 → Fin 32 → EReal := fun k q => (W0 m c (Proc.devRef .tc main_arg3) : S16x32.Idx → EReal) (ix2 k q)
abbrev b2S : Fin 32 → EReal := fun q => (W0 m c (Proc.devRef .tc main_arg4) : S32.Idx → EReal) (ix1 q)
abbrev W3S : Fin 32 → Fin 64 → EReal := fun k q => (W0 m c (Proc.devRef .tc main_arg5) : S32x64.Idx → EReal) (ix2 k q)
abbrev b3S : Fin 64 → EReal := fun q => (W0 m c (Proc.devRef .tc main_arg6) : S64.Idx → EReal) (ix1 q)
abbrev WlS : Fin 64 → EReal := fun k => (W0 m c (Proc.devRef .tc main_arg7) : S64x1.Idx → EReal) (ix2 k (0 : Fin 1))
abbrev blS : EReal := (W0 m c (Proc.devRef .tc main_arg8) : S1.Idx → EReal) (ix1 (0 : Fin 1))

/-- The activation of an aggregated row is the specification's layer, once the three readings are in place. -/
theorem layer_core {A B : Nat} (ei : (⟨2, ![2, 1600000]⟩ : Shape).Idx → BitVec 32)
    (H : Fin 100000 → Fin A → EReal) (W : Fin A → Fin B → EReal) (b : Fin B → EReal) (d a0 bb : EReal)
    (p : Fin 100000) (q : Fin B)
    (ha : a0 = 0 + ∑ e ∈ Cert.Spec.into ei p, (∑ k : Fin A, H (Cert.Spec.srcNode ei e) k * W k q) * Cert.Spec.dinv ei (Cert.Spec.srcNode ei e))
    (hd : d = Cert.Spec.dinv ei p) (hb : bb = b q) :
    Ideal.tanh (d * a0 + bb) = Cert.Spec.layer ei H W b p q := by
  rw [ha, hd, hb]
  unfold Cert.Spec.layer
  rfl

/-! ## Layer 1 -/

theorem hs1_apply (n : Fin 100000) (q : Fin 16) :
    hs1 m c (ix2 n q) = (∑ k : Fin 128, xS m c n k * W1S m c k q) * Cert.Spec.dinv (eiOf m c) n :=
  (congrArg (fun t => (∑ k : Fin 128, xS m c n k * W1S m c k q) * t) (dinvcol_apply (eiOf m c) n) :
    (∑ k : Fin 128, xS m c n k * W1S m c k q) * Dcol m c (ix2 n (0 : Fin 1)) = _)
theorem act1_apply (p : Fin 100000) (q : Fin 16) :
    act1 m c (ix2 p q) = Cert.Spec.layer (eiOf m c) (xS m c) (W1S m c) (b1S m c) p q :=
  layer_core (eiOf m c) (xS m c) (W1S m c) (b1S m c) (Dcol m c (ix2 p (0 : Fin 1))) (ag1 m c (ix2 p q))
    (shapeCast S1x16 (W0 m c (Proc.devRef .tc main_arg2)) shapeCasts_S16_S1x16 (ix2 (0 : Fin 1) q)) p q
    ((agg16_apply (eiOf m c) (hs1 m c) p q).trans
      (congrArg (0 + ·) (Finset.sum_congr rfl fun e _ => hs1_apply m c _ q)))
    (dinvcol_apply (eiOf m c) p) (row16_apply _ q)

/-! ## Layer 2 -/

/-- The projected, source-scaled features at an entry, for any feature array. -/
theorem G2_apply (a0 : S100000x16.Idx → EReal) (a1 : S16x32.Idx → EReal) (a2 : S100000x1.Idx → EReal) (n : Fin 100000) (q : Fin 32) :
    G2 a0 a1 a2 (ix2 n q) = (∑ k : Fin 16, a0 (ix2 n k) * a1 (ix2 k q)) * a2 (ix2 n (0 : Fin 1)) := rfl
theorem hs2_apply (n : Fin 100000) (q : Fin 32) :
    hs2 m c (ix2 n q) = (∑ k : Fin 16, Cert.Spec.layer (eiOf m c) (xS m c) (W1S m c) (b1S m c) n k * W2S m c k q) * Cert.Spec.dinv (eiOf m c) n :=
  (G2_apply (act1 m c) (W0 m c (Proc.devRef .tc main_arg3)) (Dcol m c) n q).trans
    ((congrArg (fun t => (∑ k : Fin 16, act1 m c (ix2 n k) * W2S m c k q) * t) (dinvcol_apply (eiOf m c) n)).trans
      (congrArg (fun s => s * Cert.Spec.dinv (eiOf m c) n)
        (Finset.sum_congr rfl fun k _ => congrArg (fun t => t * W2S m c k q) (act1_apply m c n k))))
theorem act2_apply (p : Fin 100000) (q : Fin 32) :
    act2 m c (ix2 p q) = Cert.Spec.layer (eiOf m c) (Cert.Spec.layer (eiOf m c) (xS m c) (W1S m c) (b1S m c)) (W2S m c) (b2S m c) p q :=
  layer_core (eiOf m c) (Cert.Spec.layer (eiOf m c) (xS m c) (W1S m c) (b1S m c)) (W2S m c) (b2S m c)
    (Dcol m c (ix2 p (0 : Fin 1))) (ag2 m c (ix2 p q))
    (shapeCast S1x32 (W0 m c (Proc.devRef .tc main_arg4)) shapeCasts_S32_S1x32 (ix2 (0 : Fin 1) q)) p q
    ((agg32_apply (eiOf m c) (hs2 m c) p q).trans
      (congrArg (0 + ·) (Finset.sum_congr rfl fun e _ => hs2_apply m c _ q)))
    (dinvcol_apply (eiOf m c) p) (row32_apply _ q)

/-! ## Layer 3 -/

/-- The projected, source-scaled features at an entry, for any feature array. -/
theorem G4_apply (a0 : S100000x32.Idx → EReal) (a1 : S32x64.Idx → EReal) (a2 : S100000x1.Idx → EReal) (n : Fin 100000) (q : Fin 64) :
    G4 a0 a1 a2 (ix2 n q) = (∑ k : Fin 32, a0 (ix2 n k) * a1 (ix2 k q)) * a2 (ix2 n (0 : Fin 1)) := rfl
theorem hs3_apply (n : Fin 100000) (q : Fin 64) :
    hs3 m c (ix2 n q) = (∑ k : Fin 32, Cert.Spec.layer (eiOf m c) (Cert.Spec.layer (eiOf m c) (xS m c) (W1S m c) (b1S m c)) (W2S m c) (b2S m c) n k * W3S m c k q) * Cert.Spec.dinv (eiOf m c) n :=
  (G4_apply (act2 m c) (W0 m c (Proc.devRef .tc main_arg5)) (Dcol m c) n q).trans
    ((congrArg (fun t => (∑ k : Fin 32, act2 m c (ix2 n k) * W3S m c k q) * t) (dinvcol_apply (eiOf m c) n)).trans
      (congrArg (fun s => s * Cert.Spec.dinv (eiOf m c) n)
        (Finset.sum_congr rfl fun k _ => congrArg (fun t => t * W3S m c k q) (act2_apply m c n k))))
theorem act3_apply (p : Fin 100000) (q : Fin 64) :
    Ideal.tanh (Dcol m c (ix2 p (0 : Fin 1)) * ag3 m c (ix2 p q) + shapeCast S1x64 (W0 m c (Proc.devRef .tc main_arg6)) shapeCasts_S64_S1x64 (ix2 (0 : Fin 1) q))
      = Cert.Spec.h3 (eiOf m c) (xS m c) (W1S m c) (b1S m c) (W2S m c) (b2S m c) (W3S m c) (b3S m c) p q :=
  layer_core (eiOf m c) (Cert.Spec.layer (eiOf m c) (Cert.Spec.layer (eiOf m c) (xS m c) (W1S m c) (b1S m c)) (W2S m c) (b2S m c)) (W3S m c) (b3S m c)
    (Dcol m c (ix2 p (0 : Fin 1))) (ag3 m c (ix2 p q))
    (shapeCast S1x64 (W0 m c (Proc.devRef .tc main_arg6)) shapeCasts_S64_S1x64 (ix2 (0 : Fin 1) q)) p q
    ((agg64_apply (eiOf m c) (hs3 m c) p q).trans
      (congrArg (0 + ·) (Finset.sum_congr rfl fun e _ => hs3_apply m c _ q)))
    (dinvcol_apply (eiOf m c) p) (row64_apply _ q)

end Cert.KernelIdeal.Hand

end
-- ==== Proof.KIReg5Val.lean ====
import proofs.«106155_j30657476559342_2_alg».proof.Proof.KIReg5
import Idealize.ShloMosaic.Lib.Pipeline.Value

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a whole-block rectangle of rank two. -/
theorem hz2 : (![0, 0] : Fin 2 → Nat) = fun _ => 0 := funext fun a => by fin_cases a <;> rfl

/-- The first point leaves in the scratch the maximum of the sentinel row and the column maxima of the activated block. -/
theorem sout5_A_0_eq (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : cond5_0 i) (hc1 : ¬cond5_1 i)
    (x0 : Vec F S10000x64 .f32) (x1 : Vec F S10000x1 .f32) (x2 : Vec F S1x64 .f32) (x3 : Vec F S64x1 .f32) (x4 : Vec F S1x1 .f32) :
    sout5_A_0 c i arg1 harg1 arg2 harg2 arg3 harg3 arg4 harg4 arg5 harg5 arg6 harg6 arg7 harg7 hc0 hc1 x0 x1 x2 x3 x4 = k5_pay2 x1 x0 x2 k5_pay1 := by
  unfold sout5_A_0
  rw [View.read_writes_eq_canon _ _ _ (scover5_A_0 c i arg1 harg1 arg2 harg2 arg3 harg3 arg4 harg4 arg5 harg5 arg6 harg6 arg7 harg7 hc0 hc1 x0 x1 x2 x3 x4)]
  unfold kernelRun5_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg7.read_unread, View.ld_unit_zero (S := S10000x64) hz2, View.ld_unit_zero (S := S10000x1) hz2, View.ld_unit_zero (S := S1x64) hz2, View.ld_unit_zero (S := S64x1) hz2, View.ld_unit_zero (S := S1x1) hz2]

/-- A middle point leaves in the scratch the maximum of what the point before left and the column maxima of the activated block. -/
theorem sout5_B_0_eq (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : ¬cond5_1 i)
    (x0 : Vec F S10000x64 .f32) (x1 : Vec F S10000x1 .f32) (x2 : Vec F S1x64 .f32) (x3 : Vec F S64x1 .f32) (x4 : Vec F S1x1 .f32) (xs0 : Vec F S1x64 .f32) :
    sout5_B_0 c i arg1 harg1 arg2 harg2 arg3 harg3 arg4 harg4 arg5 harg5 arg6 harg6 arg7 harg7 hc0 hc1 x0 x1 x2 x3 x4 xs0 = k5_pay2 x1 x0 x2 xs0 := by
  unfold sout5_B_0
  rw [View.read_writes_eq_canon _ _ _ (scover5_B_0 c i arg1 harg1 arg2 harg2 arg3 harg3 arg4 harg4 arg5 harg5 arg6 harg6 arg7 harg7 hc0 hc1 x0 x1 x2 x3 x4 xs0)]
  unfold kernelRun5_B
  dsimp only
  sl_unfold_words
  rw [View.canon_unit_zero (S := S1x64) hz2]
  simp only [View.readAt_eq_ld, harg1.read_unread, harg2.read_unread, harg3.read_unread, harg4.read_unread, harg5.read_unread, harg7.read_unread, View.ld_unit_zero (S := S10000x64) hz2, View.ld_unit_zero (S := S10000x1) hz2, View.ld_unit_zero (S := S1x64) hz2, View.ld_unit_zero (S := S64x1) hz2, View.ld_unit_zero (S := S1x1) hz2]

/-- The last point leaves in the scratch the maximum of what the point before left and the column maxima of the activated block. -/
theorem sout5_C_0_eq (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) :
    sout5_C_0 c i arg1 harg1 arg2 harg2 arg3 harg3 arg4 harg4 arg5 harg5 arg6 harg6 arg7 harg7 hc0 hc1 x0 x1 x2 x3 x4 xs0 = k5_pay2 x1 x0 x2 xs0 := by
  unfold sout5_C_0
  rw [View.read_writes_eq_canon _ _ _ (scover5_C_0 c i arg1 harg1 arg2 harg2 arg3 harg3 arg4 harg4 arg5 harg5 arg6 harg6 arg7 harg7 hc0 hc1 x0 x1 x2 x3 x4 xs0)]
  unfold kernelRun5_C
  dsimp only
  sl_unfold_words
  rw [View.canon_unit_zero (S := S1x64) hz2]
  simp only [View.readAt_eq_ld, harg1.read_unread, harg2.read_unread, harg3.read_unread, harg4.read_unread, harg5.read_unread, harg7.read_unread, View.ld_unit_zero (S := S10000x64) hz2, View.ld_unit_zero (S := S10000x1) hz2, View.ld_unit_zero (S := S1x64) hz2, View.ld_unit_zero (S := S64x1) hz2, View.ld_unit_zero (S := S1x1) hz2]

/-- The last point stores into the output block the affine map of the pooled row: the product of the scratch (as this point leaves it) with the weight column, plus the bias. -/
theorem out5_C_5_eq (c : Dev nD) (i : grid5.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x64 .f32) (harg7 : arg7.IsWhole) (hc0 : ¬cond5_0 i) (hc1 : cond5_1 i)
    (x0 : Vec F S10000x64 .f32) (x1 : Vec F S10000x1 .f32) (x2 : Vec F S1x64 .f32) (x3 : Vec F S64x1 .f32) (x4 : Vec F S1x1 .f32) (xs0 : Vec F S1x64 .f32) :
    out5_C_5 c i arg1 harg1 arg2 harg2 arg3 harg3 arg4 harg4 arg5 harg5 arg6 harg6 arg7 harg7 hc0 hc1 x0 x1 x2 x3 x4 xs0 = k5_pay3 (k5_pay2 x1 x0 x2 xs0) x3 x4 := by
  unfold out5_C_5
  rw [View.read_writes_eq_canon _ _ _ (cover5_C_5 c i arg1 harg1 arg2 harg2 arg3 harg3 arg4 harg4 arg5 harg5 arg6 harg6 arg7 harg7 hc0 hc1 x0 x1 x2 x3 x4 xs0)]
  unfold kernelRun5_C
  dsimp only
  sl_unfold_words
  rw [View.canon_unit_zero (S := S1x1) hz2, View.readCov_unit_zero (S := S1x64) _ hz2]
  simp only [View.readAt_eq_ld, harg1.read_unread, harg2.read_unread, harg3.read_unread, harg4.read_unread, harg5.read_unread, harg7.read_unread, View.ld_unit_zero (S := S10000x64) hz2, View.ld_unit_zero (S := S10000x1) hz2, View.ld_unit_zero (S := S1x64) hz2, View.ld_unit_zero (S := S64x1) hz2, View.ld_unit_zero (S := S1x1) hz2]

section Region5
variable (V : (c : Dev nD) → (b : Ref sig .tc) → Buf (Elt F) ((c : Thread nD τ).loc b))

/-- After the first point the scratch holds the maximum of the sentinel row and the column maxima of the first block's
    activations. -/
theorem outsAt5_scratch_zero (c : Dev nD) (h : 0 < cfg5.N) :
    (outsAt5 V c 0 h).2 = k5_pay2 (iblk5 V c 1 ⟨0, h⟩) (iblk5 V c 0 ⟨0, h⟩) (iblk5 V c 2 ⟨0, h⟩) k5_pay1 := by
  have e := outsAt5_A V c ⟨0, h⟩ rfl (by dsimp only; omega)
  dsimp only at e
  rw [e]
  dsimp only
  rw [sout5_A_0_eq]

/-- After every later point the scratch holds the maximum of what the point before left and the column maxima of this
    point's block's activations. -/
theorem outsAt5_scratch_succ (c : Dev nD) (n : ℕ) (h : n + 1 < cfg5.N) :
    (outsAt5 V c (n + 1) h).2
      = k5_pay2 (iblk5 V c 1 ⟨n + 1, h⟩) (iblk5 V c 0 ⟨n + 1, h⟩) (iblk5 V c 2 ⟨n + 1, h⟩) (outsAt5 V c n (Nat.lt_of_succ_lt h)).2 := by
  have hN : n + 1 < 10 := lt_of_lt_of_eq h (show cfg5.N = 10 from N_5)
  have h0 : ¬(⟨n + 1, h⟩ : Fin cfg5.N).val % 10 = 0 := by dsimp only; omega
  by_cases h1 : (⟨n + 1, h⟩ : Fin cfg5.N).val % 10 = 9
  · have e := outsAt5_C V c ⟨n + 1, h⟩ h0 h1
    dsimp only at e
    rw [e]
    dsimp only
    rw [sout5_C_0_eq]
    rfl
  · have e := outsAt5_B V c ⟨n + 1, h⟩ h0 h1
    dsimp only at e
    rw [e]
    dsimp only
    rw [sout5_B_0_eq]
    rfl

/-- After the last point the output block holds the affine map of the scratch as that point leaves it. -/
theorem outsAt5_out_last (c : Dev nD) (t : Fin cfg5.N) (h9 : t.val = 9) :
    (outsAt5 V c t.val t.isLt).1 = k5_pay3 (outsAt5 V c t.val t.isLt).2 (iblk5 V c 3 t) (iblk5 V c 4 t) := by
  have h0 : ¬t.val % 10 = 0 := by omega
  have h1 : t.val % 10 = 9 := by omega
  rw [outsAt5_C V c t h0 h1]
  dsimp only
  rw [out5_C_5_eq, sout5_C_0_eq]

end Region5

end Cert.KernelIdeal.Hand

end
-- ==== Proof.KIReg5MaxPay.lean ====
import proofs.«106155_j30657476559342_2_alg».proof.Proof.Gen.KernelIdeal.Skeleton
import proofs.«106155_j30657476559342_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-!
# The three stored values of the pooling body, read at an entry on the extended reals

The reset stores a constant row. The accumulation stores, at column k, the maximum of the row it read and of the column
maximum over the block's rows of tanh (scale · feature + bias). The last point stores the product of the pooled row
with the weight column, plus the bias.
-/

set_option maxRecDepth 16384

noncomputable section

namespace Cert.KernelIdeal.Hand

open Cert.KernelIdeal Cert.KernelIdeal.Gen
open Idealize.ShloMosaic Idealize.ShloMosaic.ValueIdx
open scoped BigOperators

/-- The pattern with sign set, exponent all ones and fraction zero denotes −∞. -/
theorem ofBits_negInf : Ideal.ofBits .f32 0xFF800000#32 = ⊥ := by
  simp [Ideal.ofBits, Ideal.ieee]

/-- A fold by `max` from `⊥` is the supremum. -/
theorem foldMax_bot_eq_sup {ι : Type*} (s : Finset ι) (f : ι → EReal) : s.fold max ⊥ f = s.sup f := by
  classical
  induction s using Finset.induction_on with
  | empty => simp
  | insert a s ha ih => rw [Finset.fold_insert ha, Finset.sup_insert, ih]

/-- A column [a, 1] repeated across b columns reads, at (p, c), the column at p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of the reduced shape with row r put back on the reduced axis is (r, k). -/
theorem lift_row (h : S10000x64.Reduces [0] S64) (k : Fin 64) (r : Fin 10000) :
    h.lift (ix1 k) r = ix2 r k := by
  funext c; apply Fin.ext
  fin_cases c <;> rfl

/-- The maximum over the rows of a [10000, 64] block from −∞, at column k: the supremum over the rows. -/
theorem colMax_apply (g : FVec Ideal S10000x64 .f32) (k : Fin 64) (hφ : FKind.Formats .f32)
    (hacc : (0xFF800000#32 : BitVec 32) = FKind.maximumf.neutral .f32 hφ) :
    multiReduction .maximumf [0] S64 g 0xFF800000#32 reduces_S10000x64_S64 hφ hacc (ix1 k)
      = Finset.univ.sup fun r : Fin 10000 => g (ix2 r k) := by
  refine (Ideal.multiReduction_maximumf_single g _ reduces_S10000x64_S64 hφ hacc (ix1 k)).trans ?_
  show (Finset.univ : Finset (Fin 10000)).fold max (Ideal.ofBits .f32 0xFF800000#32)
      (fun r : Fin 10000 => g (reduces_S10000x64_S64.lift (ix1 k) r)) = _
  rw [ofBits_negInf, foldMax_bot_eq_sup]
  exact congrArg (Finset.univ.sup) (funext fun r => congrArg g (lift_row reduces_S10000x64_S64 k r))

/-- The reset's row: the constant everywhere. -/
theorem k5pay1_apply (k : Fin 64) :
    k5_pay1 (F := Ideal) (ix2 (0 : Fin 1) k) = Ideal.ofBits .f32 0xFF333332#32 := by
  unfold k5_pay1
  simp only [shapeCast_self]
  rfl

/-- The accumulation's row at column k: the maximum of the row read and of the supremum over the block's rows of
    tanh (scale · feature + bias). -/
theorem k5pay2_apply (v3 : Vec Ideal S10000x1 .f32) (v5 : Vec Ideal S10000x64 .f32) (v9 v14 : Vec Ideal S1x64 .f32) (k : Fin 64) :
    k5_pay2 v3 v5 v9 v14 (ix2 (0 : Fin 1) k)
      = max (v14 (ix2 (0 : Fin 1) k))
          (Finset.univ.sup fun r : Fin 10000 => Ideal.tanh (v3 (ix2 r (0 : Fin 1)) * v5 (ix2 r k) + v9 (ix2 (0 : Fin 1) k))) := by
  unfold k5_pay2
  simp only [shapeCast_self]
  refine congrArg (max (v14 (ix2 (0 : Fin 1) k))) ?_
  refine (shapeCast_a_1a_apply _ _ (0 : Fin 1) k).trans ?_
  refine (colMax_apply _ k _ _).trans ?_
  refine congrArg (Finset.univ.sup) (funext fun r => ?_)
  exact congrArg Ideal.tanh (congrArg₂ (· + ·)
    (congrArg (· * v5 (ix2 r k)) (colBroadcast_apply v3 broadcasts_S10000x1_S10000x64 r k))
    (broadcastTo_1b_ab_apply v9 broadcasts_S1x64_S10000x64 r k))

/-- The last point's entry: the pooled row times the weight column, plus the bias. -/
theorem k5pay3_apply (v24 : Vec Ideal S1x64 .f32) (v25 : Vec Ideal S64x1 .f32) (v27 : Vec Ideal S1x1 .f32) :
    k5_pay3 v24 v25 v27 (ix2 (0 : Fin 1) (0 : Fin 1))
      = (∑ k : Fin 64, v24 (ix2 (0 : Fin 1) k) * v25 (ix2 k (0 : Fin 1))) + v27 (ix2 (0 : Fin 1) (0 : Fin 1)) := by
  unfold k5_pay3
  simp only [shapeCast_self]
  exact congrArg (· + v27 (ix2 (0 : Fin 1) (0 : Fin 1)))
    (Cert.PlainDot.matmul_zero_apply 1 64 1 none v24 v25 (0 : Fin 1) (0 : Fin 1))

end Cert.KernelIdeal.Hand

end
-- ==== Proof.KIReg5MaxBlk.lean ====
import proofs.«106155_j30657476559342_2_alg».proof.Proof.KIReg5Runs
import Idealize.ShloMosaic.Lib.Pipeline.Value
import Idealize.ShloMosaic.Lib.ValueIdx

/-!
# The pooling region's input blocks, read at an entry of their arrays

Block t of the feature array and of the scale column is rows 10000·t … 10000·t + 9999; the bias row, the weight column
and the output bias are their whole arrays at every point.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- The block index of the two row-blocked windows is the point; of the other three it is zero. -/
theorem idx5_0 : ∀ t : Fin cfg5.N, win5_0.index t 0 = t.val ∧ win5_0.index t 1 = 0 :=
  (by decide +kernel : ∀ t : Fin grid5.N, win5_0.index t 0 = t.val ∧ win5_0.index t 1 = 0)
theorem idx5_1 : ∀ t : Fin cfg5.N, win5_1.index t 0 = t.val ∧ win5_1.index t 1 = 0 :=
  (by decide +kernel : ∀ t : Fin grid5.N, win5_1.index t 0 = t.val ∧ win5_1.index t 1 = 0)
theorem idx5_2 : ∀ t : Fin cfg5.N, win5_2.index t 0 = 0 ∧ win5_2.index t 1 = 0 :=
  (by decide +kernel : ∀ t : Fin grid5.N, win5_2.index t 0 = 0 ∧ win5_2.index t 1 = 0)
theorem idx5_3 : ∀ t : Fin cfg5.N, win5_3.index t 0 = 0 ∧ win5_3.index t 1 = 0 :=
  (by decide +kernel : ∀ t : Fin grid5.N, win5_3.index t 0 = 0 ∧ win5_3.index t 1 = 0)
theorem idx5_4 : ∀ t : Fin cfg5.N, win5_4.index t 0 = 0 ∧ win5_4.index t 1 = 0 :=
  (by decide +kernel : ∀ t : Fin grid5.N, win5_4.index t 0 = 0 ∧ win5_4.index t 1 = 0)

section Region5
variable (V : (c : Dev nD) → (b : Ref sig .tc) → Buf (Elt F) ((c : Thread nD τ).loc b))

/-- Entry (r, k) of the feature block at point t is entry (10000·t + r, k) of the feature array. -/
theorem iblk5_0_apply (c : Dev nD) (t : Fin cfg5.N) (r : Fin 10000) (k : Fin 64) (p : Fin 100000)
    (hp : p.val = 10000 * t.val + r.val) :
    (iblk5 V c 0 t : Vec F S10000x64 .f32) (ix2 r k) = (V c main_v59 : Vec F S100000x64 .f32) (ix2 p k) := by
  have hi := idx5_0 t
  unfold iblk5
  rw [View.read_apply]
  show V c main_v59 _ = V c main_v59 _
  refine congrArg (V c main_v59) ?_
  funext a
  apply Fin.ext
  match a with
  | ⟨0, _⟩ => show win5_0.index t 0 * 10000 + 1 * r.val = p.val; rw [hi.1, hp]; omega
  | ⟨1, _⟩ => show win5_0.index t 1 * 64 + 1 * k.val = k.val; rw [hi.2]; omega

/-- Entry (r, 0) of the scale block at point t is entry (10000·t + r, 0) of the scale column. -/
theorem iblk5_1_apply (c : Dev nD) (t : Fin cfg5.N) (r : Fin 10000) (p : Fin 100000)
    (hp : p.val = 10000 * t.val + r.val) :
    (iblk5 V c 1 t : Vec F S10000x1 .f32) (ix2 r (0 : Fin 1)) = (V c main_v60 : Vec F S100000x1 .f32) (ix2 p (0 : Fin 1)) := by
  have hi := idx5_1 t
  unfold iblk5
  rw [View.read_apply]
  show V c main_v60 _ = V c main_v60 _
  refine congrArg (V c main_v60) ?_
  funext a
  apply Fin.ext
  match a with
  | ⟨0, _⟩ => show win5_1.index t 0 * 10000 + 1 * r.val = p.val; rw [hi.1, hp]; omega
  | ⟨1, _⟩ => show win5_1.index t 1 * 1 + 1 * 0 = 0; rw [hi.2]

/-- The bias row's block is the bias row at every point. -/
theorem iblk5_2_apply (c : Dev nD) (t : Fin cfg5.N) (k : Fin 64) :
    (iblk5 V c 2 t : Vec F S1x64 .f32) (ix2 (0 : Fin 1) k) = (V c main_v61 : Vec F S1x64 .f32) (ix2 (0 : Fin 1) k) := by
  have hi := idx5_2 t
  unfold iblk5
  rw [View.read_apply]
  show V c main_v61 _ = V c main_v61 _
  refine congrArg (V c main_v61) ?_
  funext a
  apply Fin.ext
  match a with
  | ⟨0, _⟩ => show win5_2.index t 0 * 1 + 1 * 0 = 0; rw [hi.1]
  | ⟨1, _⟩ => show win5_2.index t 1 * 64 + 1 * k.val = k.val; rw [hi.2]; omega

/-- The weight column's block is the weight column at every point. -/
theorem iblk5_3_apply (c : Dev nD) (t : Fin cfg5.N) (k : Fin 64) :
    (iblk5 V c 3 t : Vec F S64x1 .f32) (ix2 k (0 : Fin 1)) = (V c main_arg7 : Vec F S64x1 .f32) (ix2 k (0 : Fin 1)) := by
  have hi := idx5_3 t
  unfold iblk5
  rw [View.read_apply]
  show V c main_arg7 _ = V c main_arg7 _
  refine congrArg (V c main_arg7) ?_
  funext a
  apply Fin.ext
  match a with
  | ⟨0, _⟩ => show win5_3.index t 0 * 64 + 1 * k.val = k.val; rw [hi.1]; omega
  | ⟨1, _⟩ => show win5_3.index t 1 * 1 + 1 * 0 = 0; rw [hi.2]

/-- The output bias's block is the output bias at every point. -/
theorem iblk5_4_apply (c : Dev nD) (t : Fin cfg5.N) :
    (iblk5 V c 4 t : Vec F S1x1 .f32) (ix2 (0 : Fin 1) (0 : Fin 1)) = (V c main_v62 : Vec F S1x1 .f32) (ix2 (0 : Fin 1) (0 : Fin 1)) := by
  have hi := idx5_4 t
  unfold iblk5
  rw [View.read_apply]
  show V c main_v62 _ = V c main_v62 _
  refine congrArg (V c main_v62) ?_
  funext a
  apply Fin.ext
  match a with
  | ⟨0, _⟩ => show win5_4.index t 0 * 1 + 1 * 0 = 0; rw [hi.1]
  | ⟨1, _⟩ => show win5_4.index t 1 * 1 + 1 * 0 = 0; rw [hi.2]

end Region5

end Cert.KernelIdeal.Hand

end
-- ==== Proof.KIReg5MaxSup.lean ====
import Idealize.ShloMosaic.PureOps.Ideal.Laws
import Mathlib.Analysis.Complex.Trigonometric

/-!
# Suprema over row blocks, and the floor of tanh

A supremum over the first (m+1)·10000 of 100000 rows is the maximum of the supremum over the first m·10000 rows and
the supremum over the block of rows m·10000 … m·10000 + 9999. On the extended reals tanh is never below −1, and the
pattern the reset stores denotes a real below −1.
-/

noncomputable section

namespace Cert.KernelIdeal.Hand

open Idealize.ShloMosaic

/-- Row r of block m among 100000 rows in blocks of 10000. -/
def blockRow (m : ℕ) (hm : 10000 * (m + 1) ≤ 100000) (r : Fin 10000) : Fin 100000 :=
  ⟨10000 * m + r.val, by have := r.isLt; omega⟩

theorem blockRow_val (m : ℕ) (hm : 10000 * (m + 1) ≤ 100000) (r : Fin 10000) :
    (blockRow m hm r).val = 10000 * m + r.val := rfl

/-- The rows before block m. -/
def rowsBefore (m : ℕ) : Finset (Fin 100000) := Finset.univ.filter fun p => p.val < 10000 * m

theorem rowsBefore_zero : rowsBefore 0 = ∅ := by
  unfold rowsBefore; exact Finset.filter_false_of_mem fun p _ => by omega

theorem rowsBefore_ten : rowsBefore 10 = Finset.univ := by
  unfold rowsBefore; exact Finset.filter_true_of_mem fun p _ => by have := p.isLt; omega

/-- One more block. -/
theorem sup_rowsBefore_succ (f : Fin 100000 → EReal) (m : ℕ) (hm : 10000 * (m + 1) ≤ 100000) :
    (rowsBefore (m + 1)).sup f = max ((rowsBefore m).sup f) (Finset.univ.sup fun r : Fin 10000 => f (blockRow m hm r)) := by
  apply le_antisymm
  · refine Finset.sup_le fun p hp => ?_
    have hp' : p.val < 10000 * (m + 1) := (Finset.mem_filter.mp hp).2
    by_cases hlt : p.val < 10000 * m
    · exact le_trans (Finset.le_sup (f := f) (Finset.mem_filter.mpr ⟨Finset.mem_univ p, hlt⟩)) (le_max_left _ _)
    · have hr : p.val - 10000 * m < 10000 := by omega
      have hpe : p = blockRow m hm ⟨p.val - 10000 * m, hr⟩ := Fin.ext (by rw [blockRow_val]; show p.val = 10000 * m + (p.val - 10000 * m); omega)
      refine le_trans ?_ (le_max_right _ _)
      rw [hpe]
      exact Finset.le_sup (f := fun r : Fin 10000 => f (blockRow m hm r)) (Finset.mem_univ _)
  · refine max_le ?_ ?_
    · refine Finset.sup_mono fun p hp => ?_
      have hp' : p.val < 10000 * m := (Finset.mem_filter.mp hp).2
      exact Finset.mem_filter.mpr ⟨Finset.mem_univ p, by omega⟩
    · refine Finset.sup_le fun r _ => ?_
      exact Finset.le_sup (f := f) (Finset.mem_filter.mpr ⟨Finset.mem_univ _, by rw [blockRow_val]; have := r.isLt; omega⟩)

/-- On the extended reals tanh is never below −1. -/
theorem neg_one_le_tanh (x : EReal) : (-1 : EReal) ≤ Ideal.tanh x := by
  induction x using EReal.rec with
  | bot => exact le_of_eq rfl
  | top =>
    show (-1 : EReal) ≤ 1
    have h : ((-1 : ℝ) : EReal) ≤ ((1 : ℝ) : EReal) := EReal.coe_le_coe_iff.mpr (by norm_num)
    simpa using h
  | coe r =>
    show (-1 : EReal) ≤ ((Real.tanh r : ℝ) : EReal)
    have h : ((-1 : ℝ) : EReal) ≤ ((Real.tanh r : ℝ) : EReal) := EReal.coe_le_coe_iff.mpr (le_of_lt (Real.neg_one_lt_tanh r))
    simpa using h

/-- The pattern the reset stores denotes a real number below −1. -/
theorem sentinel_le : Ideal.ofBits .f32 0xFF333332#32 ≤ (-1 : EReal) := by
  have h : Ideal.ofBits .f32 0xFF333332#32 = (((-11744050 * 2 ^ 104 : ℝ)) : EReal) := by
    simp [Ideal.ofBits, Ideal.ieee, -EReal.coe_mul]
  rw [h]
  have h2 : ((-11744050 * 2 ^ 104 : ℝ)) ≤ (-1 : ℝ) := by norm_num
  have h3 : (((-11744050 * 2 ^ 104 : ℝ)) : EReal) ≤ (((-1 : ℝ)) : EReal) := EReal.coe_le_coe_iff.mpr h2
  simpa using h3

/-- So the maximum of that constant with a supremum of tanh values over a nonempty family is the supremum. -/
theorem max_sentinel_sup (g : Fin 100000 → EReal) :
    max (Ideal.ofBits .f32 0xFF333332#32) (Finset.univ.sup fun p : Fin 100000 => Ideal.tanh (g p))
      = Finset.univ.sup fun p : Fin 100000 => Ideal.tanh (g p) := by
  refine max_eq_right ?_
  refine le_trans sentinel_le (le_trans (neg_one_le_tanh (g ⟨0, by norm_num⟩)) ?_)
  exact Finset.le_sup (f := fun p : Fin 100000 => Ideal.tanh (g p)) (Finset.mem_univ _)

end Cert.KernelIdeal.Hand

end
-- ==== Proof.KIReg5Max.lean ====
import proofs.«106155_j30657476559342_2_alg».proof.Proof.KIReg5Val
import proofs.«106155_j30657476559342_2_alg».proof.Proof.KIReg5MaxPay
import proofs.«106155_j30657476559342_2_alg».proof.Proof.KIReg5MaxBlk
import proofs.«106155_j30657476559342_2_alg».proof.Proof.KIReg5MaxSup

/-!
# The pooling region's result on the extended reals

After the last of the ten points the output block's one entry is the sum over the 64 columns of the column's maximum
over all 100000 rows of tanh (scale · feature + bias), times the weight, plus the output bias: the scratch after point n
holds, at column k, the maximum of the reset's constant and of the supremum over the first 10000·(n+1) rows (induction
on the point), and that constant lies below every value of tanh.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

section Region5
variable (V : (c : Dev nD) → (b : Ref sig .tc) → Buf (Elt Ideal) ((c : Thread nD τ).loc b))

/-- The five arrays the region reads, as the region finds them: features [100000, 64], scale column [100000, 1], bias
    row [1, 64], weight column [64, 1], output bias [1, 1]. -/
def feat5 (c : Dev nD) : Vec Ideal S100000x64 .f32 := V c main_v59
def scale5 (c : Dev nD) : Vec Ideal S100000x1 .f32 := V c main_v60
def bias5 (c : Dev nD) : Vec Ideal S1x64 .f32 := V c main_v61
def weight5 (c : Dev nD) : Vec Ideal S64x1 .f32 := V c main_arg7
def obias5 (c : Dev nD) : Vec Ideal S1x1 .f32 := V c main_v62

theorem feat5_eq (c : Dev nD) : feat5 V c = V c main_v59 := rfl
theorem scale5_eq (c : Dev nD) : scale5 V c = V c main_v60 := rfl
theorem bias5_eq (c : Dev nD) : bias5 V c = V c main_v61 := rfl
theorem weight5_eq (c : Dev nD) : weight5 V c = V c main_arg7 := rfl
theorem obias5_eq (c : Dev nD) : obias5 V c = V c main_v62 := rfl

/-- The activated feature at row p and column k: tanh (scale · feature + bias). -/
def act5 (c : Dev nD) (k : Fin 64) (p : Fin 100000) : EReal :=
  Ideal.tanh (scale5 V c (ix2 p (0 : Fin 1)) * feat5 V c (ix2 p k) + bias5 V c (ix2 (0 : Fin 1) k))

/-- The supremum over the rows of the block at point n is the supremum over the array's rows of that block. -/
theorem blockSup5 (c : Dev nD) (n : ℕ) (h : n < cfg5.N) (k : Fin 64) (hm : 10000 * (n + 1) ≤ 100000)
    (v3 : Vec Ideal S10000x1 .f32) (v5 : Vec Ideal S10000x64 .f32) (v9 : Vec Ideal S1x64 .f32)
    (h3 : v3 = iblk5 V c 1 ⟨n, h⟩) (h5 : v5 = iblk5 V c 0 ⟨n, h⟩) (h9 : v9 = iblk5 V c 2 ⟨n, h⟩) :
    (Finset.univ.sup fun r : Fin 10000 =>
        Ideal.tanh (v3 (ix2 r (0 : Fin 1)) * v5 (ix2 r k) + v9 (ix2 (0 : Fin 1) k)))
      = Finset.univ.sup fun r : Fin 10000 => act5 V c k (blockRow n hm r) := by
  refine congrArg (Finset.univ.sup) (funext fun r => ?_)
  subst h3 h5 h9
  exact congrArg Ideal.tanh (congrArg₂ (fun x y : EReal => x + y)
    (congrArg₂ (fun x y : EReal => x * y)
      (iblk5_1_apply V c ⟨n, h⟩ r (blockRow n hm r) (blockRow_val n hm r))
      (iblk5_0_apply V c ⟨n, h⟩ r k (blockRow n hm r) (blockRow_val n hm r)))
    (iblk5_2_apply V c ⟨n, h⟩ k))

/-- The scratch after point n, at column k: the maximum of the reset's constant and of the supremum of the activated
    features over the first 10000·(n+1) rows. -/
theorem scratch5_apply (c : Dev nD) (k : Fin 64) : ∀ (n : ℕ) (h : n < cfg5.N),
    (outsAt5 V c n h).2 (ix2 (0 : Fin 1) k)
      = max (Ideal.ofBits .f32 0xFF333332#32) ((rowsBefore (n + 1)).sup (act5 V c k))
  | 0, h => by
    have hm : 10000 * (0 + 1) ≤ 100000 := by omega
    refine (congrFun (outsAt5_scratch_zero V c h) (ix2 (0 : Fin 1) k)).trans ?_
    generalize ht : (⟨0, h⟩ : Fin cfg5.N) = t
    refine (k5pay2_apply (iblk5 V c 1 t) (iblk5 V c 0 t) (iblk5 V c 2 t) (k5_pay1 (F := Ideal)) k).trans ?_
    subst ht
    rw [k5pay1_apply, blockSup5 V c 0 h k hm _ _ _ rfl rfl rfl, sup_rowsBefore_succ (act5 V c k) 0 hm, rowsBefore_zero,
      Finset.sup_empty, max_bot_left]
  | n + 1, h => by
    have hN : n + 1 < 10 := lt_of_lt_of_eq h N_5
    have hm : 10000 * (n + 1 + 1) ≤ 100000 := by omega
    refine (congrFun (outsAt5_scratch_succ V c n h) (ix2 (0 : Fin 1) k)).trans ?_
    refine (k5pay2_apply (iblk5 V c 1 ⟨n + 1, h⟩) (iblk5 V c 0 ⟨n + 1, h⟩) (iblk5 V c 2 ⟨n + 1, h⟩)
      (outsAt5 V c n (Nat.lt_of_succ_lt h)).2 k).trans ?_
    rw [scratch5_apply c k n (Nat.lt_of_succ_lt h), blockSup5 V c (n + 1) h k hm _ _ _ rfl rfl rfl,
      sup_rowsBefore_succ (act5 V c k) (n + 1) hm, max_assoc]

/-- THE RESULT of the pooling region: the output block's entry after the last point. -/
theorem out5_value (c : Dev nD) (h9 : 9 < cfg5.N) :
    (outsAt5 V c 9 h9).1 (ix2 (0 : Fin 1) (0 : Fin 1))
      = (∑ k : Fin 64, (Finset.univ.sup fun p : Fin 100000 =>
            Ideal.tanh (scale5 V c (ix2 p (0 : Fin 1)) * feat5 V c (ix2 p k) + bias5 V c (ix2 (0 : Fin 1) k)))
          * weight5 V c (ix2 k (0 : Fin 1)))
        + obias5 V c (ix2 (0 : Fin 1) (0 : Fin 1)) := by
  refine (congrFun (outsAt5_out_last V c ⟨9, h9⟩ rfl) (ix2 (0 : Fin 1) (0 : Fin 1))).trans ?_
  refine (k5pay3_apply (outsAt5 V c 9 h9).2 (iblk5 V c 3 ⟨9, h9⟩) (iblk5 V c 4 ⟨9, h9⟩)).trans ?_
  refine congrArg₂ (fun x y : EReal => x + y) (Finset.sum_congr rfl fun k _ => ?_) (iblk5_4_apply V c ⟨9, h9⟩)
  have e10 : rowsBefore (9 + 1) = Finset.univ := rowsBefore_ten
  refine congrArg₂ (fun x y : EReal => x * y) ?_ (iblk5_3_apply V c ⟨9, h9⟩ k)
  rw [scratch5_apply V c k 9 h9, e10]
  exact max_sentinel_sup fun p : Fin 100000 =>
    scale5 V c (ix2 p (0 : Fin 1)) * feat5 V c (ix2 p k) + bias5 V c (ix2 (0 : Fin 1) k)

end Region5

end Cert.KernelIdeal.Hand

end
-- ==== Proof.KIOut.lean ====
import proofs.«106155_j30657476559342_2_alg».proof.Proof.KIValue
import proofs.«106155_j30657476559342_2_alg».proof.Proof.KIVal5
import proofs.«106155_j30657476559342_2_alg».proof.Proof.KIReg5Max
import proofs.«106155_j30657476559342_2_alg».proof.Proof.Spec

/-!
# The number the idealized program returns

The result buffer holds what the last region's last point wrote: the column maxima over all nodes of the third
layer's features, each times its output weight, summed, plus the output bias — the specification's number.
-/

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The five arrays the last region reads, as the stages before it leave them. -/
theorem feat5_V13 : feat5 (V13 m) c = ag3 m c := W13_v59 m c
theorem scale5_V13 : scale5 (V13 m) c = Dcol m c := W13_v60 m c
theorem bias5_V13 : bias5 (V13 m) c = shapeCast S1x64 (W0 m c (Proc.devRef .tc main_arg6)) shapeCasts_S64_S1x64 := W13_v61 m c
theorem weight5_V13 : weight5 (V13 m) c = W0 m c (Proc.devRef .tc main_arg7) := W13_arg7 m c
theorem obias5_V13 : obias5 (V13 m) c = shapeCast S1x1 (W0 m c (Proc.devRef .tc main_arg8)) shapeCasts_S1_S1x1 := W13_v62 m c

/-- The result buffer is the last point's output block. -/
theorem W14_v63 : W14 m c (Proc.devRef .tc main_v63)
    = (outsAt5 (V13 m) c 9 (by rw [show cfg5.N = 10 from N_5]; decide)).1 :=
  (W14_arr m c 5).trans (arr5 (V13 m) c)

/-- The result, at its one entry, is the specification's number of the launch arrays. -/
theorem result_value :
    (W14 m c (Proc.devRef .tc main_v63) : S1x1.Idx → EReal) (ix2 (0 : Fin 1) (0 : Fin 1))
      = Cert.Spec.out (eiOf m c) (xS m c) (W1S m c) (b1S m c) (W2S m c) (b2S m c) (W3S m c) (b3S m c) (WlS m c) (blS m c) := by
  rw [W14_v63]
  refine (out5_value (V13 m) c _).trans ?_
  rw [feat5_V13, scale5_V13, bias5_V13, weight5_V13, obias5_V13]
  unfold Cert.Spec.out Cert.Spec.pooled
  refine congrArg₂ (· + ·) (Finset.sum_congr rfl fun k _ => congrArg₂ (· * ·) ?_ rfl) (one11 _)
  exact congrArg (Finset.sup Finset.univ) (funext fun p => act3_apply m c p k)

/-- The same over the launch memory's argument buffers. -/
theorem result_spec (m : (ℓ : Loc nD τ sig) → Buf (Elt Ideal) ℓ) (c : Dev nD) :
    (W14 m c (Proc.devRef .tc main_v63) : (⟨2, ![1, 1]⟩ : Shape).Idx → EReal) (ix2 (0 : Fin 1) (0 : Fin 1))
      = Cert.Spec.out (m ((c.tc : Thread nD τ).loc main_arg9))
          (fun p k => m ((c.tc : Thread nD τ).loc main_arg0) (ix2 p k)) (fun k q => m ((c.tc : Thread nD τ).loc main_arg1) (ix2 k q))
          (fun q => m ((c.tc : Thread nD τ).loc main_arg2) (ix1 q)) (fun k q => m ((c.tc : Thread nD τ).loc main_arg3) (ix2 k q))
          (fun q => m ((c.tc : Thread nD τ).loc main_arg4) (ix1 q)) (fun k q => m ((c.tc : Thread nD τ).loc main_arg5) (ix2 k q))
          (fun q => m ((c.tc : Thread nD τ).loc main_arg6) (ix1 q)) (fun k => m ((c.tc : Thread nD τ).loc main_arg7) (ix2 k (0 : Fin 1)))
          (m ((c.tc : Thread nD τ).loc main_arg8) (ix1 (0 : Fin 1))) :=
  result_value m c

end Cert.KernelIdeal.Hand

end
-- ==== Proof.lean ====
/-
  The proof of `Cert.Claim`: a three-layer graph convolution with `tanh`, a maximum over the nodes and a last linear
  map, written once as a kernel program (six kernel regions between stretches of host operations) and once as a plain
  array program, return the same [1, 1] number on the extended reals whenever every float input is finite.

  Both are measured against one specification (Proof/Spec.lean): the degree of a node counts the edges landing on
  it, the scale is its inverse square root (0 where the degree is 0), a layer is
  `tanh (dinv p · Σ_{e → p} (H W)(src e) · dinv (src e) + b)`, the result is `Σ_k (max_p h3 p k) · Wl k + bl`.
  The array program multiplies every edge's row by both ends' scales before summing; the kernel program folds the
  source's scale into the row per node and applies the target's scale after summing. The two agree because a real
  factor passes through a finite sum of reals — and everything in sight is real: the inputs by the precondition,
  the degrees as finite counts, the features as hyperbolic tangents. The frame claims are the programs' runs with the
  result forgotten; the idealized kernel program is the kernel program's own text, so nothing is to be preserved.
-/
import proofs.«106155_j30657476559342_2_alg».proof.Defs
import proofs.«106155_j30657476559342_2_alg».proof.Proof.Gen.Kernel
import proofs.«106155_j30657476559342_2_alg».proof.Proof.Gen.Kernel.Skeleton
import proofs.«106155_j30657476559342_2_alg».proof.Proof.Gen.Kernel.Launch
import proofs.«106155_j30657476559342_2_alg».proof.Proof.Gen.Kernel.Regions
import proofs.«106155_j30657476559342_2_alg».proof.Proof.Gen.Kernel.Points
import proofs.«106155_j30657476559342_2_alg».proof.Proof.Gen.KernelIdeal
import proofs.«106155_j30657476559342_2_alg».proof.Proof.Gen.KernelIdeal.Skeleton
import proofs.«106155_j30657476559342_2_alg».proof.Proof.Gen.KernelIdeal.Launch
import proofs.«106155_j30657476559342_2_alg».proof.Proof.Gen.KernelIdeal.Regions
import proofs.«106155_j30657476559342_2_alg».proof.Proof.Gen.KernelIdeal.Points
import proofs.«106155_j30657476559342_2_alg».proof.Proof.Gen.ReferenceIdeal
import proofs.«106155_j30657476559342_2_alg».proof.Proof.Gen.Pre_finite_inputs
import proofs.«106155_j30657476559342_2_alg».proof.Proof.Claims
import proofs.«106155_j30657476559342_2_alg».proof.Proof.KIOut
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of Cert.KernelIdeal.Hand.result_spec⟩

end Cert.Proof

end
